-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S64x128 : Shape := ⟨2, ![64, 128]⟩
abbrev S128x64 : Shape := ⟨2, ![128, 64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128x64 .f32) (main_arg12 : FVec F S64 .f32) (main_arg13 : FVec F S64x64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg11
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg13
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_v63 main_v67

def fn_part2 {F : FTy → Type} [FloatOps F] (main_arg7 : FVec F S256x64 .f32) (main_arg8 : FVec F S64 .f32) (main_arg9 : FVec F S64x128 .f32) (main_arg10 : FVec F S128 .f32) (main_arg11 : FVec F S128x64 .f32) (main_arg12 : FVec F S64 .f32) (main_arg13 : FVec F S64x64 .f32) (main_v33 : IVec S_ 1) : IVec S_ 1 :=
  let main_v34 : FVec F S256x64 .f32 := Host.absf main_arg7
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg9
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_v48 main_v49 main_v50

def fn_part1 {F : FTy → Type} [FloatOps F] (main_arg4 : FVec F S128 .f32) (main_arg5 : FVec F S128x128 .f32) (main_arg6 : FVec F S128 .f32) (main_arg7 : FVec F S256x64 .f32) (main_arg8 : FVec F S64 .f32) (main_arg9 : FVec F S64x128 .f32) (main_arg10 : FVec F S128 .f32) (main_arg11 : FVec F S128x64 .f32) (main_arg12 : FVec F S64 .f32) (main_arg13 : FVec F S64x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128 .f32) (main_arg5 : FVec F S128x128 .f32) (main_arg6 : FVec F S128 .f32) (main_arg7 : FVec F S256x64 .f32) (main_arg8 : FVec F S64 .f32) (main_arg9 : FVec F S64x128 .f32) (main_arg10 : FVec F S128 .f32) (main_arg11 : FVec F S128x64 .f32) (main_arg12 : FVec F S64 .f32) (main_arg13 : FVec F S64x64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S64x128 : Shape := ⟨2, ![64, 128]⟩
abbrev S128x64 : Shape := ⟨2, ![128, 64]⟩
abbrev S64x64 : Shape := ⟨2, ![64, 64]⟩
abbrev S1x128 : Shape := ⟨2, ![1, 128]⟩
abbrev S1x64 : Shape := ⟨2, ![1, 64]⟩
abbrev S80x10000 : Shape := ⟨2, ![80, 10000]⟩
abbrev S400x10000 : Shape := ⟨2, ![400, 10000]⟩
abbrev S10000x64 : Shape := ⟨2, ![10000, 64]⟩
abbrev S80x128 : Shape := ⟨2, ![80, 128]⟩
abbrev S80x64 : Shape := ⟨2, ![80, 64]⟩
abbrev S400x64 : Shape := ⟨2, ![400, 64]⟩

abbrev nBuf : Space → Nat
  | .hbm => 23
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x64, .f32⟩
  | .hbm, ⟨14, _⟩ => ⟨S10000x128, .bf16⟩
  | .hbm, ⟨15, _⟩ => ⟨S1x128, .f32⟩
  | .hbm, ⟨16, _⟩ => ⟨S1x128, .f32⟩
  | .hbm, ⟨17, _⟩ => ⟨S128x64, .f32⟩
  | .hbm, ⟨18, _⟩ => ⟨S128x64, .f32⟩
  | .hbm, ⟨19, _⟩ => ⟨S1x64, .f32⟩
  | .hbm, ⟨20, _⟩ => ⟨S1x128, .f32⟩
  | .hbm, ⟨21, _⟩ => ⟨S1x64, .f32⟩
  | .hbm, ⟨22, _⟩ => ⟨S10000x10000, .f32⟩
  | .local _ .vmem, ⟨0, _⟩ => ⟨S80x10000, .f32⟩
  | .local _ .vmem, ⟨1, _⟩ => ⟨S80x10000, .f32⟩
  | .local _ .vmem, ⟨2, _⟩ => ⟨S80x10000, .f32⟩
  | .local _ .vmem, ⟨3, _⟩ => ⟨S80x10000, .f32⟩
  | .local _ .vmem, ⟨4, _⟩ => ⟨S10000x128, .bf16⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S128x64, .f32⟩
  | .local _ .vmem, ⟨10, _⟩ => ⟨S128x64, .f32⟩
  | .local _ .vmem, ⟨11, _⟩ => ⟨S1x64, .f32⟩
  | .local _ .vmem, ⟨12, _⟩ => ⟨S64x128, .f32⟩
  | .local _ .vmem, ⟨13, _⟩ => ⟨S1x128, .f32⟩
  | .local _ .vmem, ⟨14, _⟩ => ⟨S128x64, .f32⟩
  | .local _ .vmem, ⟨15, _⟩ => ⟨S1x64, .f32⟩
  | .local _ .vmem, ⟨16, _⟩ => ⟨S64x64, .f32⟩
  | .local _ .vmem, ⟨17, _⟩ => ⟨S400x10000, .f32⟩
  | .local _ .vmem, ⟨18, _⟩ => ⟨S400x10000, .f32⟩
  | .local _ .vmem, ⟨19, _⟩ => ⟨S10000x128, .bf16⟩
  | .local _ .vmem, ⟨20, _⟩ => ⟨S10000x128, .bf16⟩
  | .local _ .vmem, ⟨21, _⟩ => ⟨S10000x64, .bf16⟩
  | .local _ .vmem, ⟨22, _⟩ => ⟨S10000x64, .bf16⟩
  | .local _ .vmem, ⟨23, _⟩ => ⟨S80x128, .f32⟩
  | .local _ .vmem, ⟨24, _⟩ => ⟨S80x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨1, ![151], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c125_i32 : BitVec 32 := 125#32
  let v4 : BitVec 1 := Scalar.cmpi .sle arg0 c125_i32
  let v5 : BitVec 1 := Scalar.andi v3 v4
  let v6 : BitVec 32 := Scalar.extui v5
  let c0_i32_2 : BitVec 32 := 0#32
  let v7 : BitVec 1 := Scalar.cmpi .ne v6 c0_i32_2
  v7

def k0_off1 (i : grid0.Coords) : Fin 2 → Nat :=
  let arg0 : BitVec 32 := BitVec.ofNat 32 (i 0).val
  let c1_i32 : BitVec 32 := 1#32
  let v44 : BitVec 32 := Scalar.subi arg0 c1_i32
  let c80_i32 : BitVec 32 := 80#32
  let v45 : BitVec 32 := Scalar.muli v44 c80_i32
  let v46 : Index := Scalar.indexCast v45
  let c0_29 : Index := 0#32
  ![v46.toNat, 0]
def k0_cond4 (i : grid0.Coords) : BitVec 1 :=
  let arg0 : BitVec 32 := BitVec.ofNat 32 (i 0).val
  let c125_i32_5 : BitVec 32 := 125#32
  let v11 : BitVec 1 := Scalar.cmpi .sgt arg0 c125_i32_5
  let v12 : BitVec 32 := Scalar.extui v11
  let c0_i32_6 : BitVec 32 := 0#32
  let v13 : BitVec 1 := Scalar.cmpi .ne v12 c0_i32_6
  v13

def k0_off2 (i : grid0.Coords) : Fin 2 → Nat :=
  let arg0 : BitVec 32 := BitVec.ofNat 32 (i 0).val
  let c125_i32_7 : BitVec 32 := 125#32
  let v14 : BitVec 32 := Scalar.subi arg0 c125_i32_7
  let c1_i32 : BitVec 32 := 1#32
  let v15 : BitVec 32 := Scalar.subi v14 c1_i32
  let c400_i32 : BitVec 32 := 400#32
  let v16 : BitVec 32 := Scalar.muli v15 c400_i32
  let v17 : Index := Scalar.indexCast v16
  let c0 : Index := 0#32
  ![v17.toNat, 0]
def cc0_transform_0 (i : grid0.Coords) : Fin 2 → Nat :=
  let arg0 : BitVec 32 := BitVec.ofNat 32 (i 0).val
  let c124_i32 : BitVec 32 := 124#32
  let v0 : BitVec 32 := Scalar.minsi arg0 c124_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c124_i32 : BitVec 32 := 124#32
  let v0 : BitVec 32 := Scalar.minsi arg0 c124_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c125_i32 : BitVec 32 := 125#32
  let v0 : BitVec 32 := Scalar.subi arg0 c125_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

abbrev stage0_0 : Fin 2 → Memref sig .tc .vmem S80x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S400x10000 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bitsLt_bf16_f32 : FTy.bits .bf16 < FTy.bits .f32
  shapeCasts_S128_S1x128 : S128.ShapeCasts S1x128
  slices_S256x64_S128x64_0_0 : S256x64.Slices ![0, 0] S128x64
  slices_S256x64_S128x64_128_0 : S256x64.Slices ![128, 0] S128x64
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  inb_S80x128_S80x128_0_0 : ∀ a, (![0, 0] : Fin 2 → Nat) a + S80x128.size a ≤ S80x128.size a
  h_S80x128 : 0 < S80x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S80x64 : S1x64.Broadcasts S80x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S80x128 : S1x128.Broadcasts S80x128
  h_S80x64 : 0 < S80x64.numel
  shapeCasts_S80x64_S80x64 : S80x64.ShapeCasts S80x64
  inb_S64x64_S64x64_0_0 : ∀ a, (![0, 0] : Fin 2 → Nat) a + S64x64.size a ≤ S64x64.size a
  h_S64x64 : 0 < S64x64.numel
  inb_S80x10000_S80x10000_0_0 : ∀ a, (![0, 0] : Fin 2 → Nat) a + S80x10000.size a ≤ S80x10000.size a
  h_S80x10000 : 0 < S80x10000.numel
  shapeCasts_S80x128_S80x128 : S80x128.ShapeCasts S80x128
  h_S400x64 : 0 < S400x64.numel
  inb_S10000x64_S10000x64_0_0 : ∀ a, (![0, 0] : Fin 2 → Nat) a + S10000x64.size a ≤ S10000x64.size a
  h_S10000x64 : 0 < S10000x64.numel
  inb_S400x10000_S400x10000_0_0 : ∀ a, (![0, 0] : Fin 2 → Nat) a + S400x10000.size a ≤ S400x10000.size a
  h_S400x10000 : 0 < S400x10000.numel
  dot_S10000x128_S128x128_S10000x128_1_0_0_1_n_n_wf : DotDims.WF S10000x128 S128x128 S10000x128 [1] [0] [0] [1] [] []
  dot_S80x128_S128x64_S80x64_1_0_0_1_n_n_wf : DotDims.WF S80x128 S128x64 S80x64 [1] [0] [0] [1] [] []
  dot_S80x64_S64x128_S80x128_1_0_0_1_n_n_wf : DotDims.WF S80x64 S64x128 S80x128 [1] [0] [0] [1] [] []
  dot_S80x64_S64x64_S80x64_1_0_0_1_n_n_wf : DotDims.WF S80x64 S64x64 S80x64 [1] [0] [0] [1] [] []
  dot_S80x10000_S10000x128_S80x128_1_0_0_1_n_n_wf : DotDims.WF S80x10000 S10000x128 S80x128 [1] [0] [0] [1] [] []
  dot_S400x64_S10000x64_S400x10000_1_1_0_0_n_n_wf : DotDims.WF S400x64 S10000x64 S400x10000 [1] [1] [0] [0] [] []
  hrank0 : 0 < grid0.rank
  k0_off1_inb : ∀ i : grid0.Coords, ∀ (k0_h2 : k0_cond2 i = 1#1), ∀ a, (k0_off1 i) a + S80x64.size a ≤ S10000x64.size a
  k0_off1_packedbf16 : ∀ i : grid0.Coords, ∀ (k0_h2 : k0_cond2 i = 1#1), (Rect.unit (s := S10000x64) (k0_off1 i) S80x64.size (k0_off1_inb i k0_h2)).PackedRows (EltTy.packing .bf16)
  k0_off2_inb : ∀ i : grid0.Coords, ∀ (k0_h4 : k0_cond4 i = 1#1), ∀ a, (k0_off2 i) a + S400x64.size a ≤ S10000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x10000.size a ≤ S10000x10000.size a
  hwx0_0 : ∀ i : grid0.Coords, EltTy.bits .f32 = 32 ∨ (Rect.block (s := S10000x10000) S80x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S80x10000.size a ≤ S10000x10000.size a
  hwx0_1 : ∀ i : grid0.Coords, EltTy.bits .f32 = 32 ∨ (Rect.block (s := S10000x10000) S80x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .bf16 = 32 ∨ (Rect.block (s := S10000x128) S10000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x128.size a ≤ S64x128.size a
  hwx0_10 : ∀ i : grid0.Coords, EltTy.bits .f32 = 32 ∨ (Rect.block (s := S64x128) S64x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x64.size a ≤ S128x64.size a
  hwx0_12 : ∀ i : grid0.Coords, EltTy.bits .f32 = 32 ∨ (Rect.block (s := S128x64) S128x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x64.size a ≤ S64x64.size a
  hwx0_14 : ∀ i : grid0.Coords, EltTy.bits .f32 = 32 ∨ (Rect.block (s := S64x64) S64x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S400x10000.size a ≤ S10000x10000.size a
  hwx0_15 : ∀ i : grid0.Coords, EltTy.bits .f32 = 32 ∨ (Rect.block (s := S10000x10000) S400x10000.size (cc0_transform_15 i) (hinb0_15 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S80x128_S128x64_S80x64_1_0_0_1_n_n : DotDims S80x128 S128x64 S80x64 where
  lhsContracting := [1]
  rhsContracting := [0]
  lhsNonContracting := [0]
  rhsNonContracting := [1]
  lhsBatch := []
  rhsBatch := []
  wf := dot_S80x128_S128x64_S80x64_1_0_0_1_n_n_wf
def dot_S80x64_S64x128_S80x128_1_0_0_1_n_n : DotDims S80x64 S64x128 S80x128 where
  lhsContracting := [1]
  rhsContracting := [0]
  lhsNonContracting := [0]
  rhsNonContracting := [1]
  lhsBatch := []
  rhsBatch := []
  wf := dot_S80x64_S64x128_S80x128_1_0_0_1_n_n_wf
def dot_S80x64_S64x64_S80x64_1_0_0_1_n_n : DotDims S80x64 S64x64 S80x64 where
  lhsContracting := [1]
  rhsContracting := [0]
  lhsNonContracting := [0]
  rhsNonContracting := [1]
  lhsBatch := []
  rhsBatch := []
  wf := dot_S80x64_S64x64_S80x64_1_0_0_1_n_n_wf
def dot_S80x10000_S10000x128_S80x128_1_0_0_1_n_n : DotDims S80x10000 S10000x128 S80x128 where
  lhsContracting := [1]
  rhsContracting := [0]
  lhsNonContracting := [0]
  rhsNonContracting := [1]
  lhsBatch := []
  rhsBatch := []
  wf := dot_S80x10000_S10000x128_S80x128_1_0_0_1_n_n_wf
def dot_S400x64_S10000x64_S400x10000_1_1_0_0_n_n : DotDims S400x64 S10000x64 S400x10000 where
  lhsContracting := [1]
  rhsContracting := [1]
  lhsNonContracting := [0]
  rhsNonContracting := [0]
  lhsBatch := []
  rhsBatch := []
  wf := dot_S400x64_S10000x64_S400x10000_1_1_0_0_n_n_wf

abbrev win0_0 : Pipeline.Window sig grid0 :=
  Pipeline.Window.ofSpec (Memref.whole main_arg1) S80x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S80x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S64x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S128x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S64x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v8) S400x10000.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond4 i == 1#1) | ⟨_ + 16, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S64x128 : Shape := ⟨2, ![64, 128]⟩
abbrev S128x64 : Shape := ⟨2, ![128, 64]⟩
abbrev S64x64 : Shape := ⟨2, ![64, 64]⟩
abbrev S1x128 : Shape := ⟨2, ![1, 128]⟩
abbrev S_ : Shape := ⟨0, ![]⟩
abbrev S10000x256 : Shape := ⟨2, ![10000, 256]⟩
abbrev S10000x64 : Shape := ⟨2, ![10000, 64]⟩
abbrev S1x64 : Shape := ⟨2, ![1, 64]⟩
abbrev S64x10000 : Shape := ⟨2, ![64, 10000]⟩

abbrev nBuf : Space → Nat
  | .hbm => 52
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x64, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S10000x128, .f32⟩
  | .hbm, ⟨29, _⟩ => ⟨S10000x128, .f32⟩
  | .hbm, ⟨30, _⟩ => ⟨S10000x256, .f32⟩
  | .hbm, ⟨31, _⟩ => ⟨S10000x64, .f32⟩
  | .hbm, ⟨32, _⟩ => ⟨S1x64, .f32⟩
  | .hbm, ⟨33, _⟩ => ⟨S10000x64, .f32⟩
  | .hbm, ⟨34, _⟩ => ⟨S10000x64, .f32⟩
  | .hbm, ⟨35, _⟩ => ⟨S_, .f32⟩
  | .hbm, ⟨36, _⟩ => ⟨S10000x64, .f32⟩
  | .hbm, ⟨37, _⟩ => ⟨S10000x64, .f32⟩
  | .hbm, ⟨38, _⟩ => ⟨S10000x128, .f32⟩
  | .hbm, ⟨39, _⟩ => ⟨S1x128, .f32⟩
  | .hbm, ⟨40, _⟩ => ⟨S10000x128, .f32⟩
  | .hbm, ⟨41, _⟩ => ⟨S10000x128, .f32⟩
  | .hbm, ⟨42, _⟩ => ⟨S_, .f32⟩
  | .hbm, ⟨43, _⟩ => ⟨S10000x128, .f32⟩
  | .hbm, ⟨44, _⟩ => ⟨S10000x128, .f32⟩
  | .hbm, ⟨45, _⟩ => ⟨S10000x64, .f32⟩
  | .hbm, ⟨46, _⟩ => ⟨S1x64, .f32⟩
  | .hbm, ⟨47, _⟩ => ⟨S10000x64, .f32⟩
  | .hbm, ⟨48, _⟩ => ⟨S10000x64, .f32⟩
  | .hbm, ⟨49, _⟩ => ⟨S10000x64, .f32⟩
  | .hbm, ⟨50, _⟩ => ⟨S64x10000, .f32⟩
  | .hbm, ⟨51, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_cst : Ref sig .tc := ⟨.hbm, 27, rfl⟩
abbrev main_call1_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call2_cst : Ref sig .tc := ⟨.hbm, 35, rfl⟩
abbrev main_call2_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call3_cst : Ref sig .tc := ⟨.hbm, 42, rfl⟩
abbrev main_call3_v0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  concatenates_S10000x128_S10000x128_S10000x256_d1 : Shape.Concatenates [S10000x128, S10000x128] S10000x256 1
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  transposes_S10000x64_S64x10000_1_0 : S10000x64.Transposes [1, 0] S64x10000
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x256_S256x64_S10000x64_1_0_0_1_n_n_wf : DotDims.WF S10000x256 S256x64 S10000x64 [1] [0] [0] [1] [] []
  dot_S10000x64_S64x128_S10000x128_1_0_0_1_n_n_wf : DotDims.WF S10000x64 S64x128 S10000x128 [1] [0] [0] [1] [] []
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  dot_S10000x64_S64x10000_S10000x10000_1_0_0_1_n_n_wf : DotDims.WF S10000x64 S64x10000 S10000x10000 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.KLemmas.lean ====
/-
  What the body's runs share: its four branch conditions, whole-buffer loads and stores read back, and the two
  accesses of a band of rows of a 10000-row scratch buffer (80 rows stored, 400 rows loaded) at the offsets the
  program computes from the grid coordinate.
-/
import proofs.«162584_g16561393893844_cont_week2b_458_24_alg».proof.Proof.Gen.Kernel.Frame
import proofs.«162584_g16561393893844_cont_week2b_458_24_alg».proof.Proof.Gen.Kernel.Skeleton
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four branch conditions -/

/-- `i = 0`: the feature transform of both signs is computed and kept. -/
abbrev condA (i : grid0.Coords) : Prop := (Scalar.cmpi .ne (Scalar.extui (Scalar.cmpi .eq (BitVec.ofNat 32 (i 0).val) 0#32)) 0#32) = 1#1
/-- `0 < i ≤ 125`: the perceptron and the decoder's left factor of the block of 80 nodes convolved one point earlier. -/
abbrev condB (i : grid0.Coords) : Prop := k0_cond2 i = 1#1
/-- `i < 125`: the graph convolution of block `i` of 80 nodes, both signs. -/
abbrev condC (i : grid0.Coords) : Prop := (Scalar.cmpi .ne (Scalar.extui (Scalar.cmpi .slt (BitVec.ofNat 32 (i 0).val) 125#32)) 0#32) = 1#1
/-- `i > 125`: block `i - 126` of 400 rows of the result. -/
abbrev condD (i : grid0.Coords) : Prop := k0_cond4 i = 1#1

/-! ## Whole-buffer loads and stores, and a band of rows -/

theorem hz2 : (![0, 0] : Fin 2 → ℕ) = fun _ => 0 := by funext a; fin_cases a <;> rfl

/-- A load of a whole buffer reads its contents. -/
theorem readAt_whole {sp : Space} {S : Shape} {e : EltTy} (mr : Memref sig .tc sp S e) (hm : mr.IsWhole)
    (X : S.Idx → Elt F e) {off : Fin S.rank → ℕ} (hz : off = fun _ => 0) (inb : ∀ a, off a + S.size a ≤ S.size a) :
    View.readAt (Elt F) mr.view (Rect.unit off S.size inb).toLoadRect (hm.unread X) = X := by
  rw [View.readAt_eq_ld, hm.read_unread, View.ld_unit_zero hz]

/-- After one store through the whole of a buffer it holds the stored value, whatever it held before. -/
theorem read_store_whole {sp : Space} {S : Shape} {e : EltTy} (v : View sig .tc sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w :=
  (View.read_writes_eq_canon v f _ fun y => ⟨_, List.mem_singleton_self _, View.mem_set_unit_zero hz inb y⟩).trans
    (View.canon_unit_zero hz inb w)

/-- A load of a whole buffer right after one store through the whole of it reads the stored value. -/
theorem readCov_whole {sp : Space} {S : Shape} {e : EltTy} (v : View sig .tc sp S e)
    {off : Fin S.rank → ℕ} (hz : off = fun _ => 0) (inb : ∀ a, off a + S.size a ≤ S.size a) (w : S.Idx → Elt F e) :
    v.readCov [(⟨Rect.unit off S.size inb, w⟩ : View.Piece (Elt F) S e)] (Rect.unit off S.size inb).toLoadRect = w :=
  View.readCov_unit_zero v hz inb w

/-- What a 10000-row buffer holds after the band of 80 rows the program addresses at point `i` is overwritten by `new`. -/
def putRows (sc : Memref sig .tc .vmem S10000x64 .bf16) (hsc : sc.IsWhole) (i : grid0.Coords) (hB : condB i)
    (old : Vec F S10000x64 .bf16) (new : FVec F S80x64 .bf16) : Vec F S10000x64 .bf16 :=
  sc.view.read (Elt F) (sc.view.writes (Elt F) (hsc.unread old)
    [⟨Rect.unit (s := S10000x64) (k0_off1 i) S80x64.size (k0_off1_inb i hB), new⟩])

/-- The 400 rows of a 10000-row buffer the program addresses at point `i`. -/
def getRows (sc : Memref sig .tc .vmem S10000x64 .bf16) (hsc : sc.IsWhole) (i : grid0.Coords) (hD : condD i)
    (old : Vec F S10000x64 .bf16) : Vec F S400x64 .bf16 :=
  View.readAt (Elt F) sc.view (Rect.unit (s := S10000x64) (k0_off2 i) S400x64.size (k0_off2_inb i hD)).toLoadRect (hsc.unread old)

end Cert.Kernel.Body

end
-- ==== Proof.KDefs.lean ====
/-
  What every scratch buffer holds between grid points, in closed form in the windows' blocks (any float instance).

  The kernel walks 151 grid points. Point 0 stores the transformed features of both signs, XP = X·Wp and XN = X·Wn
  (all 10000 nodes). Point t < 125 stores the convolved block t of 80 nodes of each sign, ZP t and ZN t, from the
  adjacency blocks at t. Point t with 1 ≤ t ≤ 125 runs the perceptron on the convolved block t − 1 and stores its 80 rows
  of the embedding, HB t, and of the decoder's left factor, TB t, into rows [80 (t − 1), 80 t) of two 10000-row buffers:
  after point t ≥ 1 rows below 80 t of those buffers are final, row R holding block R / 80 + 1's row R % 80 (HF, TF),
  and from point 125 on both are complete. Point t ≥ 126 multiplies rows [400 (t − 126), 400 (t − 125)) of TF against all
  of HF into the output block OB t.
-/
import proofs.«162584_g16561393893844_cont_week2b_458_24_alg».proof.Proof.KLemmas
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The conditions and the two computed offsets, decided over the grid -/

theorem hcondA : ∀ t : Fin cfg0.N, condA (grid0.coords t) ↔ t.val = 0 :=
  (by decide +kernel : ∀ t : Fin grid0.N, condA (grid0.coords t) ↔ t.val = 0)
theorem hcondB : ∀ t : Fin cfg0.N, condB (grid0.coords t) ↔ (1 ≤ t.val ∧ t.val ≤ 125) :=
  (by decide +kernel : ∀ t : Fin grid0.N, condB (grid0.coords t) ↔ (1 ≤ t.val ∧ t.val ≤ 125))
theorem hcondC : ∀ t : Fin cfg0.N, condC (grid0.coords t) ↔ t.val < 125 :=
  (by decide +kernel : ∀ t : Fin grid0.N, condC (grid0.coords t) ↔ t.val < 125)
theorem hcondD : ∀ t : Fin cfg0.N, condD (grid0.coords t) ↔ 126 ≤ t.val :=
  (by decide +kernel : ∀ t : Fin grid0.N, condD (grid0.coords t) ↔ 126 ≤ t.val)

/-- The band point `t` stores starts at row `80 (t - 1)`, column 0. -/
theorem hoff1 : ∀ t : Fin cfg0.N, condB (grid0.coords t) → k0_off1 (grid0.coords t) = ![80 * (t.val - 1), 0] :=
  (by decide +kernel : ∀ t : Fin grid0.N, condB (grid0.coords t) → k0_off1 (grid0.coords t) = ![80 * (t.val - 1), 0])
/-- The rows point `t` loads start at row `400 (t - 126)`, column 0. -/
theorem hoff2 : ∀ t : Fin cfg0.N, condD (grid0.coords t) → k0_off2 (grid0.coords t) = ![400 * (t.val - 126), 0] :=
  (by decide +kernel : ∀ t : Fin grid0.N, condD (grid0.coords t) → k0_off2 (grid0.coords t) = ![400 * (t.val - 126), 0])

/-! ## The closed forms -/

/-- Grid point 0, and the point before `t`. -/
def p0 : Fin cfg0.N := ⟨0, Nat.lt_of_lt_of_eq (by decide : 0 < 151) N_0.symm⟩
def prev (t : Fin cfg0.N) : Fin cfg0.N := ⟨t.val - 1, Nat.lt_of_le_of_lt (Nat.sub_le _ _) t.isLt⟩

/-- The transformed features of each sign, from the blocks of point 0. -/
def XP (c : Dev nD) : FVec F S10000x128 .bf16 := k0_pay2 (iblk m c 2 p0) (iblk m c 3 p0)
def XN (c : Dev nD) : FVec F S10000x128 .bf16 := k0_pay3 (iblk m c 2 p0) (iblk m c 4 p0)

/-- The convolved block of point `t`, each sign. -/
def ZP (c : Dev nD) (t : Fin cfg0.N) : FVec F S80x128 .f32 := k0_pay6 (iblk m c 0 t) (XP m c) (iblk m c 5 t)
def ZN (c : Dev nD) (t : Fin cfg0.N) : FVec F S80x128 .f32 := k0_pay7 (iblk m c 1 t) (XN m c) (iblk m c 6 t)

/-- The 80 rows of the embedding, and of the decoder's left factor, that point `t` stores. -/
def HB (c : Dev nD) (t : Fin cfg0.N) : FVec F S80x64 .bf16 :=
  k0_pay4 (k0_pay10 (ZP m c (prev t)) (ZN m c (prev t)) (iblk m c 7 t) (iblk m c 8 t) (iblk m c 9 t) (iblk m c 10 t)
    (iblk m c 11 t) (iblk m c 12 t) (iblk m c 13 t))
def TB (c : Dev nD) (t : Fin cfg0.N) : FVec F S80x64 .bf16 :=
  k0_pay5 (k0_pay9 (ZP m c (prev t)) (ZN m c (prev t)) (iblk m c 7 t) (iblk m c 8 t) (iblk m c 9 t) (iblk m c 10 t)
    (iblk m c 11 t) (iblk m c 12 t) (iblk m c 13 t)) (iblk m c 14 t)

/-- Row `R` of a 10000-row buffer is stored by point `R / 80 + 1`, as row `R % 80` of its band. -/
def ptOf (y : S10000x64.Idx) : Fin cfg0.N :=
  ⟨(y 0).val / 80 + 1, Nat.lt_of_lt_of_eq (by have h : (y 0).val < 10000 := (y 0).isLt; omega) N_0.symm⟩
def locOf (y : S10000x64.Idx) : S80x64.Idx :=
  ix2 (⟨(y 0).val % 80, Nat.mod_lt _ (by decide)⟩ : Fin 80) (⟨(y 1).val, (y 1).isLt⟩ : Fin 64)

/-- The complete embedding and decoder's left factor. -/
def HF (c : Dev nD) : Vec F S10000x64 .bf16 := fun y => HB m c (ptOf y) (locOf y)
def TF (c : Dev nD) : Vec F S10000x64 .bf16 := fun y => TB m c (ptOf y) (locOf y)

/-- The output block of point `t` (a decode point; elsewhere a value nothing reads). -/
def OB (c : Dev nD) (t : Fin cfg0.N) : FVec F S400x10000 .f32 :=
  if hD : condD (grid0.coords t) then
    k0_pay8 (getRows (Memref.whole cc0_scratch3) (Memref.isWhole_whole _) (grid0.coords t) hD (TF m c)) (HF m c)
  else constant S400x10000 .f32 0x00000000#32

end Cert.Kernel.Body

end
-- ==== Proof.KRunA.lean ====
/- The body at grid point 0. -/
import proofs.«162584_g16561393893844_cont_week2b_458_24_alg».proof.Proof.KLemmas

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Point 0: both feature transforms are stored, then block 0 of both convolutions from them. -/
theorem runA (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S400x10000 .f32) (harg16 : arg16.IsWhole) (arg17 : Memref sig .tc .vmem S10000x128 .bf16) (harg17 : arg17.IsWhole) (arg18 : Memref sig .tc .vmem S10000x128 .bf16) (harg18 : arg18.IsWhole) (arg19 : Memref sig .tc .vmem S10000x64 .bf16) (harg19 : arg19.IsWhole) (arg20 : Memref sig .tc .vmem S10000x64 .bf16) (harg20 : arg20.IsWhole) (arg21 : Memref sig .tc .vmem S80x128 .f32) (harg21 : arg21.IsWhole) (arg22 : Memref sig .tc .vmem S80x128 .f32) (harg22 : arg22.IsWhole)
    (hA : condA i) (hB : ¬condB i) (hC : condC i) (hD : ¬condD i)
    (x0 : Vec F S10000x128 .bf16) (wP wN : Vec F S128x128 .f32) (ap an : Vec F S80x10000 .f32) (bp bn : Vec F S1x128 .f32) (E : Set ℕ) (K : PUnit → sProp 𝕄) :
    iprop(owns (c : Thread nD τ) arg3 fullShare x0 ∗ owns (c : Thread nD τ) arg4 fullShare wP ∗ owns (c : Thread nD τ) arg5 fullShare wN ∗ owns (c : Thread nD τ) arg1 fullShare ap ∗ owns (c : Thread nD τ) arg2 fullShare an ∗ owns (c : Thread nD τ) arg6 fullShare bp ∗ owns (c : Thread nD τ) arg7 fullShare bn ∗ (∃ d, owns (c : Thread nD τ) arg17 fullShare d) ∗ (∃ d, owns (c : Thread nD τ) arg18 fullShare d) ∗ (∃ d, owns (c : Thread nD τ) arg21 fullShare d) ∗ (∃ d, owns (c : Thread nD τ) arg22 fullShare d)
        ∗ (iprop(owns (c : Thread nD τ) arg3 fullShare x0 ∗ owns (c : Thread nD τ) arg4 fullShare wP ∗ owns (c : Thread nD τ) arg5 fullShare wN ∗ owns (c : Thread nD τ) arg1 fullShare ap ∗ owns (c : Thread nD τ) arg2 fullShare an ∗ owns (c : Thread nD τ) arg6 fullShare bp ∗ owns (c : Thread nD τ) arg7 fullShare bn ∗ owns (c : Thread nD τ) arg17 fullShare (k0_pay2 x0 wP) ∗ owns (c : Thread nD τ) arg18 fullShare (k0_pay3 x0 wN)
            ∗ owns (c : Thread nD τ) arg21 fullShare (k0_pay6 ap (k0_pay2 x0 wP) bp) ∗ owns (c : Thread nD τ) arg22 fullShare (k0_pay7 an (k0_pay3 x0 wN) bn)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__fused_kernel_eq_skeleton]; unfold cc0__fused_kernel_skel
  unfold owns
  iintro ⟨⟨%f3, %hf3, H3⟩, ⟨%f4, %hf4, H4⟩, ⟨%f5, %hf5, H5⟩, ⟨%f1, %hf1, H1⟩, ⟨%f2, %hf2, H2⟩, ⟨%f6, %hf6, H6⟩, ⟨%f7, %hf7, H7⟩, ⟨%d17, %f17, %hf17, H17⟩, ⟨%d18, %f18, %hf18, H18⟩, ⟨%d21, %f21, %hf21, H21⟩, ⟨%d22, %f22, %hf22, H22⟩, Hk⟩
  obtain rfl := harg3.eq_unread hf3; obtain rfl := harg4.eq_unread hf4; obtain rfl := harg5.eq_unread hf5; obtain rfl := harg1.eq_unread hf1; obtain rfl := harg2.eq_unread hf2; obtain rfl := harg6.eq_unread hf6; obtain rfl := harg7.eq_unread hf7
  sl_exec (disch := first | exact hA | exact hB | exact hC | exact hD)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H1]
  · iexists _; isplitr; swap; · iexact H1
    ipureintro; exact harg1.read_unread _
  isplitl [H2]
  · iexists _; isplitr; swap; · iexact H2
    ipureintro; exact harg2.read_unread _
  isplitl [H6]
  · iexists _; isplitr; swap; · iexact H6
    ipureintro; exact harg6.read_unread _
  isplitl [H7]
  · iexists _; isplitr; swap; · iexact H7
    ipureintro; exact harg7.read_unread _
  isplitl [H17]
  · iexists _; isplitr; swap; · iexact H17
    ipureintro; sl_unfold_run_names; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]
  isplitl [H18]
  · iexists _; isplitr; swap; · iexact H18
    ipureintro; sl_unfold_run_names; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]
  isplitl [H21]
  · iexists _; isplitr; swap; · iexact H21
    ipureintro; sl_unfold_run_names; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]
  · iexists _; isplitr; swap; · iexact H22
    ipureintro; sl_unfold_run_names; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]

end Cert.Kernel.Body

end
-- ==== Proof.KRunB.lean ====
/- The body at grid points 1 to 124. -/
import proofs.«162584_g16561393893844_cont_week2b_458_24_alg».proof.Proof.KLemmas

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Points 1 to 124: the perceptron and the decoder's left factor of the block convolved one point earlier are stored
    into their band of 80 rows, then this point's block of both convolutions replaces the earlier one. -/
theorem runB (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S400x10000 .f32) (harg16 : arg16.IsWhole) (arg17 : Memref sig .tc .vmem S10000x128 .bf16) (harg17 : arg17.IsWhole) (arg18 : Memref sig .tc .vmem S10000x128 .bf16) (harg18 : arg18.IsWhole) (arg19 : Memref sig .tc .vmem S10000x64 .bf16) (harg19 : arg19.IsWhole) (arg20 : Memref sig .tc .vmem S10000x64 .bf16) (harg20 : arg20.IsWhole) (arg21 : Memref sig .tc .vmem S80x128 .f32) (harg21 : arg21.IsWhole) (arg22 : Memref sig .tc .vmem S80x128 .f32) (harg22 : arg22.IsWhole)
    (hA : ¬condA i) (hB : condB i) (hC : condC i) (hD : ¬condD i)
    (zp zn : Vec F S80x128 .f32) (w1a w1b : Vec F S128x64 .f32) (b1 : Vec F S1x64 .f32) (w2 : Vec F S64x128 .f32) (b2 : Vec F S1x128 .f32) (w3 : Vec F S128x64 .f32) (b3 : Vec F S1x64 .f32) (wd : Vec F S64x64 .f32) (h0 t0 : Vec F S10000x64 .bf16) (xp xn : Vec F S10000x128 .bf16) (ap an : Vec F S80x10000 .f32) (bp bn : Vec F S1x128 .f32) (E : Set ℕ) (K : PUnit → sProp 𝕄) :
    iprop(owns (c : Thread nD τ) arg21 fullShare zp ∗ owns (c : Thread nD τ) arg22 fullShare zn ∗ owns (c : Thread nD τ) arg8 fullShare w1a ∗ owns (c : Thread nD τ) arg9 fullShare w1b ∗ owns (c : Thread nD τ) arg10 fullShare b1 ∗ owns (c : Thread nD τ) arg11 fullShare w2 ∗ owns (c : Thread nD τ) arg12 fullShare b2 ∗ owns (c : Thread nD τ) arg13 fullShare w3 ∗ owns (c : Thread nD τ) arg14 fullShare b3 ∗ owns (c : Thread nD τ) arg15 fullShare wd ∗ owns (c : Thread nD τ) arg19 fullShare h0 ∗ owns (c : Thread nD τ) arg20 fullShare t0 ∗ owns (c : Thread nD τ) arg17 fullShare xp ∗ owns (c : Thread nD τ) arg18 fullShare xn ∗ owns (c : Thread nD τ) arg1 fullShare ap ∗ owns (c : Thread nD τ) arg2 fullShare an ∗ owns (c : Thread nD τ) arg6 fullShare bp ∗ owns (c : Thread nD τ) arg7 fullShare bn
        ∗ (iprop(owns (c : Thread nD τ) arg21 fullShare (k0_pay6 ap xp bp) ∗ owns (c : Thread nD τ) arg22 fullShare (k0_pay7 an xn bn) ∗ owns (c : Thread nD τ) arg8 fullShare w1a ∗ owns (c : Thread nD τ) arg9 fullShare w1b ∗ owns (c : Thread nD τ) arg10 fullShare b1 ∗ owns (c : Thread nD τ) arg11 fullShare w2 ∗ owns (c : Thread nD τ) arg12 fullShare b2 ∗ owns (c : Thread nD τ) arg13 fullShare w3 ∗ owns (c : Thread nD τ) arg14 fullShare b3 ∗ owns (c : Thread nD τ) arg15 fullShare wd ∗ owns (c : Thread nD τ) arg19 fullShare (putRows arg19 harg19 i hB h0 (k0_pay4 (k0_pay10 zp zn w1a w1b b1 w2 b2 w3 b3))) ∗ owns (c : Thread nD τ) arg20 fullShare (putRows arg20 harg20 i hB t0 (k0_pay5 (k0_pay9 zp zn w1a w1b b1 w2 b2 w3 b3) wd)) ∗ owns (c : Thread nD τ) arg17 fullShare xp ∗ owns (c : Thread nD τ) arg18 fullShare xn ∗ owns (c : Thread nD τ) arg1 fullShare ap ∗ owns (c : Thread nD τ) arg2 fullShare an ∗ owns (c : Thread nD τ) arg6 fullShare bp ∗ owns (c : Thread nD τ) arg7 fullShare bn) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__fused_kernel_eq_skeleton]; unfold cc0__fused_kernel_skel
  simp only [k0_part1_eq_skeleton]; unfold k0_part1_skel
  unfold owns
  iintro ⟨⟨%f21, %hf21, H21⟩, ⟨%f22, %hf22, H22⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f19, %hf19, H19⟩, ⟨%f20, %hf20, H20⟩, ⟨%f17, %hf17, H17⟩, ⟨%f18, %hf18, H18⟩, ⟨%f1, %hf1, H1⟩, ⟨%f2, %hf2, H2⟩, ⟨%f6, %hf6, H6⟩, ⟨%f7, %hf7, H7⟩, Hk⟩
  obtain rfl := harg21.eq_unread hf21; obtain rfl := harg22.eq_unread hf22; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg19.eq_unread hf19; obtain rfl := harg20.eq_unread hf20; obtain rfl := harg17.eq_unread hf17; obtain rfl := harg18.eq_unread hf18; obtain rfl := harg1.eq_unread hf1; obtain rfl := harg2.eq_unread hf2; obtain rfl := harg6.eq_unread hf6; obtain rfl := harg7.eq_unread hf7
  sl_exec (disch := first | exact hA | exact hB | exact hC | exact hD)
  sl_step
  iapply Hk
  isplitl [H21]
  · iexists _; isplitr; swap; · iexact H21
    ipureintro; sl_unfold_run_names; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]
  isplitl [H22]
  · iexists _; isplitr; swap; · iexact H22
    ipureintro; sl_unfold_run_names; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; exact harg15.read_unread _
  isplitl [H19]
  · iexists _; isplitr; swap; · iexact H19
    ipureintro; sl_unfold_run_names; unfold putRows; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]
  isplitl [H20]
  · iexists _; isplitr; swap; · iexact H20
    ipureintro; sl_unfold_run_names; unfold putRows; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]
  isplitl [H17]
  · iexists _; isplitr; swap; · iexact H17
    ipureintro; exact harg17.read_unread _
  isplitl [H18]
  · iexists _; isplitr; swap; · iexact H18
    ipureintro; exact harg18.read_unread _
  isplitl [H1]
  · iexists _; isplitr; swap; · iexact H1
    ipureintro; exact harg1.read_unread _
  isplitl [H2]
  · iexists _; isplitr; swap; · iexact H2
    ipureintro; exact harg2.read_unread _
  isplitl [H6]
  · iexists _; isplitr; swap; · iexact H6
    ipureintro; exact harg6.read_unread _
  · iexists _; isplitr; swap; · iexact H7
    ipureintro; exact harg7.read_unread _

end Cert.Kernel.Body

end
-- ==== Proof.KRunC.lean ====
/- The body at grid point 125. -/
import proofs.«162584_g16561393893844_cont_week2b_458_24_alg».proof.Proof.KLemmas

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Point 125: the perceptron and the decoder's left factor of the last block; no further convolution. -/
theorem runC (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S400x10000 .f32) (harg16 : arg16.IsWhole) (arg17 : Memref sig .tc .vmem S10000x128 .bf16) (harg17 : arg17.IsWhole) (arg18 : Memref sig .tc .vmem S10000x128 .bf16) (harg18 : arg18.IsWhole) (arg19 : Memref sig .tc .vmem S10000x64 .bf16) (harg19 : arg19.IsWhole) (arg20 : Memref sig .tc .vmem S10000x64 .bf16) (harg20 : arg20.IsWhole) (arg21 : Memref sig .tc .vmem S80x128 .f32) (harg21 : arg21.IsWhole) (arg22 : Memref sig .tc .vmem S80x128 .f32) (harg22 : arg22.IsWhole)
    (hA : ¬condA i) (hB : condB i) (hC : ¬condC i) (hD : ¬condD i)
    (zp zn : Vec F S80x128 .f32) (w1a w1b : Vec F S128x64 .f32) (b1 : Vec F S1x64 .f32) (w2 : Vec F S64x128 .f32) (b2 : Vec F S1x128 .f32) (w3 : Vec F S128x64 .f32) (b3 : Vec F S1x64 .f32) (wd : Vec F S64x64 .f32) (h0 t0 : Vec F S10000x64 .bf16) (E : Set ℕ) (K : PUnit → sProp 𝕄) :
    iprop(owns (c : Thread nD τ) arg21 fullShare zp ∗ owns (c : Thread nD τ) arg22 fullShare zn ∗ owns (c : Thread nD τ) arg8 fullShare w1a ∗ owns (c : Thread nD τ) arg9 fullShare w1b ∗ owns (c : Thread nD τ) arg10 fullShare b1 ∗ owns (c : Thread nD τ) arg11 fullShare w2 ∗ owns (c : Thread nD τ) arg12 fullShare b2 ∗ owns (c : Thread nD τ) arg13 fullShare w3 ∗ owns (c : Thread nD τ) arg14 fullShare b3 ∗ owns (c : Thread nD τ) arg15 fullShare wd ∗ owns (c : Thread nD τ) arg19 fullShare h0 ∗ owns (c : Thread nD τ) arg20 fullShare t0
        ∗ (iprop(owns (c : Thread nD τ) arg21 fullShare zp ∗ owns (c : Thread nD τ) arg22 fullShare zn ∗ owns (c : Thread nD τ) arg8 fullShare w1a ∗ owns (c : Thread nD τ) arg9 fullShare w1b ∗ owns (c : Thread nD τ) arg10 fullShare b1 ∗ owns (c : Thread nD τ) arg11 fullShare w2 ∗ owns (c : Thread nD τ) arg12 fullShare b2 ∗ owns (c : Thread nD τ) arg13 fullShare w3 ∗ owns (c : Thread nD τ) arg14 fullShare b3 ∗ owns (c : Thread nD τ) arg15 fullShare wd ∗ owns (c : Thread nD τ) arg19 fullShare (putRows arg19 harg19 i hB h0 (k0_pay4 (k0_pay10 zp zn w1a w1b b1 w2 b2 w3 b3))) ∗ owns (c : Thread nD τ) arg20 fullShare (putRows arg20 harg20 i hB t0 (k0_pay5 (k0_pay9 zp zn w1a w1b b1 w2 b2 w3 b3) wd))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__fused_kernel_eq_skeleton]; unfold cc0__fused_kernel_skel
  simp only [k0_part1_eq_skeleton]; unfold k0_part1_skel
  unfold owns
  iintro ⟨⟨%f21, %hf21, H21⟩, ⟨%f22, %hf22, H22⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f19, %hf19, H19⟩, ⟨%f20, %hf20, H20⟩, Hk⟩
  obtain rfl := harg21.eq_unread hf21; obtain rfl := harg22.eq_unread hf22; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg19.eq_unread hf19; obtain rfl := harg20.eq_unread hf20
  sl_exec (disch := first | exact hA | exact hB | exact hC | exact hD)
  sl_step
  iapply Hk
  isplitl [H21]
  · iexists _; isplitr; swap; · iexact H21
    ipureintro; exact harg21.read_unread _
  isplitl [H22]
  · iexists _; isplitr; swap; · iexact H22
    ipureintro; exact harg22.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; exact harg15.read_unread _
  isplitl [H19]
  · iexists _; isplitr; swap; · iexact H19
    ipureintro; sl_unfold_run_names; unfold putRows; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]
  · iexists _; isplitr; swap; · iexact H20
    ipureintro; sl_unfold_run_names; unfold putRows; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]

end Cert.Kernel.Body

end
-- ==== Proof.KRunD.lean ====
/- The body at grid points 126 to 150. -/
import proofs.«162584_g16561393893844_cont_week2b_458_24_alg».proof.Proof.KLemmas

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Points 126 to 150: 400 rows of the decoder's left factor against the whole embedding, into the output block. -/
theorem runD (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S400x10000 .f32) (harg16 : arg16.IsWhole) (arg17 : Memref sig .tc .vmem S10000x128 .bf16) (harg17 : arg17.IsWhole) (arg18 : Memref sig .tc .vmem S10000x128 .bf16) (harg18 : arg18.IsWhole) (arg19 : Memref sig .tc .vmem S10000x64 .bf16) (harg19 : arg19.IsWhole) (arg20 : Memref sig .tc .vmem S10000x64 .bf16) (harg20 : arg20.IsWhole) (arg21 : Memref sig .tc .vmem S80x128 .f32) (harg21 : arg21.IsWhole) (arg22 : Memref sig .tc .vmem S80x128 .f32) (harg22 : arg22.IsWhole)
    (hA : ¬condA i) (hB : ¬condB i) (hC : ¬condC i) (hD : condD i)
    (h0 t0 : Vec F S10000x64 .bf16) (E : Set ℕ) (K : PUnit → sProp 𝕄) :
    iprop(owns (c : Thread nD τ) arg19 fullShare h0 ∗ owns (c : Thread nD τ) arg20 fullShare t0 ∗ (∃ d, owns (c : Thread nD τ) arg16 fullShare d)
        ∗ (iprop(owns (c : Thread nD τ) arg19 fullShare h0 ∗ owns (c : Thread nD τ) arg20 fullShare t0 ∗ owns (c : Thread nD τ) arg16 fullShare (k0_pay8 (getRows arg20 harg20 i hD t0) h0)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__fused_kernel_eq_skeleton]; unfold cc0__fused_kernel_skel
  unfold owns
  iintro ⟨⟨%f19, %hf19, H19⟩, ⟨%f20, %hf20, H20⟩, ⟨%d16, %f16, %hf16, H16⟩, Hk⟩
  obtain rfl := harg19.eq_unread hf19; obtain rfl := harg20.eq_unread hf20
  sl_exec (disch := first | exact hA | exact hB | exact hC | exact hD)
  sl_step
  iapply Hk
  isplitl [H19]
  · iexists _; isplitr; swap; · iexact H19
    ipureintro; exact harg19.read_unread _
  isplitl [H20]
  · iexists _; isplitr; swap; · iexact H20
    ipureintro; exact harg20.read_unread _
  · iexists _; isplitr; swap; · iexact H16
    ipureintro; sl_unfold_run_names; unfold getRows; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]

end Cert.Kernel.Body

end
-- ==== Proof.KBody.lean ====
/-
  The frame of the program: the proof data of its one pipelined region, the body obligation at every grid point, and
  the run.

  Between points the six scratch buffers hold: both transformed feature arrays (from point 0 on); the convolved block
  of the point just run, each sign (while a convolution ran: after points 0 to 124); and the two 10000-row buffers of
  the embedding and the decoder's left factor, final on the rows stored so far — rows below 80 n before point n + 1.
  Each point's obligation is the run of its control case from these contents to the next point's; the output window is
  idle (handed back untouched, not written back) until point 126 and then holds the block the decode point computes.
-/
import proofs.«162584_g16561393893844_cont_week2b_458_24_alg».proof.Proof.KDefs
import proofs.«162584_g16561393893844_cont_week2b_458_24_alg».proof.Proof.KRunA
import proofs.«162584_g16561393893844_cont_week2b_458_24_alg».proof.Proof.KRunB
import proofs.«162584_g16561393893844_cont_week2b_458_24_alg».proof.Proof.KRunC
import proofs.«162584_g16561393893844_cont_week2b_458_24_alg».proof.Proof.KRunD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The output window over the grid; the staging memrefs -/

theorem idle15 : ∀ t : Fin cfg0.N, ¬condD (grid0.coords t) → cfg0.idle 15 (grid0.coords t) = true := by decide +kernel
theorem noFlush15 : ∀ t : Fin cfg0.N, ¬condD (grid0.coords t) → (cfg0.win 15).flush t = false := by decide +kernel
theorem live15 : ∀ t : Fin cfg0.N, condD (grid0.coords t) → cfg0.idle 15 (grid0.coords t) = false := by decide +kernel

abbrev ms0_0 (t : Fin cfg0.N) : Memref sig .tc .vmem S80x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S80x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x64 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x64 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S64x64 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S400x10000 .f32 := win0_15.stage (cfg0.slots t 15)
abbrev hs0_15 (t : Fin cfg0.N) : (ms0_15 t).IsWhole := hstage0_15 ((cfg0.slots t 15).cast nbuf0_15)

/-- The region's own invariant, its six scratch buffers named: each at some contents, and the generator register. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-! ## Rows stored so far are final -/

/-- Storing point `t`'s band keeps every row below it and makes the band's rows final. -/
theorem putRows_rows (sc : Memref sig .tc .vmem S10000x64 .bf16) (hsc : sc.IsWhole) (t : Fin cfg0.N) (hB : condB (grid0.coords t))
    (old : Vec F S10000x64 .bf16) (B : Fin cfg0.N → FVec F S80x64 .bf16)
    (hold : ∀ y : S10000x64.Idx, (y 0).val < 80 * (t.val - 1) → old y = B (ptOf y) (locOf y))
    (y : S10000x64.Idx) (hy : (y 0).val < 80 * t.val) :
    putRows sc hsc (grid0.coords t) hB old (B t) y = B (ptOf y) (locOf y) := by
  have ht : 1 ≤ t.val := ((hcondB t).mp hB).1
  unfold putRows
  have hy0 : (y 0).val < 10000 := (y 0).isLt
  rw [View.read_writes_cons_rows sc.view (hsc.unread old) (k0_off1_inb (grid0.coords t) hB) (B t) [] y (hoff1 t hB)
    (show S80x64.size (0 : Fin 2) = 80 from rfl) rfl]
  split
  · rename_i h
    have hp : ptOf y = t := Fin.ext (by show (y 0).val / 80 + 1 = t.val; omega)
    rw [hp]
    refine congrArg (B t) (funext fun a => Fin.ext ?_)
    match a with
    | ⟨0, _⟩ => show (y 0).val - 80 * (t.val - 1) = (y 0).val % 80; omega
    | ⟨1, _⟩ => show (y 1).val - 0 = (y 1).val; omega
  · rename_i h
    rw [View.writes_nil, hsc.read_unread]
    exact hold y (by omega)

/-! ## The invariant between points -/

/-- Before point `n`: at the start anything; after point `n` the contents described above. -/
def Phi (c : Dev nD) : (n : ℕ) → n ≤ cfg0.N → sProp 𝕄
  | 0, _ => Pipeline.ΦA spec0 c
  | n + 1, hn => iprop(owns (c : Thread nD τ) (Memref.whole cc0_scratch0) fullShare (XP m c) ∗ owns (c : Thread nD τ) (Memref.whole cc0_scratch1) fullShare (XN m c)
      ∗ (∃ zp zn : Vec F S80x128 .f32, owns (c : Thread nD τ) (Memref.whole cc0_scratch4) fullShare zp ∗ owns (c : Thread nD τ) (Memref.whole cc0_scratch5) fullShare zn ∗ ⌜n < 125 → zp = ZP m c ⟨n, hn⟩ ∧ zn = ZN m c ⟨n, hn⟩⌝)
      ∗ (∃ hc tc : Vec F S10000x64 .bf16, owns (c : Thread nD τ) (Memref.whole cc0_scratch2) fullShare hc ∗ owns (c : Thread nD τ) (Memref.whole cc0_scratch3) fullShare tc
          ∗ ⌜∀ y : S10000x64.Idx, (y 0).val < 80 * n → hc y = HF m c y ∧ tc y = TF m c y⌝)
      ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(owns (c : Thread nD τ) (Memref.whole cc0_scratch0) fullShare (XP m c) ∗ owns (c : Thread nD τ) (Memref.whole cc0_scratch1) fullShare (XN m c)
      ∗ (∃ zp zn : Vec F S80x128 .f32, owns (c : Thread nD τ) (Memref.whole cc0_scratch4) fullShare zp ∗ owns (c : Thread nD τ) (Memref.whole cc0_scratch5) fullShare zn ∗ ⌜n < 125 → zp = ZP m c ⟨n, hn⟩ ∧ zn = ZN m c ⟨n, hn⟩⌝)
      ∗ (∃ hc tc : Vec F S10000x64 .bf16, owns (c : Thread nD τ) (Memref.whole cc0_scratch2) fullShare hc ∗ owns (c : Thread nD τ) (Memref.whole cc0_scratch3) fullShare tc
          ∗ ⌜∀ y : S10000x64.Idx, (y 0).val < 80 * n → hc y = HF m c y ∧ tc y = TF m c y⌝)
      ∗ (∃ r, prngReg c r)) := rfl

theorem Phi_pos (c : Dev nD) (n : ℕ) (h : n ≤ cfg0.N) (hz : n ≠ 0) :
    Phi m c n h = iprop(owns (c : Thread nD τ) (Memref.whole cc0_scratch0) fullShare (XP m c) ∗ owns (c : Thread nD τ) (Memref.whole cc0_scratch1) fullShare (XN m c)
      ∗ (∃ zp zn : Vec F S80x128 .f32, owns (c : Thread nD τ) (Memref.whole cc0_scratch4) fullShare zp ∗ owns (c : Thread nD τ) (Memref.whole cc0_scratch5) fullShare zn
          ∗ ⌜n - 1 < 125 → zp = ZP m c ⟨n - 1, by omega⟩ ∧ zn = ZN m c ⟨n - 1, by omega⟩⌝)
      ∗ (∃ hc tc : Vec F S10000x64 .bf16, owns (c : Thread nD τ) (Memref.whole cc0_scratch2) fullShare hc ∗ owns (c : Thread nD τ) (Memref.whole cc0_scratch3) fullShare tc
          ∗ ⌜∀ y : S10000x64.Idx, (y 0).val < 80 * (n - 1) → hc y = HF m c y ∧ tc y = TF m c y⌝)
      ∗ (∃ r, prngReg c r)) := by
  cases n with
  | zero => exact absurd rfl hz
  | succ n => rfl

/-! ## The proof data -/

/-- The arrays as the region finds them; each input window's buffer left at its block; the output window's at the
    decode point's block; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => OB m c t
    | ⟨_ + 16, h⟩ => absurd h (Nat.not_lt.2 (Nat.le_add_left _ _))
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = OB m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

theorem leaves0_0 (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (cfg0.grid.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (cfg0.grid.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (cfg0.grid.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (cfg0.grid.coords t) = false from rfl, after0_6]
theorem leaves0_7 (c : Dev nD) (t : Fin cfg0.N) : (dats m 0 c).leavesExact 7 t = owns (c : Thread nD τ) (ms0_7 t) fullShare (iblk m c 7 t) := by
  unfold Dat.leavesExact; rw [show cfg0.idle 7 (cfg0.grid.coords t) = false from rfl, after0_7]
theorem leaves0_8 (c : Dev nD) (t : Fin cfg0.N) : (dats m 0 c).leavesExact 8 t = owns (c : Thread nD τ) (ms0_8 t) fullShare (iblk m c 8 t) := by
  unfold Dat.leavesExact; rw [show cfg0.idle 8 (cfg0.grid.coords t) = false from rfl, after0_8]
theorem leaves0_9 (c : Dev nD) (t : Fin cfg0.N) : (dats m 0 c).leavesExact 9 t = owns (c : Thread nD τ) (ms0_9 t) fullShare (iblk m c 9 t) := by
  unfold Dat.leavesExact; rw [show cfg0.idle 9 (cfg0.grid.coords t) = false from rfl, after0_9]
theorem leaves0_10 (c : Dev nD) (t : Fin cfg0.N) : (dats m 0 c).leavesExact 10 t = owns (c : Thread nD τ) (ms0_10 t) fullShare (iblk m c 10 t) := by
  unfold Dat.leavesExact; rw [show cfg0.idle 10 (cfg0.grid.coords t) = false from rfl, after0_10]
theorem leaves0_11 (c : Dev nD) (t : Fin cfg0.N) : (dats m 0 c).leavesExact 11 t = owns (c : Thread nD τ) (ms0_11 t) fullShare (iblk m c 11 t) := by
  unfold Dat.leavesExact; rw [show cfg0.idle 11 (cfg0.grid.coords t) = false from rfl, after0_11]
theorem leaves0_12 (c : Dev nD) (t : Fin cfg0.N) : (dats m 0 c).leavesExact 12 t = owns (c : Thread nD τ) (ms0_12 t) fullShare (iblk m c 12 t) := by
  unfold Dat.leavesExact; rw [show cfg0.idle 12 (cfg0.grid.coords t) = false from rfl, after0_12]
theorem leaves0_13 (c : Dev nD) (t : Fin cfg0.N) : (dats m 0 c).leavesExact 13 t = owns (c : Thread nD τ) (ms0_13 t) fullShare (iblk m c 13 t) := by
  unfold Dat.leavesExact; rw [show cfg0.idle 13 (cfg0.grid.coords t) = false from rfl, after0_13]
theorem leaves0_14 (c : Dev nD) (t : Fin cfg0.N) : (dats m 0 c).leavesExact 14 t = owns (c : Thread nD τ) (ms0_14 t) fullShare (iblk m c 14 t) := by
  unfold Dat.leavesExact; rw [show cfg0.idle 14 (cfg0.grid.coords t) = false from rfl, after0_14]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 8000000 in
/-- The body at any point: by cases on the point, the run of its control case from the invariant's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = Phi m c (t.val + 1) t.isLt from rfl, Phi_succ, Phi_castSucc m c t]
  simp only [leaves0_0 m c t, leaves0_1 m c t, leaves0_2 m c t, leaves0_3 m c t, leaves0_4 m c t, leaves0_5 m c t, leaves0_6 m c t, leaves0_7 m c t, leaves0_8 m c t, leaves0_9 m c t, leaves0_10 m c t, leaves0_11 m c t, leaves0_12 m c t, leaves0_13 m c t, leaves0_14 m c t]
  have hN : t.val < 151 := lt_of_lt_of_eq t.isLt (show cfg0.N = 151 from N_0)
  by_cases h0 : t.val = 0
  · -- point 0
    have hA : condA (grid0.coords t) := (hcondA t).mpr h0
    have hnB : ¬condB (grid0.coords t) := fun h => by have := (hcondB t).mp h; omega
    have hC : condC (grid0.coords t) := (hcondC t).mpr (by omega)
    have hnD : ¬condD (grid0.coords t) := fun h => by have := (hcondD t).mp h; omega
    rw [Phi_zero m c _ _ h0, PhiA_eq, Dat.leavesExact_idle (dats m 0 c) 15 t (idle15 t hnD) (noFlush15 t hnD)]
    obtain rfl : t = p0 := Fin.ext h0
    iintro ⟨⟨⟨HXp, HXn, HH, HT, HZp, HZn⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15⟩
    iapply (runA c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) (ms0_11 p0) (hs0_11 p0) (ms0_12 p0) (hs0_12 p0) (ms0_13 p0) (hs0_13 p0) (ms0_14 p0) (hs0_14 p0) (ms0_15 p0) (hs0_15 p0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) hA hnB hC hnD
      (iblk m c 2 p0) (iblk m c 3 p0) (iblk m c 4 p0) (iblk m c 0 p0) (iblk m c 1 p0) (iblk m c 5 p0) (iblk m c 6 p0) Set.univ _)
    isplitl [H2]; · iexact H2
    isplitl [H3]; · iexact H3
    isplitl [H4]; · iexact H4
    isplitl [H0]; · iexact H0
    isplitl [H1]; · iexact H1
    isplitl [H5]; · iexact H5
    isplitl [H6]; · iexact H6
    isplitl [HXp]; · iexact HXp
    isplitl [HXn]; · iexact HXn
    isplitl [HZp]; · iexact HZp
    isplitl [HZn]; · iexact HZn
    iintro ⟨H2, H3, H4, H0, H1, H5, H6, HXp, HXn, HZp, HZn⟩
    isplitl [HXp HXn HZp HZn HH HT Hg]
    · isplitl [HXp]; · iexact HXp
      isplitl [HXn]; · iexact HXn
      isplitl [HZp HZn]
      · iexists _, _; isplitl [HZp]; · iexact HZp
        isplitl [HZn]; · iexact HZn
        ipureintro; intro _; exact ⟨rfl, rfl⟩
      isplitl [HH HT]
      · icases HH with ⟨%hc, HH⟩; icases HT with ⟨%tc, HT⟩
        iexists hc, tc; isplitl [HH]; · iexact HH
        isplitl [HT]; · iexact HT
        ipureintro; intro y hy; exact absurd hy (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · by_cases h1 : t.val < 125
    · -- points 1 to 124
      have hnA : ¬condA (grid0.coords t) := (fun h => h0 ((hcondA t).mp h))
      have hB : condB (grid0.coords t) := (hcondB t).mpr ⟨by omega, by omega⟩
      have hC : condC (grid0.coords t) := (hcondC t).mpr h1
      have hnD : ¬condD (grid0.coords t) := fun h => by have := (hcondD t).mp h; omega
      rw [Phi_pos m c _ _ h0, Dat.leavesExact_idle (dats m 0 c) 15 t (idle15 t hnD) (noFlush15 t hnD)]
      iintro ⟨⟨HXp, HXn, ⟨%zp, %zn, HZp, HZn, %hz⟩, ⟨%hc, %tc, HH, HT, %hrows⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15⟩
      obtain ⟨rfl, rfl⟩ := hz (by omega)
      iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) hnA hB hC hnD
        (ZP m c (prev t)) (ZN m c (prev t)) (iblk m c 7 t) (iblk m c 8 t) (iblk m c 9 t) (iblk m c 10 t) (iblk m c 11 t) (iblk m c 12 t) (iblk m c 13 t) (iblk m c 14 t) hc tc (XP m c) (XN m c) (iblk m c 0 t) (iblk m c 1 t) (iblk m c 5 t) (iblk m c 6 t) Set.univ _)
      isplitl [HZp]; · iexact HZp
      isplitl [HZn]; · iexact HZn
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HH]; · iexact HH
      isplitl [HT]; · iexact HT
      isplitl [HXp]; · iexact HXp
      isplitl [HXn]; · iexact HXn
      isplitl [H0]; · iexact H0
      isplitl [H1]; · iexact H1
      isplitl [H5]; · iexact H5
      isplitl [H6]; · iexact H6
      iintro ⟨HZp, HZn, H7, H8, H9, H10, H11, H12, H13, H14, HH, HT, HXp, HXn, H0, H1, H5, H6⟩
      isplitl [HXp HXn HZp HZn HH HT Hg]
      · isplitl [HXp]; · iexact HXp
        isplitl [HXn]; · iexact HXn
        isplitl [HZp HZn]
        · iexists _, _; isplitl [HZp]; · iexact HZp
          isplitl [HZn]; · iexact HZn
          ipureintro; intro _; exact ⟨rfl, rfl⟩
        isplitl [HH HT]
        · iexists _, _; isplitl [HH]; · iexact HH
          isplitl [HT]; · iexact HT
          ipureintro; intro y hy
          exact ⟨putRows_rows _ _ t hB hc (HB m c) (fun y' hy' => (hrows y' hy').1) y hy,
            putRows_rows _ _ t hB tc (TB m c) (fun y' hy' => (hrows y' hy').2) y hy⟩
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · by_cases h2 : t.val = 125
      · -- point 125
        have hnA : ¬condA (grid0.coords t) := (fun h => h0 ((hcondA t).mp h))
        have hB : condB (grid0.coords t) := (hcondB t).mpr ⟨by omega, by omega⟩
        have hnC : ¬condC (grid0.coords t) := fun h => h1 ((hcondC t).mp h)
        have hnD : ¬condD (grid0.coords t) := fun h => by have := (hcondD t).mp h; omega
        rw [Phi_pos m c _ _ h0, Dat.leavesExact_idle (dats m 0 c) 15 t (idle15 t hnD) (noFlush15 t hnD)]
        iintro ⟨⟨HXp, HXn, ⟨%zp, %zn, HZp, HZn, %hz⟩, ⟨%hc, %tc, HH, HT, %hrows⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15⟩
        obtain ⟨rfl, rfl⟩ := hz (by omega)
        iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) hnA hB hnC hnD
          (ZP m c (prev t)) (ZN m c (prev t)) (iblk m c 7 t) (iblk m c 8 t) (iblk m c 9 t) (iblk m c 10 t) (iblk m c 11 t) (iblk m c 12 t) (iblk m c 13 t) (iblk m c 14 t) hc tc Set.univ _)
        isplitl [HZp]; · iexact HZp
        isplitl [HZn]; · iexact HZn
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [HH]; · iexact HH
        isplitl [HT]; · iexact HT
        iintro ⟨HZp, HZn, H7, H8, H9, H10, H11, H12, H13, H14, HH, HT⟩
        isplitl [HXp HXn HZp HZn HH HT Hg]
        · isplitl [HXp]; · iexact HXp
          isplitl [HXn]; · iexact HXn
          isplitl [HZp HZn]
          · iexists _, _; isplitl [HZp]; · iexact HZp
            isplitl [HZn]; · iexact HZn
            ipureintro; intro h; omega
          isplitl [HH HT]
          · iexists _, _; isplitl [HH]; · iexact HH
            isplitl [HT]; · iexact HT
            ipureintro; intro y hy
            exact ⟨putRows_rows _ _ t hB hc (HB m c) (fun y' hy' => (hrows y' hy').1) y hy,
              putRows_rows _ _ t hB tc (TB m c) (fun y' hy' => (hrows y' hy').2) y hy⟩
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexact H15
      · -- points 126 to 150
        have hnA : ¬condA (grid0.coords t) := (fun h => h0 ((hcondA t).mp h))
        have hnB : ¬condB (grid0.coords t) := fun h => by have := (hcondB t).mp h; omega
        have hnC : ¬condC (grid0.coords t) := fun h => h1 ((hcondC t).mp h)
        have hD : condD (grid0.coords t) := (hcondD t).mpr (by omega)
        rw [Phi_pos m c _ _ h0]
        rw [show (dats m 0 c).leavesExact 15 t = owns (c : Thread nD τ) (ms0_15 t) fullShare ((dats m 0 c).after 15 t) from by
          unfold Dat.leavesExact; rw [live15 t hD], after0_15]
        iintro ⟨⟨HXp, HXn, ⟨%zp, %zn, HZp, HZn, %hz⟩, ⟨%hc, %tc, HH, HT, %hrows⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15⟩
        have hall : ∀ y : S10000x64.Idx, hc y = HF m c y ∧ tc y = TF m c y := fun y =>
          hrows y (by have hy : (y 0).val < 10000 := (y 0).isLt; omega)
        obtain rfl : hc = HF m c := funext fun y => (hall y).1
        obtain rfl : tc = TF m c := funext fun y => (hall y).2
        iapply (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) hnA hnB hnC hD (HF m c) (TF m c) Set.univ _)
        isplitl [HH]; · iexact HH
        isplitl [HT]; · iexact HT
        isplitl [H15]; · icases H15 with ⟨%d15, H15⟩; iexists _; iexact H15
        iintro ⟨HH, HT, H15⟩
        isplitl [HXp HXn HZp HZn HH HT Hg]
        · isplitl [HXp]; · iexact HXp
          isplitl [HXn]; · iexact HXn
          isplitl [HZp HZn]
          · iexists zp, zn; isplitl [HZp]; · iexact HZp
            isplitl [HZn]; · iexact HZn
            ipureintro; intro h; omega
          isplitl [HH HT]
          · iexists _, _; isplitl [HH]; · iexact HH
            isplitl [HT]; · iexact HT
            ipureintro; intro y _; exact ⟨rfl, rfl⟩
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        unfold OB; rw [dif_pos hD]; iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives the region's own back: the scratch contents forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 151 := N_0; omega), PhiA_eq]
  iintro ⟨HXp, HXn, ⟨%zp, %zn, HZp, HZn, -⟩, ⟨%hc, %tc, HH, HT, -⟩, Hg⟩
  isplitr [Hg]
  · isplitl [HXp]; · iexists _; iexact HXp
    isplitl [HXn]; · iexists _; iexact HXn
    isplitl [HH]; · iexists _; iexact HH
    isplitl [HT]; · iexists _; iexact HT
    isplitl [HZp]; · iexists _; iexact HZp
    iexists _; iexact HZn
  iexact Hg

/-! ## The run and the frame -/

set_option backward.isDefEq.respectTransparency.types false in
/-- Every weakly fair execution of @main terminates, faults nowhere, and ends with every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Kernel.Body

end
-- ==== Proof.KILemmas.lean ====
/-
  What the body's runs share: its four branch conditions, whole-buffer loads and stores read back, and the two
  accesses of a band of rows of a 10000-row scratch buffer (80 rows stored, 400 rows loaded) at the offsets the
  program computes from the grid coordinate.
-/
import proofs.«162584_g16561393893844_cont_week2b_458_24_alg».proof.Proof.Gen.KernelIdeal.Frame
import proofs.«162584_g16561393893844_cont_week2b_458_24_alg».proof.Proof.Gen.KernelIdeal.Skeleton
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four branch conditions -/

/-- `i = 0`: the feature transform of both signs is computed and kept. -/
abbrev condA (i : grid0.Coords) : Prop := (Scalar.cmpi .ne (Scalar.extui (Scalar.cmpi .eq (BitVec.ofNat 32 (i 0).val) 0#32)) 0#32) = 1#1
/-- `0 < i ≤ 125`: the perceptron and the decoder's left factor of the block of 80 nodes convolved one point earlier. -/
abbrev condB (i : grid0.Coords) : Prop := k0_cond2 i = 1#1
/-- `i < 125`: the graph convolution of block `i` of 80 nodes, both signs. -/
abbrev condC (i : grid0.Coords) : Prop := (Scalar.cmpi .ne (Scalar.extui (Scalar.cmpi .slt (BitVec.ofNat 32 (i 0).val) 125#32)) 0#32) = 1#1
/-- `i > 125`: block `i - 126` of 400 rows of the result. -/
abbrev condD (i : grid0.Coords) : Prop := k0_cond4 i = 1#1

/-! ## Whole-buffer loads and stores, and a band of rows -/

theorem hz2 : (![0, 0] : Fin 2 → ℕ) = fun _ => 0 := by funext a; fin_cases a <;> rfl

/-- A load of a whole buffer reads its contents. -/
theorem readAt_whole {sp : Space} {S : Shape} {e : EltTy} (mr : Memref sig .tc sp S e) (hm : mr.IsWhole)
    (X : S.Idx → Elt F e) {off : Fin S.rank → ℕ} (hz : off = fun _ => 0) (inb : ∀ a, off a + S.size a ≤ S.size a) :
    View.readAt (Elt F) mr.view (Rect.unit off S.size inb).toLoadRect (hm.unread X) = X := by
  rw [View.readAt_eq_ld, hm.read_unread, View.ld_unit_zero hz]

/-- After one store through the whole of a buffer it holds the stored value, whatever it held before. -/
theorem read_store_whole {sp : Space} {S : Shape} {e : EltTy} (v : View sig .tc sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w :=
  (View.read_writes_eq_canon v f _ fun y => ⟨_, List.mem_singleton_self _, View.mem_set_unit_zero hz inb y⟩).trans
    (View.canon_unit_zero hz inb w)

/-- A load of a whole buffer right after one store through the whole of it reads the stored value. -/
theorem readCov_whole {sp : Space} {S : Shape} {e : EltTy} (v : View sig .tc sp S e)
    {off : Fin S.rank → ℕ} (hz : off = fun _ => 0) (inb : ∀ a, off a + S.size a ≤ S.size a) (w : S.Idx → Elt F e) :
    v.readCov [(⟨Rect.unit off S.size inb, w⟩ : View.Piece (Elt F) S e)] (Rect.unit off S.size inb).toLoadRect = w :=
  View.readCov_unit_zero v hz inb w

/-- What a 10000-row buffer holds after the band of 80 rows the program addresses at point `i` is overwritten by `new`. -/
def putRows (sc : Memref sig .tc .vmem S10000x64 .bf16) (hsc : sc.IsWhole) (i : grid0.Coords) (hB : condB i)
    (old : Vec F S10000x64 .bf16) (new : FVec F S80x64 .bf16) : Vec F S10000x64 .bf16 :=
  sc.view.read (Elt F) (sc.view.writes (Elt F) (hsc.unread old)
    [⟨Rect.unit (s := S10000x64) (k0_off1 i) S80x64.size (k0_off1_inb i hB), new⟩])

/-- The 400 rows of a 10000-row buffer the program addresses at point `i`. -/
def getRows (sc : Memref sig .tc .vmem S10000x64 .bf16) (hsc : sc.IsWhole) (i : grid0.Coords) (hD : condD i)
    (old : Vec F S10000x64 .bf16) : Vec F S400x64 .bf16 :=
  View.readAt (Elt F) sc.view (Rect.unit (s := S10000x64) (k0_off2 i) S400x64.size (k0_off2_inb i hD)).toLoadRect (hsc.unread old)

end Cert.KernelIdeal.Body

end
-- ==== Proof.KIDefs.lean ====
/-
  What every scratch buffer holds between grid points, in closed form in the windows' blocks (any float instance).

  The kernel walks 151 grid points. Point 0 stores the transformed features of both signs, XP = X·Wp and XN = X·Wn
  (all 10000 nodes). Point t < 125 stores the convolved block t of 80 nodes of each sign, ZP t and ZN t, from the
  adjacency blocks at t. Point t with 1 ≤ t ≤ 125 runs the perceptron on the convolved block t − 1 and stores its 80 rows
  of the embedding, HB t, and of the decoder's left factor, TB t, into rows [80 (t − 1), 80 t) of two 10000-row buffers:
  after point t ≥ 1 rows below 80 t of those buffers are final, row R holding block R / 80 + 1's row R % 80 (HF, TF),
  and from point 125 on both are complete. Point t ≥ 126 multiplies rows [400 (t − 126), 400 (t − 125)) of TF against all
  of HF into the output block OB t.
-/
import proofs.«162584_g16561393893844_cont_week2b_458_24_alg».proof.Proof.KILemmas
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The conditions and the two computed offsets, decided over the grid -/

theorem hcondA : ∀ t : Fin cfg0.N, condA (grid0.coords t) ↔ t.val = 0 :=
  (by decide +kernel : ∀ t : Fin grid0.N, condA (grid0.coords t) ↔ t.val = 0)
theorem hcondB : ∀ t : Fin cfg0.N, condB (grid0.coords t) ↔ (1 ≤ t.val ∧ t.val ≤ 125) :=
  (by decide +kernel : ∀ t : Fin grid0.N, condB (grid0.coords t) ↔ (1 ≤ t.val ∧ t.val ≤ 125))
theorem hcondC : ∀ t : Fin cfg0.N, condC (grid0.coords t) ↔ t.val < 125 :=
  (by decide +kernel : ∀ t : Fin grid0.N, condC (grid0.coords t) ↔ t.val < 125)
theorem hcondD : ∀ t : Fin cfg0.N, condD (grid0.coords t) ↔ 126 ≤ t.val :=
  (by decide +kernel : ∀ t : Fin grid0.N, condD (grid0.coords t) ↔ 126 ≤ t.val)

/-- The band point `t` stores starts at row `80 (t - 1)`, column 0. -/
theorem hoff1 : ∀ t : Fin cfg0.N, condB (grid0.coords t) → k0_off1 (grid0.coords t) = ![80 * (t.val - 1), 0] :=
  (by decide +kernel : ∀ t : Fin grid0.N, condB (grid0.coords t) → k0_off1 (grid0.coords t) = ![80 * (t.val - 1), 0])
/-- The rows point `t` loads start at row `400 (t - 126)`, column 0. -/
theorem hoff2 : ∀ t : Fin cfg0.N, condD (grid0.coords t) → k0_off2 (grid0.coords t) = ![400 * (t.val - 126), 0] :=
  (by decide +kernel : ∀ t : Fin grid0.N, condD (grid0.coords t) → k0_off2 (grid0.coords t) = ![400 * (t.val - 126), 0])

/-! ## The closed forms -/

/-- Grid point 0, and the point before `t`. -/
def p0 : Fin cfg0.N := ⟨0, Nat.lt_of_lt_of_eq (by decide : 0 < 151) N_0.symm⟩
def prev (t : Fin cfg0.N) : Fin cfg0.N := ⟨t.val - 1, Nat.lt_of_le_of_lt (Nat.sub_le _ _) t.isLt⟩

/-- The transformed features of each sign, from the blocks of point 0. -/
def XP (c : Dev nD) : FVec F S10000x128 .bf16 := k0_pay2 (iblk m c 2 p0) (iblk m c 3 p0)
def XN (c : Dev nD) : FVec F S10000x128 .bf16 := k0_pay3 (iblk m c 2 p0) (iblk m c 4 p0)

/-- The convolved block of point `t`, each sign. -/
def ZP (c : Dev nD) (t : Fin cfg0.N) : FVec F S80x128 .f32 := k0_pay6 (iblk m c 0 t) (XP m c) (iblk m c 5 t)
def ZN (c : Dev nD) (t : Fin cfg0.N) : FVec F S80x128 .f32 := k0_pay7 (iblk m c 1 t) (XN m c) (iblk m c 6 t)

/-- The 80 rows of the embedding, and of the decoder's left factor, that point `t` stores. -/
def HB (c : Dev nD) (t : Fin cfg0.N) : FVec F S80x64 .bf16 :=
  k0_pay4 (k0_pay10 (ZP m c (prev t)) (ZN m c (prev t)) (iblk m c 7 t) (iblk m c 8 t) (iblk m c 9 t) (iblk m c 10 t)
    (iblk m c 11 t) (iblk m c 12 t) (iblk m c 13 t))
def TB (c : Dev nD) (t : Fin cfg0.N) : FVec F S80x64 .bf16 :=
  k0_pay5 (k0_pay9 (ZP m c (prev t)) (ZN m c (prev t)) (iblk m c 7 t) (iblk m c 8 t) (iblk m c 9 t) (iblk m c 10 t)
    (iblk m c 11 t) (iblk m c 12 t) (iblk m c 13 t)) (iblk m c 14 t)

/-- Row `R` of a 10000-row buffer is stored by point `R / 80 + 1`, as row `R % 80` of its band. -/
def ptOf (y : S10000x64.Idx) : Fin cfg0.N :=
  ⟨(y 0).val / 80 + 1, Nat.lt_of_lt_of_eq (by have h : (y 0).val < 10000 := (y 0).isLt; omega) N_0.symm⟩
def locOf (y : S10000x64.Idx) : S80x64.Idx :=
  ix2 (⟨(y 0).val % 80, Nat.mod_lt _ (by decide)⟩ : Fin 80) (⟨(y 1).val, (y 1).isLt⟩ : Fin 64)

/-- The complete embedding and decoder's left factor. -/
def HF (c : Dev nD) : Vec F S10000x64 .bf16 := fun y => HB m c (ptOf y) (locOf y)
def TF (c : Dev nD) : Vec F S10000x64 .bf16 := fun y => TB m c (ptOf y) (locOf y)

/-- The output block of point `t` (a decode point; elsewhere a value nothing reads). -/
def OB (c : Dev nD) (t : Fin cfg0.N) : FVec F S400x10000 .f32 :=
  if hD : condD (grid0.coords t) then
    k0_pay8 (getRows (Memref.whole cc0_scratch3) (Memref.isWhole_whole _) (grid0.coords t) hD (TF m c)) (HF m c)
  else constant S400x10000 .f32 0x00000000#32

end Cert.KernelIdeal.Body

end
-- ==== Proof.KIRunA.lean ====
/- The body at grid point 0. -/
import proofs.«162584_g16561393893844_cont_week2b_458_24_alg».proof.Proof.KILemmas

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Point 0: both feature transforms are stored, then block 0 of both convolutions from them. -/
theorem runA (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S400x10000 .f32) (harg16 : arg16.IsWhole) (arg17 : Memref sig .tc .vmem S10000x128 .bf16) (harg17 : arg17.IsWhole) (arg18 : Memref sig .tc .vmem S10000x128 .bf16) (harg18 : arg18.IsWhole) (arg19 : Memref sig .tc .vmem S10000x64 .bf16) (harg19 : arg19.IsWhole) (arg20 : Memref sig .tc .vmem S10000x64 .bf16) (harg20 : arg20.IsWhole) (arg21 : Memref sig .tc .vmem S80x128 .f32) (harg21 : arg21.IsWhole) (arg22 : Memref sig .tc .vmem S80x128 .f32) (harg22 : arg22.IsWhole)
    (hA : condA i) (hB : ¬condB i) (hC : condC i) (hD : ¬condD i)
    (x0 : Vec F S10000x128 .bf16) (wP wN : Vec F S128x128 .f32) (ap an : Vec F S80x10000 .f32) (bp bn : Vec F S1x128 .f32) (E : Set ℕ) (K : PUnit → sProp 𝕄) :
    iprop(owns (c : Thread nD τ) arg3 fullShare x0 ∗ owns (c : Thread nD τ) arg4 fullShare wP ∗ owns (c : Thread nD τ) arg5 fullShare wN ∗ owns (c : Thread nD τ) arg1 fullShare ap ∗ owns (c : Thread nD τ) arg2 fullShare an ∗ owns (c : Thread nD τ) arg6 fullShare bp ∗ owns (c : Thread nD τ) arg7 fullShare bn ∗ (∃ d, owns (c : Thread nD τ) arg17 fullShare d) ∗ (∃ d, owns (c : Thread nD τ) arg18 fullShare d) ∗ (∃ d, owns (c : Thread nD τ) arg21 fullShare d) ∗ (∃ d, owns (c : Thread nD τ) arg22 fullShare d)
        ∗ (iprop(owns (c : Thread nD τ) arg3 fullShare x0 ∗ owns (c : Thread nD τ) arg4 fullShare wP ∗ owns (c : Thread nD τ) arg5 fullShare wN ∗ owns (c : Thread nD τ) arg1 fullShare ap ∗ owns (c : Thread nD τ) arg2 fullShare an ∗ owns (c : Thread nD τ) arg6 fullShare bp ∗ owns (c : Thread nD τ) arg7 fullShare bn ∗ owns (c : Thread nD τ) arg17 fullShare (k0_pay2 x0 wP) ∗ owns (c : Thread nD τ) arg18 fullShare (k0_pay3 x0 wN)
            ∗ owns (c : Thread nD τ) arg21 fullShare (k0_pay6 ap (k0_pay2 x0 wP) bp) ∗ owns (c : Thread nD τ) arg22 fullShare (k0_pay7 an (k0_pay3 x0 wN) bn)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__fused_kernel_eq_skeleton]; unfold cc0__fused_kernel_skel
  unfold owns
  iintro ⟨⟨%f3, %hf3, H3⟩, ⟨%f4, %hf4, H4⟩, ⟨%f5, %hf5, H5⟩, ⟨%f1, %hf1, H1⟩, ⟨%f2, %hf2, H2⟩, ⟨%f6, %hf6, H6⟩, ⟨%f7, %hf7, H7⟩, ⟨%d17, %f17, %hf17, H17⟩, ⟨%d18, %f18, %hf18, H18⟩, ⟨%d21, %f21, %hf21, H21⟩, ⟨%d22, %f22, %hf22, H22⟩, Hk⟩
  obtain rfl := harg3.eq_unread hf3; obtain rfl := harg4.eq_unread hf4; obtain rfl := harg5.eq_unread hf5; obtain rfl := harg1.eq_unread hf1; obtain rfl := harg2.eq_unread hf2; obtain rfl := harg6.eq_unread hf6; obtain rfl := harg7.eq_unread hf7
  sl_exec (disch := first | exact hA | exact hB | exact hC | exact hD)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H1]
  · iexists _; isplitr; swap; · iexact H1
    ipureintro; exact harg1.read_unread _
  isplitl [H2]
  · iexists _; isplitr; swap; · iexact H2
    ipureintro; exact harg2.read_unread _
  isplitl [H6]
  · iexists _; isplitr; swap; · iexact H6
    ipureintro; exact harg6.read_unread _
  isplitl [H7]
  · iexists _; isplitr; swap; · iexact H7
    ipureintro; exact harg7.read_unread _
  isplitl [H17]
  · iexists _; isplitr; swap; · iexact H17
    ipureintro; sl_unfold_run_names; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]
  isplitl [H18]
  · iexists _; isplitr; swap; · iexact H18
    ipureintro; sl_unfold_run_names; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]
  isplitl [H21]
  · iexists _; isplitr; swap; · iexact H21
    ipureintro; sl_unfold_run_names; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]
  · iexists _; isplitr; swap; · iexact H22
    ipureintro; sl_unfold_run_names; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]

end Cert.KernelIdeal.Body

end
-- ==== Proof.KIRunB.lean ====
/- The body at grid points 1 to 124. -/
import proofs.«162584_g16561393893844_cont_week2b_458_24_alg».proof.Proof.KILemmas

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Points 1 to 124: the perceptron and the decoder's left factor of the block convolved one point earlier are stored
    into their band of 80 rows, then this point's block of both convolutions replaces the earlier one. -/
theorem runB (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S400x10000 .f32) (harg16 : arg16.IsWhole) (arg17 : Memref sig .tc .vmem S10000x128 .bf16) (harg17 : arg17.IsWhole) (arg18 : Memref sig .tc .vmem S10000x128 .bf16) (harg18 : arg18.IsWhole) (arg19 : Memref sig .tc .vmem S10000x64 .bf16) (harg19 : arg19.IsWhole) (arg20 : Memref sig .tc .vmem S10000x64 .bf16) (harg20 : arg20.IsWhole) (arg21 : Memref sig .tc .vmem S80x128 .f32) (harg21 : arg21.IsWhole) (arg22 : Memref sig .tc .vmem S80x128 .f32) (harg22 : arg22.IsWhole)
    (hA : ¬condA i) (hB : condB i) (hC : condC i) (hD : ¬condD i)
    (zp zn : Vec F S80x128 .f32) (w1a w1b : Vec F S128x64 .f32) (b1 : Vec F S1x64 .f32) (w2 : Vec F S64x128 .f32) (b2 : Vec F S1x128 .f32) (w3 : Vec F S128x64 .f32) (b3 : Vec F S1x64 .f32) (wd : Vec F S64x64 .f32) (h0 t0 : Vec F S10000x64 .bf16) (xp xn : Vec F S10000x128 .bf16) (ap an : Vec F S80x10000 .f32) (bp bn : Vec F S1x128 .f32) (E : Set ℕ) (K : PUnit → sProp 𝕄) :
    iprop(owns (c : Thread nD τ) arg21 fullShare zp ∗ owns (c : Thread nD τ) arg22 fullShare zn ∗ owns (c : Thread nD τ) arg8 fullShare w1a ∗ owns (c : Thread nD τ) arg9 fullShare w1b ∗ owns (c : Thread nD τ) arg10 fullShare b1 ∗ owns (c : Thread nD τ) arg11 fullShare w2 ∗ owns (c : Thread nD τ) arg12 fullShare b2 ∗ owns (c : Thread nD τ) arg13 fullShare w3 ∗ owns (c : Thread nD τ) arg14 fullShare b3 ∗ owns (c : Thread nD τ) arg15 fullShare wd ∗ owns (c : Thread nD τ) arg19 fullShare h0 ∗ owns (c : Thread nD τ) arg20 fullShare t0 ∗ owns (c : Thread nD τ) arg17 fullShare xp ∗ owns (c : Thread nD τ) arg18 fullShare xn ∗ owns (c : Thread nD τ) arg1 fullShare ap ∗ owns (c : Thread nD τ) arg2 fullShare an ∗ owns (c : Thread nD τ) arg6 fullShare bp ∗ owns (c : Thread nD τ) arg7 fullShare bn
        ∗ (iprop(owns (c : Thread nD τ) arg21 fullShare (k0_pay6 ap xp bp) ∗ owns (c : Thread nD τ) arg22 fullShare (k0_pay7 an xn bn) ∗ owns (c : Thread nD τ) arg8 fullShare w1a ∗ owns (c : Thread nD τ) arg9 fullShare w1b ∗ owns (c : Thread nD τ) arg10 fullShare b1 ∗ owns (c : Thread nD τ) arg11 fullShare w2 ∗ owns (c : Thread nD τ) arg12 fullShare b2 ∗ owns (c : Thread nD τ) arg13 fullShare w3 ∗ owns (c : Thread nD τ) arg14 fullShare b3 ∗ owns (c : Thread nD τ) arg15 fullShare wd ∗ owns (c : Thread nD τ) arg19 fullShare (putRows arg19 harg19 i hB h0 (k0_pay4 (k0_pay10 zp zn w1a w1b b1 w2 b2 w3 b3))) ∗ owns (c : Thread nD τ) arg20 fullShare (putRows arg20 harg20 i hB t0 (k0_pay5 (k0_pay9 zp zn w1a w1b b1 w2 b2 w3 b3) wd)) ∗ owns (c : Thread nD τ) arg17 fullShare xp ∗ owns (c : Thread nD τ) arg18 fullShare xn ∗ owns (c : Thread nD τ) arg1 fullShare ap ∗ owns (c : Thread nD τ) arg2 fullShare an ∗ owns (c : Thread nD τ) arg6 fullShare bp ∗ owns (c : Thread nD τ) arg7 fullShare bn) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__fused_kernel_eq_skeleton]; unfold cc0__fused_kernel_skel
  simp only [k0_part1_eq_skeleton]; unfold k0_part1_skel
  unfold owns
  iintro ⟨⟨%f21, %hf21, H21⟩, ⟨%f22, %hf22, H22⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f19, %hf19, H19⟩, ⟨%f20, %hf20, H20⟩, ⟨%f17, %hf17, H17⟩, ⟨%f18, %hf18, H18⟩, ⟨%f1, %hf1, H1⟩, ⟨%f2, %hf2, H2⟩, ⟨%f6, %hf6, H6⟩, ⟨%f7, %hf7, H7⟩, Hk⟩
  obtain rfl := harg21.eq_unread hf21; obtain rfl := harg22.eq_unread hf22; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg19.eq_unread hf19; obtain rfl := harg20.eq_unread hf20; obtain rfl := harg17.eq_unread hf17; obtain rfl := harg18.eq_unread hf18; obtain rfl := harg1.eq_unread hf1; obtain rfl := harg2.eq_unread hf2; obtain rfl := harg6.eq_unread hf6; obtain rfl := harg7.eq_unread hf7
  sl_exec (disch := first | exact hA | exact hB | exact hC | exact hD)
  sl_step
  iapply Hk
  isplitl [H21]
  · iexists _; isplitr; swap; · iexact H21
    ipureintro; sl_unfold_run_names; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]
  isplitl [H22]
  · iexists _; isplitr; swap; · iexact H22
    ipureintro; sl_unfold_run_names; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; exact harg15.read_unread _
  isplitl [H19]
  · iexists _; isplitr; swap; · iexact H19
    ipureintro; sl_unfold_run_names; unfold putRows; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]
  isplitl [H20]
  · iexists _; isplitr; swap; · iexact H20
    ipureintro; sl_unfold_run_names; unfold putRows; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]
  isplitl [H17]
  · iexists _; isplitr; swap; · iexact H17
    ipureintro; exact harg17.read_unread _
  isplitl [H18]
  · iexists _; isplitr; swap; · iexact H18
    ipureintro; exact harg18.read_unread _
  isplitl [H1]
  · iexists _; isplitr; swap; · iexact H1
    ipureintro; exact harg1.read_unread _
  isplitl [H2]
  · iexists _; isplitr; swap; · iexact H2
    ipureintro; exact harg2.read_unread _
  isplitl [H6]
  · iexists _; isplitr; swap; · iexact H6
    ipureintro; exact harg6.read_unread _
  · iexists _; isplitr; swap; · iexact H7
    ipureintro; exact harg7.read_unread _

end Cert.KernelIdeal.Body

end
-- ==== Proof.KIRunC.lean ====
/- The body at grid point 125. -/
import proofs.«162584_g16561393893844_cont_week2b_458_24_alg».proof.Proof.KILemmas

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Point 125: the perceptron and the decoder's left factor of the last block; no further convolution. -/
theorem runC (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S400x10000 .f32) (harg16 : arg16.IsWhole) (arg17 : Memref sig .tc .vmem S10000x128 .bf16) (harg17 : arg17.IsWhole) (arg18 : Memref sig .tc .vmem S10000x128 .bf16) (harg18 : arg18.IsWhole) (arg19 : Memref sig .tc .vmem S10000x64 .bf16) (harg19 : arg19.IsWhole) (arg20 : Memref sig .tc .vmem S10000x64 .bf16) (harg20 : arg20.IsWhole) (arg21 : Memref sig .tc .vmem S80x128 .f32) (harg21 : arg21.IsWhole) (arg22 : Memref sig .tc .vmem S80x128 .f32) (harg22 : arg22.IsWhole)
    (hA : ¬condA i) (hB : condB i) (hC : ¬condC i) (hD : ¬condD i)
    (zp zn : Vec F S80x128 .f32) (w1a w1b : Vec F S128x64 .f32) (b1 : Vec F S1x64 .f32) (w2 : Vec F S64x128 .f32) (b2 : Vec F S1x128 .f32) (w3 : Vec F S128x64 .f32) (b3 : Vec F S1x64 .f32) (wd : Vec F S64x64 .f32) (h0 t0 : Vec F S10000x64 .bf16) (E : Set ℕ) (K : PUnit → sProp 𝕄) :
    iprop(owns (c : Thread nD τ) arg21 fullShare zp ∗ owns (c : Thread nD τ) arg22 fullShare zn ∗ owns (c : Thread nD τ) arg8 fullShare w1a ∗ owns (c : Thread nD τ) arg9 fullShare w1b ∗ owns (c : Thread nD τ) arg10 fullShare b1 ∗ owns (c : Thread nD τ) arg11 fullShare w2 ∗ owns (c : Thread nD τ) arg12 fullShare b2 ∗ owns (c : Thread nD τ) arg13 fullShare w3 ∗ owns (c : Thread nD τ) arg14 fullShare b3 ∗ owns (c : Thread nD τ) arg15 fullShare wd ∗ owns (c : Thread nD τ) arg19 fullShare h0 ∗ owns (c : Thread nD τ) arg20 fullShare t0
        ∗ (iprop(owns (c : Thread nD τ) arg21 fullShare zp ∗ owns (c : Thread nD τ) arg22 fullShare zn ∗ owns (c : Thread nD τ) arg8 fullShare w1a ∗ owns (c : Thread nD τ) arg9 fullShare w1b ∗ owns (c : Thread nD τ) arg10 fullShare b1 ∗ owns (c : Thread nD τ) arg11 fullShare w2 ∗ owns (c : Thread nD τ) arg12 fullShare b2 ∗ owns (c : Thread nD τ) arg13 fullShare w3 ∗ owns (c : Thread nD τ) arg14 fullShare b3 ∗ owns (c : Thread nD τ) arg15 fullShare wd ∗ owns (c : Thread nD τ) arg19 fullShare (putRows arg19 harg19 i hB h0 (k0_pay4 (k0_pay10 zp zn w1a w1b b1 w2 b2 w3 b3))) ∗ owns (c : Thread nD τ) arg20 fullShare (putRows arg20 harg20 i hB t0 (k0_pay5 (k0_pay9 zp zn w1a w1b b1 w2 b2 w3 b3) wd))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__fused_kernel_eq_skeleton]; unfold cc0__fused_kernel_skel
  simp only [k0_part1_eq_skeleton]; unfold k0_part1_skel
  unfold owns
  iintro ⟨⟨%f21, %hf21, H21⟩, ⟨%f22, %hf22, H22⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f19, %hf19, H19⟩, ⟨%f20, %hf20, H20⟩, Hk⟩
  obtain rfl := harg21.eq_unread hf21; obtain rfl := harg22.eq_unread hf22; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg19.eq_unread hf19; obtain rfl := harg20.eq_unread hf20
  sl_exec (disch := first | exact hA | exact hB | exact hC | exact hD)
  sl_step
  iapply Hk
  isplitl [H21]
  · iexists _; isplitr; swap; · iexact H21
    ipureintro; exact harg21.read_unread _
  isplitl [H22]
  · iexists _; isplitr; swap; · iexact H22
    ipureintro; exact harg22.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; exact harg15.read_unread _
  isplitl [H19]
  · iexists _; isplitr; swap; · iexact H19
    ipureintro; sl_unfold_run_names; unfold putRows; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]
  · iexists _; isplitr; swap; · iexact H20
    ipureintro; sl_unfold_run_names; unfold putRows; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]

end Cert.KernelIdeal.Body

end
-- ==== Proof.KIRunD.lean ====
/- The body at grid points 126 to 150. -/
import proofs.«162584_g16561393893844_cont_week2b_458_24_alg».proof.Proof.KILemmas

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Points 126 to 150: 400 rows of the decoder's left factor against the whole embedding, into the output block. -/
theorem runD (c : Dev nD) (i : grid0.Coords) (arg1 : Memref sig .tc .vmem S80x10000 .f32) (harg1 : arg1.IsWhole) (arg2 : Memref sig .tc .vmem S80x10000 .f32) (harg2 : arg2.IsWhole) (arg3 : Memref sig .tc .vmem S10000x128 .bf16) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S128x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S400x10000 .f32) (harg16 : arg16.IsWhole) (arg17 : Memref sig .tc .vmem S10000x128 .bf16) (harg17 : arg17.IsWhole) (arg18 : Memref sig .tc .vmem S10000x128 .bf16) (harg18 : arg18.IsWhole) (arg19 : Memref sig .tc .vmem S10000x64 .bf16) (harg19 : arg19.IsWhole) (arg20 : Memref sig .tc .vmem S10000x64 .bf16) (harg20 : arg20.IsWhole) (arg21 : Memref sig .tc .vmem S80x128 .f32) (harg21 : arg21.IsWhole) (arg22 : Memref sig .tc .vmem S80x128 .f32) (harg22 : arg22.IsWhole)
    (hA : ¬condA i) (hB : ¬condB i) (hC : ¬condC i) (hD : condD i)
    (h0 t0 : Vec F S10000x64 .bf16) (E : Set ℕ) (K : PUnit → sProp 𝕄) :
    iprop(owns (c : Thread nD τ) arg19 fullShare h0 ∗ owns (c : Thread nD τ) arg20 fullShare t0 ∗ (∃ d, owns (c : Thread nD τ) arg16 fullShare d)
        ∗ (iprop(owns (c : Thread nD τ) arg19 fullShare h0 ∗ owns (c : Thread nD τ) arg20 fullShare t0 ∗ owns (c : Thread nD τ) arg16 fullShare (k0_pay8 (getRows arg20 harg20 i hD t0) h0)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__fused_kernel_eq_skeleton]; unfold cc0__fused_kernel_skel
  unfold owns
  iintro ⟨⟨%f19, %hf19, H19⟩, ⟨%f20, %hf20, H20⟩, ⟨%d16, %f16, %hf16, H16⟩, Hk⟩
  obtain rfl := harg19.eq_unread hf19; obtain rfl := harg20.eq_unread hf20
  sl_exec (disch := first | exact hA | exact hB | exact hC | exact hD)
  sl_step
  iapply Hk
  isplitl [H19]
  · iexists _; isplitr; swap; · iexact H19
    ipureintro; exact harg19.read_unread _
  isplitl [H20]
  · iexists _; isplitr; swap; · iexact H20
    ipureintro; exact harg20.read_unread _
  · iexists _; isplitr; swap; · iexact H16
    ipureintro; sl_unfold_run_names; unfold getRows; simp only [read_store_whole (S := S80x10000) _ _ hz2, readAt_whole (S := S80x10000) _ _ _ hz2, readCov_whole (S := S80x10000) _ hz2, read_store_whole (S := S10000x128) _ _ hz2, readAt_whole (S := S10000x128) _ _ _ hz2, readCov_whole (S := S10000x128) _ hz2, read_store_whole (S := S128x128) _ _ hz2, readAt_whole (S := S128x128) _ _ _ hz2, readCov_whole (S := S128x128) _ hz2, read_store_whole (S := S1x128) _ _ hz2, readAt_whole (S := S1x128) _ _ _ hz2, readCov_whole (S := S1x128) _ hz2, read_store_whole (S := S128x64) _ _ hz2, readAt_whole (S := S128x64) _ _ _ hz2, readCov_whole (S := S128x64) _ hz2, read_store_whole (S := S1x64) _ _ hz2, readAt_whole (S := S1x64) _ _ _ hz2, readCov_whole (S := S1x64) _ hz2, read_store_whole (S := S64x128) _ _ hz2, readAt_whole (S := S64x128) _ _ _ hz2, readCov_whole (S := S64x128) _ hz2, read_store_whole (S := S64x64) _ _ hz2, readAt_whole (S := S64x64) _ _ _ hz2, readCov_whole (S := S64x64) _ hz2, read_store_whole (S := S400x10000) _ _ hz2, readAt_whole (S := S400x10000) _ _ _ hz2, readCov_whole (S := S400x10000) _ hz2, read_store_whole (S := S10000x64) _ _ hz2, readAt_whole (S := S10000x64) _ _ _ hz2, readCov_whole (S := S10000x64) _ hz2, read_store_whole (S := S80x128) _ _ hz2, readAt_whole (S := S80x128) _ _ _ hz2, readCov_whole (S := S80x128) _ hz2, read_store_whole (S := S80x64) _ _ hz2, readAt_whole (S := S80x64) _ _ _ hz2, readCov_whole (S := S80x64) _ hz2, read_store_whole (S := S400x64) _ _ hz2, readAt_whole (S := S400x64) _ _ _ hz2, readCov_whole (S := S400x64) _ hz2]

end Cert.KernelIdeal.Body

end
-- ==== Proof.KIBody.lean ====
/-
  The frame of the program: the proof data of its one pipelined region, the body obligation at every grid point, and
  the run.

  Between points the six scratch buffers hold: both transformed feature arrays (from point 0 on); the convolved block
  of the point just run, each sign (while a convolution ran: after points 0 to 124); and the two 10000-row buffers of
  the embedding and the decoder's left factor, final on the rows stored so far — rows below 80 n before point n + 1.
  Each point's obligation is the run of its control case from these contents to the next point's; the output window is
  idle (handed back untouched, not written back) until point 126 and then holds the block the decode point computes.
-/
import proofs.«162584_g16561393893844_cont_week2b_458_24_alg».proof.Proof.KIDefs
import proofs.«162584_g16561393893844_cont_week2b_458_24_alg».proof.Proof.KIRunA
import proofs.«162584_g16561393893844_cont_week2b_458_24_alg».proof.Proof.KIRunB
import proofs.«162584_g16561393893844_cont_week2b_458_24_alg».proof.Proof.KIRunC
import proofs.«162584_g16561393893844_cont_week2b_458_24_alg».proof.Proof.KIRunD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The output window over the grid; the staging memrefs -/

theorem idle15 : ∀ t : Fin cfg0.N, ¬condD (grid0.coords t) → cfg0.idle 15 (grid0.coords t) = true := by decide +kernel
theorem noFlush15 : ∀ t : Fin cfg0.N, ¬condD (grid0.coords t) → (cfg0.win 15).flush t = false := by decide +kernel
theorem live15 : ∀ t : Fin cfg0.N, condD (grid0.coords t) → cfg0.idle 15 (grid0.coords t) = false := by decide +kernel

abbrev ms0_0 (t : Fin cfg0.N) : Memref sig .tc .vmem S80x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S80x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x64 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x64 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S64x64 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S400x10000 .f32 := win0_15.stage (cfg0.slots t 15)
abbrev hs0_15 (t : Fin cfg0.N) : (ms0_15 t).IsWhole := hstage0_15 ((cfg0.slots t 15).cast nbuf0_15)

/-- The region's own invariant, its six scratch buffers named: each at some contents, and the generator register. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-! ## Rows stored so far are final -/

/-- Storing point `t`'s band keeps every row below it and makes the band's rows final. -/
theorem putRows_rows (sc : Memref sig .tc .vmem S10000x64 .bf16) (hsc : sc.IsWhole) (t : Fin cfg0.N) (hB : condB (grid0.coords t))
    (old : Vec F S10000x64 .bf16) (B : Fin cfg0.N → FVec F S80x64 .bf16)
    (hold : ∀ y : S10000x64.Idx, (y 0).val < 80 * (t.val - 1) → old y = B (ptOf y) (locOf y))
    (y : S10000x64.Idx) (hy : (y 0).val < 80 * t.val) :
    putRows sc hsc (grid0.coords t) hB old (B t) y = B (ptOf y) (locOf y) := by
  have ht : 1 ≤ t.val := ((hcondB t).mp hB).1
  unfold putRows
  have hy0 : (y 0).val < 10000 := (y 0).isLt
  rw [View.read_writes_cons_rows sc.view (hsc.unread old) (k0_off1_inb (grid0.coords t) hB) (B t) [] y (hoff1 t hB)
    (show S80x64.size (0 : Fin 2) = 80 from rfl) rfl]
  split
  · rename_i h
    have hp : ptOf y = t := Fin.ext (by show (y 0).val / 80 + 1 = t.val; omega)
    rw [hp]
    refine congrArg (B t) (funext fun a => Fin.ext ?_)
    match a with
    | ⟨0, _⟩ => show (y 0).val - 80 * (t.val - 1) = (y 0).val % 80; omega
    | ⟨1, _⟩ => show (y 1).val - 0 = (y 1).val; omega
  · rename_i h
    rw [View.writes_nil, hsc.read_unread]
    exact hold y (by omega)

/-! ## The invariant between points -/

/-- Before point `n`: at the start anything; after point `n` the contents described above. -/
def Phi (c : Dev nD) : (n : ℕ) → n ≤ cfg0.N → sProp 𝕄
  | 0, _ => Pipeline.ΦA spec0 c
  | n + 1, hn => iprop(owns (c : Thread nD τ) (Memref.whole cc0_scratch0) fullShare (XP m c) ∗ owns (c : Thread nD τ) (Memref.whole cc0_scratch1) fullShare (XN m c)
      ∗ (∃ zp zn : Vec F S80x128 .f32, owns (c : Thread nD τ) (Memref.whole cc0_scratch4) fullShare zp ∗ owns (c : Thread nD τ) (Memref.whole cc0_scratch5) fullShare zn ∗ ⌜n < 125 → zp = ZP m c ⟨n, hn⟩ ∧ zn = ZN m c ⟨n, hn⟩⌝)
      ∗ (∃ hc tc : Vec F S10000x64 .bf16, owns (c : Thread nD τ) (Memref.whole cc0_scratch2) fullShare hc ∗ owns (c : Thread nD τ) (Memref.whole cc0_scratch3) fullShare tc
          ∗ ⌜∀ y : S10000x64.Idx, (y 0).val < 80 * n → hc y = HF m c y ∧ tc y = TF m c y⌝)
      ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(owns (c : Thread nD τ) (Memref.whole cc0_scratch0) fullShare (XP m c) ∗ owns (c : Thread nD τ) (Memref.whole cc0_scratch1) fullShare (XN m c)
      ∗ (∃ zp zn : Vec F S80x128 .f32, owns (c : Thread nD τ) (Memref.whole cc0_scratch4) fullShare zp ∗ owns (c : Thread nD τ) (Memref.whole cc0_scratch5) fullShare zn ∗ ⌜n < 125 → zp = ZP m c ⟨n, hn⟩ ∧ zn = ZN m c ⟨n, hn⟩⌝)
      ∗ (∃ hc tc : Vec F S10000x64 .bf16, owns (c : Thread nD τ) (Memref.whole cc0_scratch2) fullShare hc ∗ owns (c : Thread nD τ) (Memref.whole cc0_scratch3) fullShare tc
          ∗ ⌜∀ y : S10000x64.Idx, (y 0).val < 80 * n → hc y = HF m c y ∧ tc y = TF m c y⌝)
      ∗ (∃ r, prngReg c r)) := rfl

theorem Phi_pos (c : Dev nD) (n : ℕ) (h : n ≤ cfg0.N) (hz : n ≠ 0) :
    Phi m c n h = iprop(owns (c : Thread nD τ) (Memref.whole cc0_scratch0) fullShare (XP m c) ∗ owns (c : Thread nD τ) (Memref.whole cc0_scratch1) fullShare (XN m c)
      ∗ (∃ zp zn : Vec F S80x128 .f32, owns (c : Thread nD τ) (Memref.whole cc0_scratch4) fullShare zp ∗ owns (c : Thread nD τ) (Memref.whole cc0_scratch5) fullShare zn
          ∗ ⌜n - 1 < 125 → zp = ZP m c ⟨n - 1, by omega⟩ ∧ zn = ZN m c ⟨n - 1, by omega⟩⌝)
      ∗ (∃ hc tc : Vec F S10000x64 .bf16, owns (c : Thread nD τ) (Memref.whole cc0_scratch2) fullShare hc ∗ owns (c : Thread nD τ) (Memref.whole cc0_scratch3) fullShare tc
          ∗ ⌜∀ y : S10000x64.Idx, (y 0).val < 80 * (n - 1) → hc y = HF m c y ∧ tc y = TF m c y⌝)
      ∗ (∃ r, prngReg c r)) := by
  cases n with
  | zero => exact absurd rfl hz
  | succ n => rfl

/-! ## The proof data -/

/-- The arrays as the region finds them; each input window's buffer left at its block; the output window's at the
    decode point's block; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => OB m c t
    | ⟨_ + 16, h⟩ => absurd h (Nat.not_lt.2 (Nat.le_add_left _ _))
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = OB m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

theorem leaves0_0 (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (cfg0.grid.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (cfg0.grid.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (cfg0.grid.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (cfg0.grid.coords t) = false from rfl, after0_6]
theorem leaves0_7 (c : Dev nD) (t : Fin cfg0.N) : (dats m 0 c).leavesExact 7 t = owns (c : Thread nD τ) (ms0_7 t) fullShare (iblk m c 7 t) := by
  unfold Dat.leavesExact; rw [show cfg0.idle 7 (cfg0.grid.coords t) = false from rfl, after0_7]
theorem leaves0_8 (c : Dev nD) (t : Fin cfg0.N) : (dats m 0 c).leavesExact 8 t = owns (c : Thread nD τ) (ms0_8 t) fullShare (iblk m c 8 t) := by
  unfold Dat.leavesExact; rw [show cfg0.idle 8 (cfg0.grid.coords t) = false from rfl, after0_8]
theorem leaves0_9 (c : Dev nD) (t : Fin cfg0.N) : (dats m 0 c).leavesExact 9 t = owns (c : Thread nD τ) (ms0_9 t) fullShare (iblk m c 9 t) := by
  unfold Dat.leavesExact; rw [show cfg0.idle 9 (cfg0.grid.coords t) = false from rfl, after0_9]
theorem leaves0_10 (c : Dev nD) (t : Fin cfg0.N) : (dats m 0 c).leavesExact 10 t = owns (c : Thread nD τ) (ms0_10 t) fullShare (iblk m c 10 t) := by
  unfold Dat.leavesExact; rw [show cfg0.idle 10 (cfg0.grid.coords t) = false from rfl, after0_10]
theorem leaves0_11 (c : Dev nD) (t : Fin cfg0.N) : (dats m 0 c).leavesExact 11 t = owns (c : Thread nD τ) (ms0_11 t) fullShare (iblk m c 11 t) := by
  unfold Dat.leavesExact; rw [show cfg0.idle 11 (cfg0.grid.coords t) = false from rfl, after0_11]
theorem leaves0_12 (c : Dev nD) (t : Fin cfg0.N) : (dats m 0 c).leavesExact 12 t = owns (c : Thread nD τ) (ms0_12 t) fullShare (iblk m c 12 t) := by
  unfold Dat.leavesExact; rw [show cfg0.idle 12 (cfg0.grid.coords t) = false from rfl, after0_12]
theorem leaves0_13 (c : Dev nD) (t : Fin cfg0.N) : (dats m 0 c).leavesExact 13 t = owns (c : Thread nD τ) (ms0_13 t) fullShare (iblk m c 13 t) := by
  unfold Dat.leavesExact; rw [show cfg0.idle 13 (cfg0.grid.coords t) = false from rfl, after0_13]
theorem leaves0_14 (c : Dev nD) (t : Fin cfg0.N) : (dats m 0 c).leavesExact 14 t = owns (c : Thread nD τ) (ms0_14 t) fullShare (iblk m c 14 t) := by
  unfold Dat.leavesExact; rw [show cfg0.idle 14 (cfg0.grid.coords t) = false from rfl, after0_14]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 8000000 in
/-- The body at any point: by cases on the point, the run of its control case from the invariant's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = Phi m c (t.val + 1) t.isLt from rfl, Phi_succ, Phi_castSucc m c t]
  simp only [leaves0_0 m c t, leaves0_1 m c t, leaves0_2 m c t, leaves0_3 m c t, leaves0_4 m c t, leaves0_5 m c t, leaves0_6 m c t, leaves0_7 m c t, leaves0_8 m c t, leaves0_9 m c t, leaves0_10 m c t, leaves0_11 m c t, leaves0_12 m c t, leaves0_13 m c t, leaves0_14 m c t]
  have hN : t.val < 151 := lt_of_lt_of_eq t.isLt (show cfg0.N = 151 from N_0)
  by_cases h0 : t.val = 0
  · -- point 0
    have hA : condA (grid0.coords t) := (hcondA t).mpr h0
    have hnB : ¬condB (grid0.coords t) := fun h => by have := (hcondB t).mp h; omega
    have hC : condC (grid0.coords t) := (hcondC t).mpr (by omega)
    have hnD : ¬condD (grid0.coords t) := fun h => by have := (hcondD t).mp h; omega
    rw [Phi_zero m c _ _ h0, PhiA_eq, Dat.leavesExact_idle (dats m 0 c) 15 t (idle15 t hnD) (noFlush15 t hnD)]
    obtain rfl : t = p0 := Fin.ext h0
    iintro ⟨⟨⟨HXp, HXn, HH, HT, HZp, HZn⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15⟩
    iapply (runA c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) (ms0_11 p0) (hs0_11 p0) (ms0_12 p0) (hs0_12 p0) (ms0_13 p0) (hs0_13 p0) (ms0_14 p0) (hs0_14 p0) (ms0_15 p0) (hs0_15 p0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) hA hnB hC hnD
      (iblk m c 2 p0) (iblk m c 3 p0) (iblk m c 4 p0) (iblk m c 0 p0) (iblk m c 1 p0) (iblk m c 5 p0) (iblk m c 6 p0) Set.univ _)
    isplitl [H2]; · iexact H2
    isplitl [H3]; · iexact H3
    isplitl [H4]; · iexact H4
    isplitl [H0]; · iexact H0
    isplitl [H1]; · iexact H1
    isplitl [H5]; · iexact H5
    isplitl [H6]; · iexact H6
    isplitl [HXp]; · iexact HXp
    isplitl [HXn]; · iexact HXn
    isplitl [HZp]; · iexact HZp
    isplitl [HZn]; · iexact HZn
    iintro ⟨H2, H3, H4, H0, H1, H5, H6, HXp, HXn, HZp, HZn⟩
    isplitl [HXp HXn HZp HZn HH HT Hg]
    · isplitl [HXp]; · iexact HXp
      isplitl [HXn]; · iexact HXn
      isplitl [HZp HZn]
      · iexists _, _; isplitl [HZp]; · iexact HZp
        isplitl [HZn]; · iexact HZn
        ipureintro; intro _; exact ⟨rfl, rfl⟩
      isplitl [HH HT]
      · icases HH with ⟨%hc, HH⟩; icases HT with ⟨%tc, HT⟩
        iexists hc, tc; isplitl [HH]; · iexact HH
        isplitl [HT]; · iexact HT
        ipureintro; intro y hy; exact absurd hy (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · by_cases h1 : t.val < 125
    · -- points 1 to 124
      have hnA : ¬condA (grid0.coords t) := (fun h => h0 ((hcondA t).mp h))
      have hB : condB (grid0.coords t) := (hcondB t).mpr ⟨by omega, by omega⟩
      have hC : condC (grid0.coords t) := (hcondC t).mpr h1
      have hnD : ¬condD (grid0.coords t) := fun h => by have := (hcondD t).mp h; omega
      rw [Phi_pos m c _ _ h0, Dat.leavesExact_idle (dats m 0 c) 15 t (idle15 t hnD) (noFlush15 t hnD)]
      iintro ⟨⟨HXp, HXn, ⟨%zp, %zn, HZp, HZn, %hz⟩, ⟨%hc, %tc, HH, HT, %hrows⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15⟩
      obtain ⟨rfl, rfl⟩ := hz (by omega)
      iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) hnA hB hC hnD
        (ZP m c (prev t)) (ZN m c (prev t)) (iblk m c 7 t) (iblk m c 8 t) (iblk m c 9 t) (iblk m c 10 t) (iblk m c 11 t) (iblk m c 12 t) (iblk m c 13 t) (iblk m c 14 t) hc tc (XP m c) (XN m c) (iblk m c 0 t) (iblk m c 1 t) (iblk m c 5 t) (iblk m c 6 t) Set.univ _)
      isplitl [HZp]; · iexact HZp
      isplitl [HZn]; · iexact HZn
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HH]; · iexact HH
      isplitl [HT]; · iexact HT
      isplitl [HXp]; · iexact HXp
      isplitl [HXn]; · iexact HXn
      isplitl [H0]; · iexact H0
      isplitl [H1]; · iexact H1
      isplitl [H5]; · iexact H5
      isplitl [H6]; · iexact H6
      iintro ⟨HZp, HZn, H7, H8, H9, H10, H11, H12, H13, H14, HH, HT, HXp, HXn, H0, H1, H5, H6⟩
      isplitl [HXp HXn HZp HZn HH HT Hg]
      · isplitl [HXp]; · iexact HXp
        isplitl [HXn]; · iexact HXn
        isplitl [HZp HZn]
        · iexists _, _; isplitl [HZp]; · iexact HZp
          isplitl [HZn]; · iexact HZn
          ipureintro; intro _; exact ⟨rfl, rfl⟩
        isplitl [HH HT]
        · iexists _, _; isplitl [HH]; · iexact HH
          isplitl [HT]; · iexact HT
          ipureintro; intro y hy
          exact ⟨putRows_rows _ _ t hB hc (HB m c) (fun y' hy' => (hrows y' hy').1) y hy,
            putRows_rows _ _ t hB tc (TB m c) (fun y' hy' => (hrows y' hy').2) y hy⟩
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · by_cases h2 : t.val = 125
      · -- point 125
        have hnA : ¬condA (grid0.coords t) := (fun h => h0 ((hcondA t).mp h))
        have hB : condB (grid0.coords t) := (hcondB t).mpr ⟨by omega, by omega⟩
        have hnC : ¬condC (grid0.coords t) := fun h => h1 ((hcondC t).mp h)
        have hnD : ¬condD (grid0.coords t) := fun h => by have := (hcondD t).mp h; omega
        rw [Phi_pos m c _ _ h0, Dat.leavesExact_idle (dats m 0 c) 15 t (idle15 t hnD) (noFlush15 t hnD)]
        iintro ⟨⟨HXp, HXn, ⟨%zp, %zn, HZp, HZn, %hz⟩, ⟨%hc, %tc, HH, HT, %hrows⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15⟩
        obtain ⟨rfl, rfl⟩ := hz (by omega)
        iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) hnA hB hnC hnD
          (ZP m c (prev t)) (ZN m c (prev t)) (iblk m c 7 t) (iblk m c 8 t) (iblk m c 9 t) (iblk m c 10 t) (iblk m c 11 t) (iblk m c 12 t) (iblk m c 13 t) (iblk m c 14 t) hc tc Set.univ _)
        isplitl [HZp]; · iexact HZp
        isplitl [HZn]; · iexact HZn
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [HH]; · iexact HH
        isplitl [HT]; · iexact HT
        iintro ⟨HZp, HZn, H7, H8, H9, H10, H11, H12, H13, H14, HH, HT⟩
        isplitl [HXp HXn HZp HZn HH HT Hg]
        · isplitl [HXp]; · iexact HXp
          isplitl [HXn]; · iexact HXn
          isplitl [HZp HZn]
          · iexists _, _; isplitl [HZp]; · iexact HZp
            isplitl [HZn]; · iexact HZn
            ipureintro; intro h; omega
          isplitl [HH HT]
          · iexists _, _; isplitl [HH]; · iexact HH
            isplitl [HT]; · iexact HT
            ipureintro; intro y hy
            exact ⟨putRows_rows _ _ t hB hc (HB m c) (fun y' hy' => (hrows y' hy').1) y hy,
              putRows_rows _ _ t hB tc (TB m c) (fun y' hy' => (hrows y' hy').2) y hy⟩
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexact H15
      · -- points 126 to 150
        have hnA : ¬condA (grid0.coords t) := (fun h => h0 ((hcondA t).mp h))
        have hnB : ¬condB (grid0.coords t) := fun h => by have := (hcondB t).mp h; omega
        have hnC : ¬condC (grid0.coords t) := fun h => h1 ((hcondC t).mp h)
        have hD : condD (grid0.coords t) := (hcondD t).mpr (by omega)
        rw [Phi_pos m c _ _ h0]
        rw [show (dats m 0 c).leavesExact 15 t = owns (c : Thread nD τ) (ms0_15 t) fullShare ((dats m 0 c).after 15 t) from by
          unfold Dat.leavesExact; rw [live15 t hD], after0_15]
        iintro ⟨⟨HXp, HXn, ⟨%zp, %zn, HZp, HZn, %hz⟩, ⟨%hc, %tc, HH, HT, %hrows⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, H15⟩
        have hall : ∀ y : S10000x64.Idx, hc y = HF m c y ∧ tc y = TF m c y := fun y =>
          hrows y (by have hy : (y 0).val < 10000 := (y 0).isLt; omega)
        obtain rfl : hc = HF m c := funext fun y => (hall y).1
        obtain rfl : tc = TF m c := funext fun y => (hall y).2
        iapply (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) hnA hnB hnC hD (HF m c) (TF m c) Set.univ _)
        isplitl [HH]; · iexact HH
        isplitl [HT]; · iexact HT
        isplitl [H15]; · icases H15 with ⟨%d15, H15⟩; iexists _; iexact H15
        iintro ⟨HH, HT, H15⟩
        isplitl [HXp HXn HZp HZn HH HT Hg]
        · isplitl [HXp]; · iexact HXp
          isplitl [HXn]; · iexact HXn
          isplitl [HZp HZn]
          · iexists zp, zn; isplitl [HZp]; · iexact HZp
            isplitl [HZn]; · iexact HZn
            ipureintro; intro h; omega
          isplitl [HH HT]
          · iexists _, _; isplitl [HH]; · iexact HH
            isplitl [HT]; · iexact HT
            ipureintro; intro y _; exact ⟨rfl, rfl⟩
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        unfold OB; rw [dif_pos hD]; iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives the region's own back: the scratch contents forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 151 := N_0; omega), PhiA_eq]
  iintro ⟨HXp, HXn, ⟨%zp, %zn, HZp, HZn, -⟩, ⟨%hc, %tc, HH, HT, -⟩, Hg⟩
  isplitr [Hg]
  · isplitl [HXp]; · iexists _; iexact HXp
    isplitl [HXn]; · iexists _; iexact HXn
    isplitl [HH]; · iexists _; iexact HH
    isplitl [HT]; · iexists _; iexact HT
    isplitl [HZp]; · iexists _; iexact HZp
    iexists _; iexact HZn
  iexact Hg

/-! ## The run and the frame -/

set_option backward.isDefEq.respectTransparency.types false in
/-- Every weakly fair execution of @main terminates, faults nowhere, and ends with every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Body

end
-- ==== Proof.Spec.lean ====
/-
  The function both programs compute, on the extended reals, index by index.

  Inputs: node features X [10000,128]; two row-normalised adjacency matrices Ap, An [10000,10000]; encoder weights
  Wp, Wn [128,128] with biases bp, bn [128]; a three-layer perceptron W1 [256,64], b1 [64], W2 [64,128], b2 [128],
  W3 [128,64], b3 [64]; a bilinear form Wd [64,64].

    xw W   = X · W                                   (feature transform, one per sign)
    z A W b = max (A · (X · W) + b, 0)               (one graph-convolution layer per sign)
    h1     = max (zp · W1[0:128] + zn · W1[128:256] + b1, 0)
    h2     = max (h1 · W2 + b2, 0)
    hh     = h2 · W3 + b3
    tt     = hh · Wd
    Y      = tt · hhᵀ

  `h1` is written with the first layer's weight split at row 128: the perceptron's input is the two encoders' outputs
  side by side, so a row of `[zp | zn] · W1` is the sum over the first 128 rows of W1 against zp plus the sum over the
  last 128 against zn (`sum_concat_split`, a re-bracketing of a finite sum: valid on the extended reals with no
  finiteness assumption, since only commutativity and associativity of addition are used).
  The zero of each `max` is kept as the f32 word both programs write; it is never evaluated.
-/
import Idealize.ShloMosaic.PureOps.Ideal
import Idealize.ShloMosaic.Lib.ValueIdx

noncomputable section

open scoped BigOperators

namespace Cert.Spec

open Idealize.ShloMosaic Idealize.ShloMosaic.ValueIdx

/-- A rank-2 and a rank-1 array of extended reals over literal extents. -/
abbrev A2 (a b : ℕ) := (⟨2, ![a, b]⟩ : Shape).Idx → EReal
abbrev A1 (a : ℕ) := (⟨1, ![a]⟩ : Shape).Idx → EReal

/-- The zero both programs take the maximum against: the f32 word `0x00000000` read at the ideal instance. -/
abbrev z0 : EReal := Ideal.ofBits .f32 0x00000000#32

/-- Row `j` of the first layer's weight, upper half: row `j` itself. -/
abbrev lo (j : Fin 128) : Fin 256 := ⟨j.val, by have := j.isLt; omega⟩
/-- Row `j` of the lower half: row `128 + j`. -/
abbrev hi (j : Fin 128) : Fin 256 := ⟨128 + j.val, by have := j.isLt; omega⟩

section
variable (X : A2 10000 128) (Ap An : A2 10000 10000) (Wp Wn : A2 128 128) (bp bn : A1 128)
  (W1 : A2 256 64) (b1 : A1 64) (W2 : A2 64 128) (b2 : A1 128) (W3 : A2 128 64) (b3 : A1 64) (Wd : A2 64 64)

/-- The feature transform `X · W` at node `q`, feature `j`. -/
def xw (W : A2 128 128) (q : Fin 10000) (j : Fin 128) : EReal := ∑ p : Fin 128, X (ix2 q p) * W (ix2 p j)

/-- One graph-convolution layer: `max (A · (X · W) + b, 0)` at node `r`, feature `j`. -/
def z (A : A2 10000 10000) (W : A2 128 128) (b : A1 128) (r : Fin 10000) (j : Fin 128) : EReal :=
  max ((∑ q : Fin 10000, A (ix2 r q) * xw X W q j) + b (ix1 j)) z0

/-- The perceptron's first layer, its weight split at row 128. -/
def h1 (r : Fin 10000) (k : Fin 64) : EReal :=
  max (((∑ j : Fin 128, z X Ap Wp bp r j * W1 (ix2 (lo j) k)) + (∑ j : Fin 128, z X An Wn bn r j * W1 (ix2 (hi j) k)))
    + b1 (ix1 k)) z0

/-- The second layer. -/
def h2 (r : Fin 10000) (j : Fin 128) : EReal :=
  max ((∑ k : Fin 64, h1 X Ap An Wp Wn bp bn W1 b1 r k * W2 (ix2 k j)) + b2 (ix1 j)) z0

/-- The third layer (no maximum): the node embedding. -/
def hh (r : Fin 10000) (k : Fin 64) : EReal :=
  (∑ j : Fin 128, h2 X Ap An Wp Wn bp bn W1 b1 W2 b2 r j * W3 (ix2 j k)) + b3 (ix1 k)

/-- The decoder's left factor `hh · Wd`. -/
def tt (r : Fin 10000) (k : Fin 64) : EReal :=
  ∑ j : Fin 64, hh X Ap An Wp Wn bp bn W1 b1 W2 b2 W3 b3 r j * Wd (ix2 j k)

/-- The result: `(hh · Wd) · hhᵀ` at the pair of nodes `(y 0, y 1)`. -/
def Y : A2 10000 10000 := fun y =>
  ∑ k : Fin 64, tt X Ap An Wp Wn bp bn W1 b1 W2 b2 W3 b3 Wd (y 0) k * hh X Ap An Wp Wn bp bn W1 b1 W2 b2 W3 b3 (y 1) k

end

/-- A sum over 256 terms is the sum of its first 128 plus the sum of its last 128: addition of extended reals is
    commutative and associative, so this holds with infinite terms too. -/
theorem sum_concat_split (f : Fin 256 → EReal) :
    (∑ k : Fin 256, f k) = (∑ j : Fin 128, f (lo j)) + (∑ j : Fin 128, f (hi j)) := by
  have h := Fin.sum_univ_add (a := 128) (b := 128) (fun k : Fin (128 + 128) => f ⟨k.val, k.isLt⟩)
  refine h.trans ?_
  congr 1 <;> first | rfl | exact Finset.sum_congr rfl fun j _ => congrArg f (Fin.ext rfl)

end Cert.Spec

end
-- ==== Proof.KIBlocks.lean ====
/-
  The kernel's input blocks, read at an index, in terms of the launch arguments (at the ideal instance).

  Each of the fifteen input windows stages, at every grid point, a block of one array. The two adjacency
  matrices are staged 80 rows at a time, the block of point `t` starting at row `80 · min t 124`; every
  other window stages its whole array at every point. A block's element at `y` is the array's element at
  (block index × block extent + `y`) on each axis.
  Seven of the arrays are written by operations that run before the kernel: the node features converted to a
  narrower float format (the identity on extended reals), five biases reshaped from `[n]` to `[1, n]`
  (element `(0, j)` is element `j`), and the first layer's weight sliced into its rows 0–127 and 128–255
  (row `j` of a slice is row `j`, respectively `128 + j`, of the weight).
-/
import proofs.«162584_g16561393893844_cont_week2b_458_24_alg».proof.Proof.Spec
import proofs.«162584_g16561393893844_cont_week2b_458_24_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
  Idealize.ShloMosaic.StableHlo Idealize.ShloMosaic.ValueIdx

/-- Argument array `b` of core `c` as launched. -/
abbrev A (m : (ℓ : Loc nD τ sig) → Buf (Elt Ideal) ℓ) (c : Dev nD) (b : Ref sig .tc) :
    Buf (Elt Ideal) ((c.tc : Thread nD τ).loc b) := m ((c.tc : Thread nD τ).loc b)

/-- An array read at an index whose two coordinates are `a` and `b` is the array read at `(a, b)`. -/
theorem at_ix2 {n0 n1 : Nat} (f : (⟨2, ![n0, n1]⟩ : Shape).Idx → EReal) (i : (⟨2, ![n0, n1]⟩ : Shape).Idx)
    (a : Fin n0) (b : Fin n1) (h0 : (i 0).val = a.val) (h1 : (i 1).val = b.val) : f i = f (ix2 a b) :=
  congrArg f (funext fun d => Fin.ext (match d with | ⟨0, _⟩ => h0 | ⟨1, _⟩ => h1))

variable (m : (ℓ : Loc nD τ sig) → Buf (Elt Ideal) ℓ) (c : Dev nD) (t : Fin cfg0.N)

/-! ## The arrays the operations before the kernel write, as functions of the arguments -/

/-- The node features in the narrower format: the conversion of argument 0. -/
theorem V_v0 : (Gen.V m c main_v0 : S10000x128.Idx → EReal)
    = (truncf .bf16 (A m c main_arg0 : S10000x128.Idx → EReal) bitsLt_bf16_f32 : FVec Ideal S10000x128 .bf16) := by
  dsimp only [Gen.V, Gen.hostOps0]; after_results <;> rfl

/-- Argument 4 as one row. -/
theorem V_v1 : (Gen.V m c main_v1 : S1x128.Idx → EReal)
    = shapeCast S1x128 (A m c main_arg4 : S128.Idx → EReal) shapeCasts_S128_S1x128 := by
  dsimp only [Gen.V, Gen.hostOps0]; after_results <;> rfl

/-- Argument 6 as one row. -/
theorem V_v2 : (Gen.V m c main_v2 : S1x128.Idx → EReal)
    = shapeCast S1x128 (A m c main_arg6 : S128.Idx → EReal) shapeCasts_S128_S1x128 := by
  dsimp only [Gen.V, Gen.hostOps0]; after_results <;> rfl

/-- Argument 8 as one row. -/
theorem V_v5 : (Gen.V m c main_v5 : S1x64.Idx → EReal)
    = shapeCast S1x64 (A m c main_arg8 : S64.Idx → EReal) shapeCasts_S64_S1x64 := by
  dsimp only [Gen.V, Gen.hostOps0]; after_results <;> rfl

/-- Argument 10 as one row. -/
theorem V_v6 : (Gen.V m c main_v6 : S1x128.Idx → EReal)
    = shapeCast S1x128 (A m c main_arg10 : S128.Idx → EReal) shapeCasts_S128_S1x128 := by
  dsimp only [Gen.V, Gen.hostOps0]; after_results <;> rfl

/-- Argument 12 as one row. -/
theorem V_v7 : (Gen.V m c main_v7 : S1x64.Idx → EReal)
    = shapeCast S1x64 (A m c main_arg12 : S64.Idx → EReal) shapeCasts_S64_S1x64 := by
  dsimp only [Gen.V, Gen.hostOps0]; after_results <;> rfl

/-- Rows 0–127 of the first layer's weight. -/
theorem V_v3 : (Gen.V m c main_v3 : S128x64.Idx → EReal)
    = extractStridedSlice S128x64 ![0, 0] (A m c main_arg7 : S256x64.Idx → EReal) slices_S256x64_S128x64_0_0 := by
  dsimp only [Gen.V, Gen.hostOps0]; after_results <;> rfl

/-- Rows 128–255 of the first layer's weight. -/
theorem V_v4 : (Gen.V m c main_v4 : S128x64.Idx → EReal)
    = extractStridedSlice S128x64 ![128, 0] (A m c main_arg7 : S256x64.Idx → EReal) slices_S256x64_S128x64_128_0 := by
  dsimp only [Gen.V, Gen.hostOps0]; after_results <;> rfl

/-! ## The blocks -/

/-- Window 0's block index at every grid point: row block \`min t 124\`, column block 0. -/
theorem idx0 : ∀ t : Fin cfg0.N, win0_0.index t (0 : Fin 2) = min t.val 124 ∧ win0_0.index t (1 : Fin 2) = 0 :=
  (by decide +kernel : ∀ t : Fin grid0.N, _)

/-- Window 0 stages 80 rows of the positive adjacency matrix, from row `80 · min t 124`. -/
theorem blk0 (r : Fin 80) (q : Fin 10000) :
    Gen.iblk m c 0 t (ix2 r q)
      = A m c main_arg1 (ix2 (⟨80 * min t.val 124 + r.val, by have := r.isLt; omega⟩ : Fin 10000) q) := by
  obtain ⟨e0, e1⟩ := idx0 t
  unfold Gen.iblk
  show Gen.V m c main_arg1 (((cfg0.win 0).blk t).view.emb (ix2 r q)) = _
  rw [Gen.V_main_arg1]
  refine at_ix2 (n0 := 10000) (n1 := 10000) _ _ _ q ?_ ?_
  · show win0_0.index t (0 : Fin 2) * 80 + 1 * r.val = 80 * min t.val 124 + r.val; omega
  · show win0_0.index t (1 : Fin 2) * 10000 + 1 * q.val = q.val; omega

/-- Window 1's block index at every grid point: row block \`min t 124\`, column block 0. -/
theorem idx1 : ∀ t : Fin cfg0.N, win0_1.index t (0 : Fin 2) = min t.val 124 ∧ win0_1.index t (1 : Fin 2) = 0 :=
  (by decide +kernel : ∀ t : Fin grid0.N, _)

/-- Window 1 stages 80 rows of the negative adjacency matrix, from row `80 · min t 124`. -/
theorem blk1 (r : Fin 80) (q : Fin 10000) :
    Gen.iblk m c 1 t (ix2 r q)
      = A m c main_arg2 (ix2 (⟨80 * min t.val 124 + r.val, by have := r.isLt; omega⟩ : Fin 10000) q) := by
  obtain ⟨e0, e1⟩ := idx1 t
  unfold Gen.iblk
  show Gen.V m c main_arg2 (((cfg0.win 1).blk t).view.emb (ix2 r q)) = _
  rw [Gen.V_main_arg2]
  refine at_ix2 (n0 := 10000) (n1 := 10000) _ _ _ q ?_ ?_
  · show win0_1.index t (0 : Fin 2) * 80 + 1 * r.val = 80 * min t.val 124 + r.val; omega
  · show win0_1.index t (1 : Fin 2) * 10000 + 1 * q.val = q.val; omega

/-- Window 2's block index at every grid point: \`(0, 0)\`. -/
theorem idx2 : ∀ t : Fin cfg0.N, win0_2.index t (0 : Fin 2) = 0 ∧ win0_2.index t (1 : Fin 2) = 0 :=
  (by decide +kernel : ∀ t : Fin grid0.N, _)

/-- Window 2 stages the node features whole; the change of float format is the identity on extended reals. -/
theorem blk2 (q : Fin 10000) (p : Fin 128) : Gen.iblk m c 2 t (ix2 q p) = A m c main_arg0 (ix2 q p) := by
  obtain ⟨e0, e1⟩ := idx2 t
  unfold Gen.iblk
  show Gen.V m c main_v0 (((cfg0.win 2).blk t).view.emb (ix2 q p)) = _
  refine (congrFun (V_v0 m c) _).trans ?_
  refine (at_ix2 (n0 := 10000) (n1 := 128) _ _ q p ?_ ?_).trans (truncf_apply _ _ _)
  · show win0_2.index t (0 : Fin 2) * 10000 + 1 * q.val = q.val; omega
  · show win0_2.index t (1 : Fin 2) * 128 + 1 * p.val = p.val; omega

/-- Window 3's block index at every grid point: \`(0, 0)\`. -/
theorem idx3 : ∀ t : Fin cfg0.N, win0_3.index t (0 : Fin 2) = 0 ∧ win0_3.index t (1 : Fin 2) = 0 :=
  (by decide +kernel : ∀ t : Fin grid0.N, _)

/-- Window 3 stages the positive encoder's weight whole. -/
theorem blk3 (p : Fin 128) (j : Fin 128) : Gen.iblk m c 3 t (ix2 p j) = A m c main_arg3 (ix2 p j) := by
  obtain ⟨e0, e1⟩ := idx3 t
  unfold Gen.iblk
  show Gen.V m c main_arg3 (((cfg0.win 3).blk t).view.emb (ix2 p j)) = _
  rw [Gen.V_main_arg3]
  refine at_ix2 (n0 := 128) (n1 := 128) _ _ p j ?_ ?_
  · show win0_3.index t (0 : Fin 2) * 128 + 1 * p.val = p.val; omega
  · show win0_3.index t (1 : Fin 2) * 128 + 1 * j.val = j.val; omega

/-- Window 4's block index at every grid point: \`(0, 0)\`. -/
theorem idx4 : ∀ t : Fin cfg0.N, win0_4.index t (0 : Fin 2) = 0 ∧ win0_4.index t (1 : Fin 2) = 0 :=
  (by decide +kernel : ∀ t : Fin grid0.N, _)

/-- Window 4 stages the negative encoder's weight whole. -/
theorem blk4 (p : Fin 128) (j : Fin 128) : Gen.iblk m c 4 t (ix2 p j) = A m c main_arg5 (ix2 p j) := by
  obtain ⟨e0, e1⟩ := idx4 t
  unfold Gen.iblk
  show Gen.V m c main_arg5 (((cfg0.win 4).blk t).view.emb (ix2 p j)) = _
  rw [Gen.V_main_arg5]
  refine at_ix2 (n0 := 128) (n1 := 128) _ _ p j ?_ ?_
  · show win0_4.index t (0 : Fin 2) * 128 + 1 * p.val = p.val; omega
  · show win0_4.index t (1 : Fin 2) * 128 + 1 * j.val = j.val; omega

/-- Window 5's block index at every grid point: \`(0, 0)\`. -/
theorem idx5 : ∀ t : Fin cfg0.N, win0_5.index t (0 : Fin 2) = 0 ∧ win0_5.index t (1 : Fin 2) = 0 :=
  (by decide +kernel : ∀ t : Fin grid0.N, _)

/-- Window 5 stages the positive encoder's bias as one row. -/
theorem blk5 (j : Fin 128) : Gen.iblk m c 5 t (ix2 (0 : Fin 1) j) = A m c main_arg4 (ix1 j) := by
  obtain ⟨e0, e1⟩ := idx5 t
  unfold Gen.iblk
  show Gen.V m c main_v1 (((cfg0.win 5).blk t).view.emb (ix2 (0 : Fin 1) j)) = _
  refine (congrFun (V_v1 m c) _).trans ?_
  refine (at_ix2 (n0 := 1) (n1 := 128) _ _ (0 : Fin 1) j ?_ ?_).trans (shapeCast_a_1a_apply _ _ (0 : Fin 1) j)
  · show win0_5.index t (0 : Fin 2) * 1 + 1 * (0 : Fin 1).val = (0 : Fin 1).val; omega
  · show win0_5.index t (1 : Fin 2) * 128 + 1 * j.val = j.val; omega

/-- Window 6's block index at every grid point: \`(0, 0)\`. -/
theorem idx6 : ∀ t : Fin cfg0.N, win0_6.index t (0 : Fin 2) = 0 ∧ win0_6.index t (1 : Fin 2) = 0 :=
  (by decide +kernel : ∀ t : Fin grid0.N, _)

/-- Window 6 stages the negative encoder's bias as one row. -/
theorem blk6 (j : Fin 128) : Gen.iblk m c 6 t (ix2 (0 : Fin 1) j) = A m c main_arg6 (ix1 j) := by
  obtain ⟨e0, e1⟩ := idx6 t
  unfold Gen.iblk
  show Gen.V m c main_v2 (((cfg0.win 6).blk t).view.emb (ix2 (0 : Fin 1) j)) = _
  refine (congrFun (V_v2 m c) _).trans ?_
  refine (at_ix2 (n0 := 1) (n1 := 128) _ _ (0 : Fin 1) j ?_ ?_).trans (shapeCast_a_1a_apply _ _ (0 : Fin 1) j)
  · show win0_6.index t (0 : Fin 2) * 1 + 1 * (0 : Fin 1).val = (0 : Fin 1).val; omega
  · show win0_6.index t (1 : Fin 2) * 128 + 1 * j.val = j.val; omega

/-- Window 7's block index at every grid point: \`(0, 0)\`. -/
theorem idx7 : ∀ t : Fin cfg0.N, win0_7.index t (0 : Fin 2) = 0 ∧ win0_7.index t (1 : Fin 2) = 0 :=
  (by decide +kernel : ∀ t : Fin grid0.N, _)

/-- Window 7 stages rows 0–127 of the first layer's weight. -/
theorem blk7 (j : Fin 128) (k : Fin 64) : Gen.iblk m c 7 t (ix2 j k) = A m c main_arg7 (ix2 (Cert.Spec.lo j) k) := by
  obtain ⟨e0, e1⟩ := idx7 t
  unfold Gen.iblk
  show Gen.V m c main_v3 (((cfg0.win 7).blk t).view.emb (ix2 j k)) = _
  refine (congrFun (V_v3 m c) _).trans ?_
  refine (at_ix2 (n0 := 128) (n1 := 64) _ _ j k ?_ ?_).trans
    (slice2_axis0_apply 0 (A m c main_arg7 : S256x64.Idx → EReal) _ j k (Cert.Spec.lo j) (Nat.zero_add _).symm)
  · show win0_7.index t (0 : Fin 2) * 128 + 1 * j.val = j.val; omega
  · show win0_7.index t (1 : Fin 2) * 64 + 1 * k.val = k.val; omega

/-- Window 8's block index at every grid point: \`(0, 0)\`. -/
theorem idx8 : ∀ t : Fin cfg0.N, win0_8.index t (0 : Fin 2) = 0 ∧ win0_8.index t (1 : Fin 2) = 0 :=
  (by decide +kernel : ∀ t : Fin grid0.N, _)

/-- Window 8 stages rows 128–255 of the first layer's weight. -/
theorem blk8 (j : Fin 128) (k : Fin 64) : Gen.iblk m c 8 t (ix2 j k) = A m c main_arg7 (ix2 (Cert.Spec.hi j) k) := by
  obtain ⟨e0, e1⟩ := idx8 t
  unfold Gen.iblk
  show Gen.V m c main_v4 (((cfg0.win 8).blk t).view.emb (ix2 j k)) = _
  refine (congrFun (V_v4 m c) _).trans ?_
  refine (at_ix2 (n0 := 128) (n1 := 64) _ _ j k ?_ ?_).trans
    (slice2_axis0_apply 128 (A m c main_arg7 : S256x64.Idx → EReal) _ j k (Cert.Spec.hi j) rfl)
  · show win0_8.index t (0 : Fin 2) * 128 + 1 * j.val = j.val; omega
  · show win0_8.index t (1 : Fin 2) * 64 + 1 * k.val = k.val; omega

/-- Window 9's block index at every grid point: \`(0, 0)\`. -/
theorem idx9 : ∀ t : Fin cfg0.N, win0_9.index t (0 : Fin 2) = 0 ∧ win0_9.index t (1 : Fin 2) = 0 :=
  (by decide +kernel : ∀ t : Fin grid0.N, _)

/-- Window 9 stages the first layer's bias as one row. -/
theorem blk9 (k : Fin 64) : Gen.iblk m c 9 t (ix2 (0 : Fin 1) k) = A m c main_arg8 (ix1 k) := by
  obtain ⟨e0, e1⟩ := idx9 t
  unfold Gen.iblk
  show Gen.V m c main_v5 (((cfg0.win 9).blk t).view.emb (ix2 (0 : Fin 1) k)) = _
  refine (congrFun (V_v5 m c) _).trans ?_
  refine (at_ix2 (n0 := 1) (n1 := 64) _ _ (0 : Fin 1) k ?_ ?_).trans (shapeCast_a_1a_apply _ _ (0 : Fin 1) k)
  · show win0_9.index t (0 : Fin 2) * 1 + 1 * (0 : Fin 1).val = (0 : Fin 1).val; omega
  · show win0_9.index t (1 : Fin 2) * 64 + 1 * k.val = k.val; omega

/-- Window 10's block index at every grid point: \`(0, 0)\`. -/
theorem idx10 : ∀ t : Fin cfg0.N, win0_10.index t (0 : Fin 2) = 0 ∧ win0_10.index t (1 : Fin 2) = 0 :=
  (by decide +kernel : ∀ t : Fin grid0.N, _)

/-- Window 10 stages the second layer's weight whole. -/
theorem blk10 (k : Fin 64) (j : Fin 128) : Gen.iblk m c 10 t (ix2 k j) = A m c main_arg9 (ix2 k j) := by
  obtain ⟨e0, e1⟩ := idx10 t
  unfold Gen.iblk
  show Gen.V m c main_arg9 (((cfg0.win 10).blk t).view.emb (ix2 k j)) = _
  rw [Gen.V_main_arg9]
  refine at_ix2 (n0 := 64) (n1 := 128) _ _ k j ?_ ?_
  · show win0_10.index t (0 : Fin 2) * 64 + 1 * k.val = k.val; omega
  · show win0_10.index t (1 : Fin 2) * 128 + 1 * j.val = j.val; omega

/-- Window 11's block index at every grid point: \`(0, 0)\`. -/
theorem idx11 : ∀ t : Fin cfg0.N, win0_11.index t (0 : Fin 2) = 0 ∧ win0_11.index t (1 : Fin 2) = 0 :=
  (by decide +kernel : ∀ t : Fin grid0.N, _)

/-- Window 11 stages the second layer's bias as one row. -/
theorem blk11 (j : Fin 128) : Gen.iblk m c 11 t (ix2 (0 : Fin 1) j) = A m c main_arg10 (ix1 j) := by
  obtain ⟨e0, e1⟩ := idx11 t
  unfold Gen.iblk
  show Gen.V m c main_v6 (((cfg0.win 11).blk t).view.emb (ix2 (0 : Fin 1) j)) = _
  refine (congrFun (V_v6 m c) _).trans ?_
  refine (at_ix2 (n0 := 1) (n1 := 128) _ _ (0 : Fin 1) j ?_ ?_).trans (shapeCast_a_1a_apply _ _ (0 : Fin 1) j)
  · show win0_11.index t (0 : Fin 2) * 1 + 1 * (0 : Fin 1).val = (0 : Fin 1).val; omega
  · show win0_11.index t (1 : Fin 2) * 128 + 1 * j.val = j.val; omega

/-- Window 12's block index at every grid point: \`(0, 0)\`. -/
theorem idx12 : ∀ t : Fin cfg0.N, win0_12.index t (0 : Fin 2) = 0 ∧ win0_12.index t (1 : Fin 2) = 0 :=
  (by decide +kernel : ∀ t : Fin grid0.N, _)

/-- Window 12 stages the third layer's weight whole. -/
theorem blk12 (j : Fin 128) (k : Fin 64) : Gen.iblk m c 12 t (ix2 j k) = A m c main_arg11 (ix2 j k) := by
  obtain ⟨e0, e1⟩ := idx12 t
  unfold Gen.iblk
  show Gen.V m c main_arg11 (((cfg0.win 12).blk t).view.emb (ix2 j k)) = _
  rw [Gen.V_main_arg11]
  refine at_ix2 (n0 := 128) (n1 := 64) _ _ j k ?_ ?_
  · show win0_12.index t (0 : Fin 2) * 128 + 1 * j.val = j.val; omega
  · show win0_12.index t (1 : Fin 2) * 64 + 1 * k.val = k.val; omega

/-- Window 13's block index at every grid point: \`(0, 0)\`. -/
theorem idx13 : ∀ t : Fin cfg0.N, win0_13.index t (0 : Fin 2) = 0 ∧ win0_13.index t (1 : Fin 2) = 0 :=
  (by decide +kernel : ∀ t : Fin grid0.N, _)

/-- Window 13 stages the third layer's bias as one row. -/
theorem blk13 (k : Fin 64) : Gen.iblk m c 13 t (ix2 (0 : Fin 1) k) = A m c main_arg12 (ix1 k) := by
  obtain ⟨e0, e1⟩ := idx13 t
  unfold Gen.iblk
  show Gen.V m c main_v7 (((cfg0.win 13).blk t).view.emb (ix2 (0 : Fin 1) k)) = _
  refine (congrFun (V_v7 m c) _).trans ?_
  refine (at_ix2 (n0 := 1) (n1 := 64) _ _ (0 : Fin 1) k ?_ ?_).trans (shapeCast_a_1a_apply _ _ (0 : Fin 1) k)
  · show win0_13.index t (0 : Fin 2) * 1 + 1 * (0 : Fin 1).val = (0 : Fin 1).val; omega
  · show win0_13.index t (1 : Fin 2) * 64 + 1 * k.val = k.val; omega

/-- Window 14's block index at every grid point: \`(0, 0)\`. -/
theorem idx14 : ∀ t : Fin cfg0.N, win0_14.index t (0 : Fin 2) = 0 ∧ win0_14.index t (1 : Fin 2) = 0 :=
  (by decide +kernel : ∀ t : Fin grid0.N, _)

/-- Window 14 stages the bilinear form whole. -/
theorem blk14 (j : Fin 64) (k : Fin 64) : Gen.iblk m c 14 t (ix2 j k) = A m c main_arg13 (ix2 j k) := by
  obtain ⟨e0, e1⟩ := idx14 t
  unfold Gen.iblk
  show Gen.V m c main_arg13 (((cfg0.win 14).blk t).view.emb (ix2 j k)) = _
  rw [Gen.V_main_arg13]
  refine at_ix2 (n0 := 64) (n1 := 64) _ _ j k ?_ ?_
  · show win0_14.index t (0 : Fin 2) * 64 + 1 * j.val = j.val; omega
  · show win0_14.index t (1 : Fin 2) * 64 + 1 * k.val = k.val; omega

end Cert.KernelIdeal.Blocks

end
-- ==== Proof.KIPay.lean ====
/-
  Each pure value the kernel body computes, read at one index, on the extended reals.

  At the ideal instance every float is an extended real, a change of float format is the identity, and a product into
  a zero accumulator is the plain sum over the contracted index. So each payload of the body, read at explicit
  coordinates `(row, column)`, is a closed expression in its operands at explicit coordinates:

    the feature transform        (X · W) (q, j)            = ∑ p, X (q, p) * W (p, j)
    one graph-convolution layer  max (A · XW + b, 0) (r, j) = max ((∑ q, A (r, q) * XW (q, j)) + b (0, j)) 0
    the perceptron               three dense layers, the first with its weight split in two halves
    the decoder's left factor    (hh · Wd) (r, k)          = ∑ j, hh (r, j) * Wd (j, k)
    the decoder                  (tt · hhᵀ) (r, c)         = ∑ k, tt (r, k) * hh (c, k)

  The zero of each maximum is kept as the f32 word `0x00000000` read at the ideal instance (`Cert.Spec.z0`); it is
  never evaluated. No sum is expanded: every step is a congruence under the `∑`.
-/
import proofs.«162584_g16561393893844_cont_week2b_458_24_alg».proof.Proof.Spec
import proofs.«162584_g16561393893844_cont_week2b_458_24_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-! ## A rank-2 product read at an index

The dimension numbers of every product in this kernel have no batch axis, one free axis per operand and one contracted
axis per operand. For such numbers the operand indices at result index `(r, c)` and contraction position `k` are read
off coordinate by coordinate: a free axis reads the result index, the contracted axis reads `k`. -/

section Dot
variable {sl sr so : Shape} (D : DotDims sl sr so)

/-- With no batch axis and the single free axis `a` on the left, the left operand's index on `a` is the result index's
    first coordinate. -/
theorem lhsIdx_val_free {a : Fin sl.rank} (hlb : D.lhsBatch = []) (hln : D.lhsNonContracting = [a]) (h0 : 0 < so.rank)
    (j : so.Idx) (k : D.contr.Idx) : (D.lhsIdx j k a).val = (j ⟨0, h0⟩).val := by
  have hmem : a ∈ D.lhsNonContracting := by rw [hln]; exact List.mem_singleton.mpr rfl
  have hnb : a ∉ D.lhsBatch := by rw [hlb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln])

/-- With no batch axis, one free axis on the left and the single free axis `a` on the right, the right operand's index
    on `a` is the result index's second coordinate. -/
theorem rhsIdx_val_free {a' : Fin sl.rank} {a : Fin sr.rank} (hlb : D.lhsBatch = []) (hln : D.lhsNonContracting = [a'])
    (hrb : D.rhsBatch = []) (hrn : D.rhsNonContracting = [a]) (h1 : 1 < so.rank)
    (j : so.Idx) (k : D.contr.Idx) : (D.rhsIdx j k a).val = (j ⟨1, h1⟩).val := by
  have hmem : a ∈ D.rhsNonContracting := by rw [hrn]; exact List.mem_singleton.mpr rfl
  have hnb : a ∉ D.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

end Dot

/-- A product into a zero accumulator whose left operand `[m, K]` is contracted on its second axis, read at `(r, c)`:
    the sum over `k` of the left operand at `(r, k)` times the right operand at whatever index `R k` its dimension
    numbers give it there. -/
theorem matmul_zero_rows {m K n : Nat} {sr : Shape} {φ₁ φ₂ : FTy} (D : DotDims ⟨2, ![m, K]⟩ sr ⟨2, ![m, n]⟩)
    (hlb : D.lhsBatch = []) (hln : D.lhsNonContracting = [0]) (hlc : D.lhsContracting = [1])
    (hr : D.contr.rank = 1) (hs : D.contr.size ⟨0, by omega⟩ = K)
    (x : FVec Ideal ⟨2, ![m, K]⟩ φ₁) (w : FVec Ideal sr φ₂) (r : Fin m) (c : Fin n) (R : Fin K → sr.Idx)
    (hR : ∀ k, D.rhsIdx (ix2 r c) ((contrEquiv1 D K hr hs).symm k) = R k) :
    matmul D none x w (constant (F := Ideal) ⟨2, ![m, n]⟩ .f32 0x00000000#32) (ix2 r c) = ∑ k : Fin K, x (ix2 r k) * w (R k) := by
  refine (Ideal.matmul_constant_zero_apply D none x w (ix2 r c)).trans ?_
  rw [← Equiv.sum_comp (contrEquiv1 D K hr hs).symm]
  refine Finset.sum_congr rfl fun k _ => ?_
  have hc := contrEquiv1_symm_val D K hr hs k
  have el : D.lhsIdx (ix2 r c) ((contrEquiv1 D K hr hs).symm k) = ix2 r k :=
    funext fun a => Fin.ext (by
      match a with
      | ⟨0, _⟩ => exact lhsIdx_val_free D hlb hln Nat.two_pos _ _
      | ⟨1, _⟩ => exact (D.lhsIdx_val_of_single hlc _ _).trans hc)
  rw [el, hR k]

/-- `[m, K] × [K, n]`, the right operand contracted on its first axis: at `(r, c)` the sum over `k` of the left at
    `(r, k)` times the right at `(k, c)`. -/
theorem matmul_plain_apply {m K n : Nat} {φ₁ φ₂ : FTy} (D : DotDims ⟨2, ![m, K]⟩ ⟨2, ![K, n]⟩ ⟨2, ![m, n]⟩)
    (hlb : D.lhsBatch = []) (hln : D.lhsNonContracting = [0]) (hlc : D.lhsContracting = [1])
    (hrb : D.rhsBatch = []) (hrn : D.rhsNonContracting = [1]) (hrc : D.rhsContracting = [0])
    (hr : D.contr.rank = 1) (hs : D.contr.size ⟨0, by omega⟩ = K)
    (x : FVec Ideal ⟨2, ![m, K]⟩ φ₁) (w : FVec Ideal ⟨2, ![K, n]⟩ φ₂) (r : Fin m) (c : Fin n) :
    matmul D none x w (constant (F := Ideal) ⟨2, ![m, n]⟩ .f32 0x00000000#32) (ix2 r c) = ∑ k : Fin K, x (ix2 r k) * w (ix2 k c) :=
  matmul_zero_rows D hlb hln hlc hr hs x w r c (fun k => ix2 k c) fun k => funext fun a => Fin.ext (by
    have hc := contrEquiv1_symm_val D K hr hs k
    match a with
    | ⟨0, _⟩ => exact (D.rhsIdx_val_of_single hrc _ _).trans hc
    | ⟨1, _⟩ => exact rhsIdx_val_free D hlb hln hrb hrn Nat.one_lt_two _ _)

/-- `[m, K] × [n, K]`, both operands contracted on their second axis: at `(r, c)` the sum over `k` of the left at
    `(r, k)` times the right at `(c, k)`. -/
theorem matmul_transposed_apply {m K n : Nat} {φ₁ φ₂ : FTy} (D : DotDims ⟨2, ![m, K]⟩ ⟨2, ![n, K]⟩ ⟨2, ![m, n]⟩)
    (hlb : D.lhsBatch = []) (hln : D.lhsNonContracting = [0]) (hlc : D.lhsContracting = [1])
    (hrb : D.rhsBatch = []) (hrn : D.rhsNonContracting = [0]) (hrc : D.rhsContracting = [1])
    (hr : D.contr.rank = 1) (hs : D.contr.size ⟨0, by omega⟩ = K)
    (x : FVec Ideal ⟨2, ![m, K]⟩ φ₁) (w : FVec Ideal ⟨2, ![n, K]⟩ φ₂) (r : Fin m) (c : Fin n) :
    matmul D none x w (constant (F := Ideal) ⟨2, ![m, n]⟩ .f32 0x00000000#32) (ix2 r c) = ∑ k : Fin K, x (ix2 r k) * w (ix2 c k) :=
  matmul_zero_rows D hlb hln hlc hr hs x w r c (fun k => ix2 c k) fun k => funext fun a => Fin.ext (by
    have hc := contrEquiv1_symm_val D K hr hs k
    match a with
    | ⟨0, _⟩ => exact rhsIdx_val_free D hlb hln hrb hrn Nat.one_lt_two _ _
    | ⟨1, _⟩ => exact (D.rhsIdx_val_of_single hrc _ _).trans hc)

/-! ## The kernel's six products, each into a zero accumulator, read at an index -/

/-- The feature transform `X · W` at node `q`, feature `j`. -/
theorem mm_xw {φ₁ φ₂ : FTy} (x : FVec Ideal S10000x128 φ₁) (w : FVec Ideal S128x128 φ₂) (q : Fin 10000) (j : Fin 128) :
    matmul dot_S10000x128_S128x128_S10000x128_1_0_0_1_n_n none x w (constant S10000x128 .f32 0x00000000#32) (ix2 q j)
      = ∑ p : Fin 128, x (ix2 q p) * w (ix2 p j) :=
  matmul_plain_apply dot_S10000x128_S128x128_S10000x128_1_0_0_1_n_n rfl rfl rfl rfl rfl rfl rfl rfl x w q j

/-- The aggregation `A · (X · W)` of an 80-row block of `A` at row `r`, feature `j`: a sum over all 10000 nodes. -/
theorem mm_agg {φ₁ φ₂ : FTy} (a : FVec Ideal S80x10000 φ₁) (xp : FVec Ideal S10000x128 φ₂) (r : Fin 80) (j : Fin 128) :
    matmul dot_S80x10000_S10000x128_S80x128_1_0_0_1_n_n none a xp (constant S80x128 .f32 0x00000000#32) (ix2 r j)
      = ∑ q : Fin 10000, a (ix2 r q) * xp (ix2 q j) :=
  matmul_plain_apply dot_S80x10000_S10000x128_S80x128_1_0_0_1_n_n rfl rfl rfl rfl rfl rfl rfl rfl a xp r j

/-- An 80-row block times a `[128, 64]` weight (the perceptron's first and third layers). -/
theorem mm_128_64 {φ₁ φ₂ : FTy} (x : FVec Ideal S80x128 φ₁) (w : FVec Ideal S128x64 φ₂) (r : Fin 80) (k : Fin 64) :
    matmul dot_S80x128_S128x64_S80x64_1_0_0_1_n_n none x w (constant S80x64 .f32 0x00000000#32) (ix2 r k)
      = ∑ j : Fin 128, x (ix2 r j) * w (ix2 j k) :=
  matmul_plain_apply dot_S80x128_S128x64_S80x64_1_0_0_1_n_n rfl rfl rfl rfl rfl rfl rfl rfl x w r k

/-- An 80-row block times the `[64, 128]` weight of the perceptron's second layer. -/
theorem mm_64_128 {φ₁ φ₂ : FTy} (x : FVec Ideal S80x64 φ₁) (w : FVec Ideal S64x128 φ₂) (r : Fin 80) (j : Fin 128) :
    matmul dot_S80x64_S64x128_S80x128_1_0_0_1_n_n none x w (constant S80x128 .f32 0x00000000#32) (ix2 r j)
      = ∑ k : Fin 64, x (ix2 r k) * w (ix2 k j) :=
  matmul_plain_apply dot_S80x64_S64x128_S80x128_1_0_0_1_n_n rfl rfl rfl rfl rfl rfl rfl rfl x w r j

/-- An 80-row block of the embedding times the bilinear form `[64, 64]`. -/
theorem mm_64_64 {φ₁ φ₂ : FTy} (x : FVec Ideal S80x64 φ₁) (w : FVec Ideal S64x64 φ₂) (r : Fin 80) (k : Fin 64) :
    matmul dot_S80x64_S64x64_S80x64_1_0_0_1_n_n none x w (constant S80x64 .f32 0x00000000#32) (ix2 r k)
      = ∑ j : Fin 64, x (ix2 r j) * w (ix2 j k) :=
  matmul_plain_apply dot_S80x64_S64x64_S80x64_1_0_0_1_n_n rfl rfl rfl rfl rfl rfl rfl rfl x w r k

/-- The decoder: a 400-row block of the left factor against ALL 10000 rows of the embedding, both contracted on their
    second axis — the product with the transpose. -/
theorem mm_dec {φ₁ φ₂ : FTy} (t : FVec Ideal S400x64 φ₁) (h : FVec Ideal S10000x64 φ₂) (r : Fin 400) (cc : Fin 10000) :
    matmul dot_S400x64_S10000x64_S400x10000_1_1_0_0_n_n none t h (constant S400x10000 .f32 0x00000000#32) (ix2 r cc)
      = ∑ k : Fin 64, t (ix2 r k) * h (ix2 cc k) :=
  matmul_transposed_apply dot_S400x64_S10000x64_S400x10000_1_1_0_0_n_n rfl rfl rfl rfl rfl rfl rfl rfl t h r cc

/-! ## Pointwise steps -/

/-- A `[1, n]` bias row added to every row of an `[m, n]` block: at `(r, c)` the block there plus the bias at `(0, c)`. -/
theorem add_bias_apply {m n : Nat} (u : FVec Ideal ⟨2, ![m, n]⟩ .f32) (b : FVec Ideal ⟨2, ![1, n]⟩ .f32)
    (hbc : (⟨2, ![1, n]⟩ : Shape).Broadcasts ⟨2, ![m, n]⟩) (r : Fin m) (c : Fin n) :
    addf u (broadcastTo ⟨2, ![m, n]⟩ b hbc) (ix2 r c) = u (ix2 r c) + b (ix2 (0 : Fin 1) c) :=
  congrArg (u (ix2 r c) + ·) (broadcastTo_1b_ab_apply b hbc r c)

/-- The maximum against the splat of the f32 zero word: at every index the maximum of the element and that zero. -/
theorem relu_apply {s : Shape} (u : FVec Ideal s .f32) (i : s.Idx) :
    maximumf u (broadcast s (Scalar.ofBits (F := Ideal) .f32 0x00000000#32)) i = max (u i) Cert.Spec.z0 := rfl

/-! ## The payloads -/

/-- The node features widened to f32: the same extended reals. -/
theorem pay1_apply (v : Vec Ideal S10000x128 .bf16) (i : S10000x128.Idx) : k0_pay1 v i = v i := by
  unfold k0_pay1
  rw [shapeCast_self]
  rfl

/-- The positive-sign feature transform `X · Wp` at node `q`, feature `j`. -/
theorem pay2_apply (x : Vec Ideal S10000x128 .bf16) (w : Vec Ideal S128x128 .f32) (q : Fin 10000) (j : Fin 128) :
    k0_pay2 x w (ix2 q j) = ∑ p : Fin 128, x (ix2 q p) * w (ix2 p j) := by
  unfold k0_pay2
  rw [shapeCast_self]
  refine Eq.trans (truncf_apply (φ := .f32) (ψ := .bf16) _ bitsLt_bf16_f32 (ix2 q j)) ?_
  refine (mm_xw (k0_pay1 x) w q j).trans ?_
  exact Finset.sum_congr rfl fun p _ => congrArg (· * w (ix2 p j)) (pay1_apply x (ix2 q p))

/-- The negative-sign feature transform `X · Wn` at node `q`, feature `j`. -/
theorem pay3_apply (x : Vec Ideal S10000x128 .bf16) (w : Vec Ideal S128x128 .f32) (q : Fin 10000) (j : Fin 128) :
    k0_pay3 x w (ix2 q j) = ∑ p : Fin 128, x (ix2 q p) * w (ix2 p j) := by
  unfold k0_pay3
  rw [shapeCast_self]
  refine Eq.trans (truncf_apply (φ := .f32) (ψ := .bf16) _ bitsLt_bf16_f32 (ix2 q j)) ?_
  refine (mm_xw (k0_pay1 x) w q j).trans ?_
  exact Finset.sum_congr rfl fun p _ => congrArg (· * w (ix2 p j)) (pay1_apply x (ix2 q p))

/-- One graph-convolution layer on an 80-row block of the positive adjacency: at row `r`, feature `j`, the maximum with
    zero of the aggregated transformed features plus the bias. -/
theorem pay6_apply (a : Vec Ideal S80x10000 .f32) (xp : Vec Ideal S10000x128 .bf16) (b : Vec Ideal S1x128 .f32)
    (r : Fin 80) (j : Fin 128) :
    k0_pay6 a xp b (ix2 r j)
      = max ((∑ q : Fin 10000, a (ix2 r q) * xp (ix2 q j)) + b (ix2 (0 : Fin 1) j)) Cert.Spec.z0 := by
  unfold k0_pay6
  simp only [shapeCast_self]
  refine (relu_apply _ (ix2 r j)).trans ?_
  refine congrArg (max · Cert.Spec.z0) ?_
  refine (add_bias_apply _ b broadcasts_S1x128_S80x128 r j).trans ?_
  refine congrArg (· + b (ix2 (0 : Fin 1) j)) ?_
  refine (mm_agg (truncf .bf16 a bitsLt_bf16_f32) xp r j).trans ?_
  exact Finset.sum_congr rfl fun q _ =>
    congrArg (· * xp (ix2 q j)) (truncf_apply (φ := .f32) (ψ := .bf16) a bitsLt_bf16_f32 (ix2 r q))

/-- The same layer on the negative adjacency. -/
theorem pay7_apply (a : Vec Ideal S80x10000 .f32) (xp : Vec Ideal S10000x128 .bf16) (b : Vec Ideal S1x128 .f32)
    (r : Fin 80) (j : Fin 128) :
    k0_pay7 a xp b (ix2 r j)
      = max ((∑ q : Fin 10000, a (ix2 r q) * xp (ix2 q j)) + b (ix2 (0 : Fin 1) j)) Cert.Spec.z0 := by
  unfold k0_pay7
  simp only [shapeCast_self]
  refine (relu_apply _ (ix2 r j)).trans ?_
  refine congrArg (max · Cert.Spec.z0) ?_
  refine (add_bias_apply _ b broadcasts_S1x128_S80x128 r j).trans ?_
  refine congrArg (· + b (ix2 (0 : Fin 1) j)) ?_
  refine (mm_agg (truncf .bf16 a bitsLt_bf16_f32) xp r j).trans ?_
  exact Finset.sum_congr rfl fun q _ =>
    congrArg (· * xp (ix2 q j)) (truncf_apply (φ := .f32) (ψ := .bf16) a bitsLt_bf16_f32 (ix2 r q))

/-! ### The perceptron on an 80-row block, layer by layer -/

/-- The first layer: the two encoders' outputs against the two halves of the first weight, plus the bias, maximum
    with zero. -/
def layer1 (zp zn : FVec Ideal S80x128 .f32) (w1a w1b : FVec Ideal S128x64 .f32) (b1 : FVec Ideal S1x64 .f32) :
    FVec Ideal S80x64 .f32 :=
  maximumf
    (addf
      (addf (matmul dot_S80x128_S128x64_S80x64_1_0_0_1_n_n none zp w1a (constant (F := Ideal) S80x64 .f32 0x00000000#32))
        (matmul dot_S80x128_S128x64_S80x64_1_0_0_1_n_n none zn w1b (constant (F := Ideal) S80x64 .f32 0x00000000#32)))
      (broadcastTo S80x64 b1 broadcasts_S1x64_S80x64))
    (broadcast S80x64 (Scalar.ofBits (F := Ideal) .f32 0x00000000#32))

/-- The second layer: a dense layer `[64] → [128]`, maximum with zero. -/
def layer2 (h1 : FVec Ideal S80x64 .f32) (w2 : FVec Ideal S64x128 .f32) (b2 : FVec Ideal S1x128 .f32) :
    FVec Ideal S80x128 .f32 :=
  maximumf
    (addf (matmul dot_S80x64_S64x128_S80x128_1_0_0_1_n_n none h1 w2 (constant (F := Ideal) S80x128 .f32 0x00000000#32))
      (broadcastTo S80x128 b2 broadcasts_S1x128_S80x128))
    (broadcast S80x128 (Scalar.ofBits (F := Ideal) .f32 0x00000000#32))

/-- The third layer: a dense layer `[128] → [64]` with no maximum. -/
def layer3 (h2 : FVec Ideal S80x128 .f32) (w3 : FVec Ideal S128x64 .f32) (b3 : FVec Ideal S1x64 .f32) :
    FVec Ideal S80x64 .f32 :=
  addf (matmul dot_S80x128_S128x64_S80x64_1_0_0_1_n_n none h2 w3 (constant (F := Ideal) S80x64 .f32 0x00000000#32))
    (broadcastTo S80x64 b3 broadcasts_S1x64_S80x64)

/-- The perceptron's payload is the three layers composed. -/
theorem pay9_eq_layers (zp zn : Vec Ideal S80x128 .f32) (w1a w1b : Vec Ideal S128x64 .f32) (b1 : Vec Ideal S1x64 .f32)
    (w2 : Vec Ideal S64x128 .f32) (b2 : Vec Ideal S1x128 .f32) (w3 : Vec Ideal S128x64 .f32) (b3 : Vec Ideal S1x64 .f32) :
    k0_pay9 zp zn w1a w1b b1 w2 b2 w3 b3 = layer3 (layer2 (layer1 zp zn w1a w1b b1) w2 b2) w3 b3 := by
  unfold k0_pay9 layer3 layer2 layer1
  simp only [shapeCast_self]

/-- The first layer at row `r`, hidden unit `k'`. -/
theorem layer1_apply (zp zn : FVec Ideal S80x128 .f32) (w1a w1b : FVec Ideal S128x64 .f32) (b1 : FVec Ideal S1x64 .f32)
    (r : Fin 80) (k' : Fin 64) :
    layer1 zp zn w1a w1b b1 (ix2 r k')
      = max (((∑ j' : Fin 128, zp (ix2 r j') * w1a (ix2 j' k')) + (∑ j' : Fin 128, zn (ix2 r j') * w1b (ix2 j' k')))
          + b1 (ix2 (0 : Fin 1) k')) Cert.Spec.z0 := by
  unfold layer1
  refine (relu_apply _ (ix2 r k')).trans ?_
  refine congrArg (max · Cert.Spec.z0) ?_
  refine (add_bias_apply _ b1 broadcasts_S1x64_S80x64 r k').trans ?_
  refine congrArg (· + b1 (ix2 (0 : Fin 1) k')) ?_
  refine (addf_apply _ _ (ix2 r k')).trans ?_
  exact congrArg₂ (· + ·) (mm_128_64 zp w1a r k') (mm_128_64 zn w1b r k')

/-- The second layer at row `r`, hidden unit `j`. -/
theorem layer2_apply (h1 : FVec Ideal S80x64 .f32) (w2 : FVec Ideal S64x128 .f32) (b2 : FVec Ideal S1x128 .f32)
    (r : Fin 80) (j : Fin 128) :
    layer2 h1 w2 b2 (ix2 r j)
      = max ((∑ k' : Fin 64, h1 (ix2 r k') * w2 (ix2 k' j)) + b2 (ix2 (0 : Fin 1) j)) Cert.Spec.z0 := by
  unfold layer2
  refine (relu_apply _ (ix2 r j)).trans ?_
  refine congrArg (max · Cert.Spec.z0) ?_
  refine (add_bias_apply _ b2 broadcasts_S1x128_S80x128 r j).trans ?_
  exact congrArg (· + b2 (ix2 (0 : Fin 1) j)) (mm_64_128 h1 w2 r j)

/-- The third layer at row `r`, embedding coordinate `k`. -/
theorem layer3_apply (h2 : FVec Ideal S80x128 .f32) (w3 : FVec Ideal S128x64 .f32) (b3 : FVec Ideal S1x64 .f32)
    (r : Fin 80) (k : Fin 64) :
    layer3 h2 w3 b3 (ix2 r k) = (∑ j : Fin 128, h2 (ix2 r j) * w3 (ix2 j k)) + b3 (ix2 (0 : Fin 1) k) := by
  unfold layer3
  refine (add_bias_apply _ b3 broadcasts_S1x64_S80x64 r k).trans ?_
  exact congrArg (· + b3 (ix2 (0 : Fin 1) k)) (mm_128_64 h2 w3 r k)

/-- The node embedding of an 80-row block at row `r`, coordinate `k`: the three layers written out. -/
theorem pay9_apply (zp zn : Vec Ideal S80x128 .f32) (w1a w1b : Vec Ideal S128x64 .f32) (b1 : Vec Ideal S1x64 .f32)
    (w2 : Vec Ideal S64x128 .f32) (b2 : Vec Ideal S1x128 .f32) (w3 : Vec Ideal S128x64 .f32) (b3 : Vec Ideal S1x64 .f32)
    (r : Fin 80) (k : Fin 64) :
    k0_pay9 zp zn w1a w1b b1 w2 b2 w3 b3 (ix2 r k)
      = (∑ j : Fin 128,
          (max ((∑ k' : Fin 64,
              (max (((∑ j' : Fin 128, zp (ix2 r j') * w1a (ix2 j' k')) + (∑ j' : Fin 128, zn (ix2 r j') * w1b (ix2 j' k')))
                + b1 (ix2 (0 : Fin 1) k')) Cert.Spec.z0) * w2 (ix2 k' j))
            + b2 (ix2 (0 : Fin 1) j)) Cert.Spec.z0) * w3 (ix2 j k))
        + b3 (ix2 (0 : Fin 1) k) := by
  rw [pay9_eq_layers]
  refine (layer3_apply _ w3 b3 r k).trans ?_
  refine congrArg (· + b3 (ix2 (0 : Fin 1) k)) (Finset.sum_congr rfl fun j _ => congrArg (· * w3 (ix2 j k)) ?_)
  refine (layer2_apply _ w2 b2 r j).trans ?_
  refine congrArg (fun t => max (t + b2 (ix2 (0 : Fin 1) j)) Cert.Spec.z0)
    (Finset.sum_congr rfl fun k' _ => congrArg (· * w2 (ix2 k' j)) ?_)
  exact layer1_apply zp zn w1a w1b b1 r k'

/-- The embedding narrowed to bf16: the same extended reals. -/
theorem pay10_apply (zp zn : Vec Ideal S80x128 .f32) (w1a w1b : Vec Ideal S128x64 .f32) (b1 : Vec Ideal S1x64 .f32)
    (w2 : Vec Ideal S64x128 .f32) (b2 : Vec Ideal S1x128 .f32) (w3 : Vec Ideal S128x64 .f32) (b3 : Vec Ideal S1x64 .f32)
    (i : S80x64.Idx) :
    k0_pay10 zp zn w1a w1b b1 w2 b2 w3 b3 i = k0_pay9 zp zn w1a w1b b1 w2 b2 w3 b3 i := rfl

/-- The embedding block as it is stored: unchanged. -/
theorem pay4_apply (v : FVec Ideal S80x64 .bf16) (i : S80x64.Idx) : k0_pay4 v i = v i := by
  unfold k0_pay4
  rw [shapeCast_self]

/-- The decoder's left factor `hh · Wd` on an 80-row block at row `r`, coordinate `k`. -/
theorem pay5_apply (v42 : FVec Ideal S80x64 .f32) (wd : Vec Ideal S64x64 .f32) (r : Fin 80) (k : Fin 64) :
    k0_pay5 v42 wd (ix2 r k) = ∑ j : Fin 64, v42 (ix2 r j) * wd (ix2 j k) := by
  unfold k0_pay5
  rw [shapeCast_self]
  refine Eq.trans (truncf_apply (φ := .f32) (ψ := .bf16) _ bitsLt_bf16_f32 (ix2 r k)) ?_
  exact mm_64_64 v42 wd r k

/-- The decoder on a 400-row block of the left factor against the whole embedding: at `(r, cc)` the sum over the 64
    embedding coordinates of the left factor at `(r, k)` times the embedding at `(cc, k)`. -/
theorem pay8_apply (tb : Vec Ideal S400x64 .bf16) (h : Vec Ideal S10000x64 .bf16) (r : Fin 400) (cc : Fin 10000) :
    k0_pay8 tb h (ix2 r cc) = ∑ k : Fin 64, tb (ix2 r k) * h (ix2 cc k) := by
  unfold k0_pay8
  exact mm_dec tb h r cc

end Cert.KernelIdeal.Pay

end
-- ==== Proof.KIValue.lean ====
/-
  The kernel's scratch contents and output blocks are the specification, index by index (at the ideal instance).

  Every closed form of the scratch buffers is a composition of the body's payloads over the windows' blocks. A payload
  read at an index is a sum of products of its operands at explicit coordinates; a block read at an index is a launch
  argument at explicit coordinates. Substituting one into the other, under the sums and never expanding one, gives the
  specification's functions:

    XP, XN  (point 0)              the feature transforms   xw X Wp, xw X Wn
    ZP t, ZN t  (t < 125)          rows [80 t, 80 t + 80) of the convolved features   z X Ap Wp bp, z X An Wn bn
    HB t, TB t  (1 ≤ t ≤ 125)      rows [80 (t − 1), 80 t) of the embedding hh and of the left factor tt
    HF, TF                         the whole embedding and left factor: row R is row R % 80 of band R / 80 + 1
    OB t  (126 ≤ t)                rows [400 (t − 126), 400 (t − 125)) of the result Y = tt · hhᵀ

  The first layer's weight enters the kernel as its two halves (rows j and 128 + j), which is how the specification
  writes that layer, so no sum is re-bracketed here.
-/
import proofs.«162584_g16561393893844_cont_week2b_458_24_alg».proof.Proof.Spec
import proofs.«162584_g16561393893844_cont_week2b_458_24_alg».proof.Proof.KIDefs
import proofs.«162584_g16561393893844_cont_week2b_458_24_alg».proof.Proof.KIBlocks
import proofs.«162584_g16561393893844_cont_week2b_458_24_alg».proof.Proof.KIPay
import Idealize.ShloMosaic.Lib.ValueIdx
import Idealize.ShloMosaic.Lib.Pipeline.Value

noncomputable section

open scoped BigOperators

namespace Cert.KernelIdeal.ValueBridge

open Cert.KernelIdeal Cert.KernelIdeal.Gen Cert.KernelIdeal.Body Cert.KernelIdeal.Blocks Cert.KernelIdeal.Pay
open Idealize.ShloMosaic Idealize.ShloMosaic.TcCoe Idealize.SL.Sem Idealize.ShloMosaic.ValueIdx

variable (m : (ℓ : Loc nD τ sig) → Buf (Elt Ideal) ℓ) (c : Dev nD)

/-! ## The fourteen arguments, under the specification's names -/

abbrev X : Cert.Spec.A2 10000 128 := A m c main_arg0
abbrev Ap : Cert.Spec.A2 10000 10000 := A m c main_arg1
abbrev An : Cert.Spec.A2 10000 10000 := A m c main_arg2
abbrev Wp : Cert.Spec.A2 128 128 := A m c main_arg3
abbrev bp : Cert.Spec.A1 128 := A m c main_arg4
abbrev Wn : Cert.Spec.A2 128 128 := A m c main_arg5
abbrev bn : Cert.Spec.A1 128 := A m c main_arg6
abbrev W1 : Cert.Spec.A2 256 64 := A m c main_arg7
abbrev b1 : Cert.Spec.A1 64 := A m c main_arg8
abbrev W2 : Cert.Spec.A2 64 128 := A m c main_arg9
abbrev b2 : Cert.Spec.A1 128 := A m c main_arg10
abbrev W3 : Cert.Spec.A2 128 64 := A m c main_arg11
abbrev b3 : Cert.Spec.A1 64 := A m c main_arg12
abbrev Wd : Cert.Spec.A2 64 64 := A m c main_arg13

/-- The specification's result on the launch arguments. -/
abbrev Ysp : S10000x10000.Idx → EReal :=
  Cert.Spec.Y (X m c) (Ap m c) (An m c) (Wp m c) (Wn m c) (bp m c) (bn m c) (W1 m c) (b1 m c) (W2 m c) (b2 m c) (W3 m c) (b3 m c) (Wd m c)

/-! ## The feature transform and the graph convolution -/

/-- The positive-sign transformed features at node `q`, feature `j`. -/
theorem XP_apply (q : Fin 10000) (j : Fin 128) : XP m c (ix2 q j) = Cert.Spec.xw (X m c) (Wp m c) q j := by
  unfold XP
  refine (pay2_apply _ _ q j).trans ?_
  exact Finset.sum_congr rfl fun p _ => congrArg₂ (· * ·) (blk2 m c p0 q p) (blk3 m c p0 p j)

/-- The negative-sign transformed features at node `q`, feature `j`. -/
theorem XN_apply (q : Fin 10000) (j : Fin 128) : XN m c (ix2 q j) = Cert.Spec.xw (X m c) (Wn m c) q j := by
  unfold XN
  refine (pay3_apply _ _ q j).trans ?_
  exact Finset.sum_congr rfl fun p _ => congrArg₂ (· * ·) (blk2 m c p0 q p) (blk4 m c p0 p j)

/-- Before point 125 the adjacency block of point `t` starts at row `80 t`. -/
theorem row_of_block (t : Fin cfg0.N) (ht : t.val < 125) (r : Fin 80) :
    (⟨80 * min t.val 124 + r.val, by have := r.isLt; omega⟩ : Fin 10000)
      = ⟨80 * t.val + r.val, by have := r.isLt; omega⟩ :=
  Fin.ext (by show 80 * min t.val 124 + r.val = 80 * t.val + r.val; omega)

/-- The positive-sign convolved block of point `t < 125` is rows `80 t + r` of the layer. -/
theorem ZP_apply (t : Fin cfg0.N) (ht : t.val < 125) (r : Fin 80) (j : Fin 128) :
    ZP m c t (ix2 r j)
      = Cert.Spec.z (X m c) (Ap m c) (Wp m c) (bp m c) (⟨80 * t.val + r.val, by have := r.isLt; omega⟩ : Fin 10000) j := by
  unfold ZP
  refine (pay6_apply _ _ _ r j).trans ?_
  refine congrArg₂ (fun s b => max (s + b) Cert.Spec.z0) ?_ (blk5 m c t j)
  refine Finset.sum_congr rfl fun q _ => congrArg₂ (· * ·) ((blk0 m c t r q).trans ?_) (XP_apply m c q j)
  exact congrArg (fun R => A m c main_arg1 (ix2 R q)) (row_of_block t ht r)

/-- The negative-sign convolved block of point `t < 125` is rows `80 t + r` of the layer. -/
theorem ZN_apply (t : Fin cfg0.N) (ht : t.val < 125) (r : Fin 80) (j : Fin 128) :
    ZN m c t (ix2 r j)
      = Cert.Spec.z (X m c) (An m c) (Wn m c) (bn m c) (⟨80 * t.val + r.val, by have := r.isLt; omega⟩ : Fin 10000) j := by
  unfold ZN
  refine (pay7_apply _ _ _ r j).trans ?_
  refine congrArg₂ (fun s b => max (s + b) Cert.Spec.z0) ?_ (blk6 m c t j)
  refine Finset.sum_congr rfl fun q _ => congrArg₂ (· * ·) ((blk1 m c t r q).trans ?_) (XN_apply m c q j)
  exact congrArg (fun R => A m c main_arg2 (ix2 R q)) (row_of_block t ht r)

/-! ## The perceptron and the decoder's left factor on the band of point `t` -/

/-- The perceptron at point `t` (`1 ≤ t ≤ 125`) works on the block convolved at point `t − 1`: its output at `(r, k)` is
    the embedding of node `80 (t − 1) + r`. Layer by layer: the first layer's two sums read the two halves of its
    weight, then two dense layers. -/
theorem emb_band_apply (t : Fin cfg0.N) (h1 : 1 ≤ t.val) (h2 : t.val ≤ 125) (r : Fin 80) (k : Fin 64) :
    k0_pay9 (ZP m c (prev t)) (ZN m c (prev t)) (iblk m c 7 t) (iblk m c 8 t) (iblk m c 9 t) (iblk m c 10 t)
        (iblk m c 11 t) (iblk m c 12 t) (iblk m c 13 t) (ix2 r k)
      = Cert.Spec.hh (X m c) (Ap m c) (An m c) (Wp m c) (Wn m c) (bp m c) (bn m c) (W1 m c) (b1 m c) (W2 m c) (b2 m c) (W3 m c) (b3 m c)
          (⟨80 * (t.val - 1) + r.val, by have := r.isLt; omega⟩ : Fin 10000) k := by
  have hp : (prev t).val < 125 := by show t.val - 1 < 125; omega
  refine (pay9_apply _ _ _ _ _ _ _ _ _ r k).trans ?_
  unfold Cert.Spec.hh Cert.Spec.h2 Cert.Spec.h1
  refine congrArg₂ (· + ·) (Finset.sum_congr rfl fun j _ => congrArg₂ (· * ·) ?_ (blk12 m c t j k)) (blk13 m c t k)
  refine congrArg₂ (fun s b => max (s + b) Cert.Spec.z0)
    (Finset.sum_congr rfl fun k' _ => congrArg₂ (· * ·) ?_ (blk10 m c t k' j)) (blk11 m c t j)
  exact congrArg₂ (fun s b => max (s + b) Cert.Spec.z0)
    (congrArg₂ (· + ·)
      (Finset.sum_congr rfl fun j' _ => congrArg₂ (· * ·) (ZP_apply m c (prev t) hp r j') (blk7 m c t j' k'))
      (Finset.sum_congr rfl fun j' _ => congrArg₂ (· * ·) (ZN_apply m c (prev t) hp r j') (blk8 m c t j' k')))
    (blk9 m c t k')

/-- The 80 rows of the embedding point `t` stores. -/
theorem HB_apply (t : Fin cfg0.N) (h1 : 1 ≤ t.val) (h2 : t.val ≤ 125) (r : Fin 80) (k : Fin 64) :
    HB m c t (ix2 r k)
      = Cert.Spec.hh (X m c) (Ap m c) (An m c) (Wp m c) (Wn m c) (bp m c) (bn m c) (W1 m c) (b1 m c) (W2 m c) (b2 m c) (W3 m c) (b3 m c)
          (⟨80 * (t.val - 1) + r.val, by have := r.isLt; omega⟩ : Fin 10000) k := by
  unfold HB
  refine (pay4_apply _ (ix2 r k)).trans ?_
  refine (pay10_apply _ _ _ _ _ _ _ _ _ (ix2 r k)).trans ?_
  exact emb_band_apply m c t h1 h2 r k

/-- The 80 rows of the decoder's left factor point `t` stores. -/
theorem TB_apply (t : Fin cfg0.N) (h1 : 1 ≤ t.val) (h2 : t.val ≤ 125) (r : Fin 80) (k : Fin 64) :
    TB m c t (ix2 r k)
      = Cert.Spec.tt (X m c) (Ap m c) (An m c) (Wp m c) (Wn m c) (bp m c) (bn m c) (W1 m c) (b1 m c) (W2 m c) (b2 m c) (W3 m c) (b3 m c) (Wd m c)
          (⟨80 * (t.val - 1) + r.val, by have := r.isLt; omega⟩ : Fin 10000) k := by
  unfold TB
  refine (pay5_apply _ _ r k).trans ?_
  unfold Cert.Spec.tt
  exact Finset.sum_congr rfl fun j _ => congrArg₂ (· * ·) (emb_band_apply m c t h1 h2 r j) (blk14 m c t j k)

/-! ## The complete buffers: row `R` is row `R % 80` of the band of point `R / 80 + 1` -/

theorem ptOf_ix2 (R : Fin 10000) (k : Fin 64) : (ptOf (ix2 R k)).val = R.val / 80 + 1 := rfl

theorem locOf_ix2 (R : Fin 10000) (k : Fin 64) :
    locOf (ix2 R k) = ix2 (⟨R.val % 80, Nat.mod_lt _ (by decide)⟩ : Fin 80) k := rfl

/-- Band `R / 80 + 1` starts at row `80 (R / 80)`, and row `R` is its row `R % 80`. -/
theorem row_of_band (R : Fin 10000) (k : Fin 64) :
    (⟨80 * ((ptOf (ix2 R k)).val - 1) + R.val % 80, by have := R.isLt; rw [ptOf_ix2]; omega⟩ : Fin 10000) = R :=
  Fin.ext (by show 80 * ((ptOf (ix2 R k)).val - 1) + R.val % 80 = R.val; rw [ptOf_ix2]; omega)

/-- The complete embedding. -/
theorem HF_apply (R : Fin 10000) (k : Fin 64) :
    HF m c (ix2 R k) = Cert.Spec.hh (X m c) (Ap m c) (An m c) (Wp m c) (Wn m c) (bp m c) (bn m c) (W1 m c) (b1 m c) (W2 m c) (b2 m c) (W3 m c) (b3 m c) R k := by
  have hR := R.isLt
  show HB m c (ptOf (ix2 R k)) (locOf (ix2 R k)) = _
  rw [locOf_ix2]
  refine (HB_apply m c (ptOf (ix2 R k)) (by rw [ptOf_ix2]; omega) (by rw [ptOf_ix2]; omega) _ k).trans ?_
  exact congrArg
    (fun R' => Cert.Spec.hh (X m c) (Ap m c) (An m c) (Wp m c) (Wn m c) (bp m c) (bn m c) (W1 m c) (b1 m c) (W2 m c) (b2 m c) (W3 m c) (b3 m c) R' k)
    (row_of_band R k)

/-- The complete left factor of the decoder. -/
theorem TF_apply (R : Fin 10000) (k : Fin 64) :
    TF m c (ix2 R k) = Cert.Spec.tt (X m c) (Ap m c) (An m c) (Wp m c) (Wn m c) (bp m c) (bn m c) (W1 m c) (b1 m c) (W2 m c) (b2 m c) (W3 m c) (b3 m c) (Wd m c) R k := by
  have hR := R.isLt
  show TB m c (ptOf (ix2 R k)) (locOf (ix2 R k)) = _
  rw [locOf_ix2]
  refine (TB_apply m c (ptOf (ix2 R k)) (by rw [ptOf_ix2]; omega) (by rw [ptOf_ix2]; omega) _ k).trans ?_
  exact congrArg
    (fun R' => Cert.Spec.tt (X m c) (Ap m c) (An m c) (Wp m c) (Wn m c) (bp m c) (bn m c) (W1 m c) (b1 m c) (W2 m c) (b2 m c) (W3 m c) (b3 m c) (Wd m c) R' k)
    (row_of_band R k)

/-! ## The decoder -/

/-- A decode point `t ≥ 126` reads the 400 rows of a 10000-row buffer from row `400 (t − 126)`: the rectangle's offset
    plus one times the coordinate, on each axis. -/
theorem getRows_apply (t : Fin cfg0.N) (hD : condD (grid0.coords t)) (old : Vec Ideal S10000x64 .bf16)
    (r : Fin 400) (k : Fin 64) :
    getRows (Memref.whole cc0_scratch3) (Memref.isWhole_whole _) (grid0.coords t) hD old (ix2 r k)
      = old (ix2 (⟨400 * (t.val - 126) + r.val, by
          have := t.isLt; have hN : cfg0.N = 151 := N_0; have := r.isLt; omega⟩ : Fin 10000) k) := by
  unfold getRows
  rw [View.readAt_eq_ld, Memref.IsWhole.read_unread]
  have ho := hoff2 t hD
  refine at_ix2 (n0 := 10000) (n1 := 64) old _ _ k ?_ ?_
  · show k0_off2 (grid0.coords t) 0 + 1 * r.val = 400 * (t.val - 126) + r.val
    rw [ho]; show 400 * (t.val - 126) + 1 * r.val = _; omega
  · show k0_off2 (grid0.coords t) 1 + 1 * k.val = k.val
    rw [ho]; show 0 + 1 * k.val = _; omega

/-- The output block of a decode point is rows `400 (t − 126) + r` of the specification's result. -/
theorem OB_apply (t : Fin cfg0.N) (ht : 126 ≤ t.val) (r : Fin 400) (cc : Fin 10000) :
    OB m c t (ix2 r cc)
      = Ysp m c (ix2 (⟨400 * (t.val - 126) + r.val, by
          have := t.isLt; have hN : cfg0.N = 151 := N_0; have := r.isLt; omega⟩ : Fin 10000) cc) := by
  have hD : condD (grid0.coords t) := (hcondD t).mpr ht
  unfold OB
  rw [dif_pos hD]
  refine (pay8_apply _ _ r cc).trans ?_
  exact Finset.sum_congr rfl fun k _ =>
    congrArg₂ (· * ·) ((getRows_apply t hD (TF m c) r k).trans (TF_apply m c _ k)) (HF_apply m c cc k)

end Cert.KernelIdeal.ValueBridge

end
-- ==== Proof.KIOut.lean ====
/-
  The output array from the output window's written-back blocks.

  The kernel's result is staged through one window: blocks of 400 rows by all 10000 columns. The block index at
  grid point `t` is `(max (t − 126) 0, 0)`, and a block is written back to the array exactly at the points
  `126 ≤ t` (there the next point's block differs, or the grid ends). The 25 blocks written back at the points
  126 … 150 are the row ranges `400 (t − 126) ≤ row < 400 (t − 125)`: together they are all 10000 rows, row `R`
  lying in the block of point `R / 400 + 126`. So if, at each of those points, what the body leaves in the
  staging buffer is that block of one function `G` of the array's indices, the array ends holding `G`.
-/
import proofs.«162584_g16561393893844_cont_week2b_458_24_alg».proof.Proof.Gen.KernelIdeal.Frame
import Idealize.ShloMosaic.Lib.ValueIdx
import Idealize.ShloMosaic.Lib.Pipeline.Value

noncomputable section

namespace Cert.KernelIdeal.Out

open Cert.KernelIdeal Cert.KernelIdeal.Gen Idealize.ShloMosaic Idealize.ShloMosaic.TcCoe Idealize.ShloMosaic.ValueIdx
  Idealize.ShloMosaic.Pipeline Idealize.SL.Sem Idealize.ShloMosaic.Rounds

/-- The output window writes its block back exactly at the points from 126 on. -/
theorem flush15 : ∀ t : Fin cfg0.N, (cfg0.win 15).flush t = true ↔ 126 ≤ t.val :=
  (by decide +kernel : ∀ t : Fin grid0.N, _)

/-- The output window's block index at point `t`: row block `t − 126` (zero up to point 126), column block 0. -/
theorem idx15 : ∀ t : Fin cfg0.N, win0_15.index t (0 : Fin 2) = t.val - 126 ∧ win0_15.index t (1 : Fin 2) = 0 :=
  (by decide +kernel : ∀ t : Fin grid0.N, _)

/-- The grid has 151 points. -/
theorem N15 : cfg0.N = 151 := N_0

section
variable {c : Dev nD} (dat : Dat τ (Elt Ideal) Unit ℕ (UR sig nD τ) ℕ cfg0 c) (G : S10000x10000.Idx → EReal)
  (hafter : ∀ t : Fin cfg0.N, 126 ≤ t.val → ∀ (r : Fin 400) (cc : Fin 10000),
    dat.after 15 t (ix2 r cc)
      = G (ix2 (⟨400 * (t.val - 126) + r.val, by have := r.isLt; have := t.isLt; have := N15; omega⟩ : Fin 10000) cc))
include hafter

/-- What a writing point leaves in the staging buffer, read at an index `y` of the block, is `G` at the array index
    the block's rectangle puts `y` at: block index × block extent + `y` on each axis. -/
theorem after_at (t : Fin cfg0.N) (ht : 126 ≤ t.val) (y : S400x10000.Idx) :
    dat.after 15 t y = G (((cfg0.win 15).blk t).view.emb y) := by
  obtain ⟨e0, e1⟩ := idx15 t
  obtain ⟨r, cc, rfl⟩ : ∃ (r : Fin 400) (cc : Fin 10000), y = ix2 r cc := ⟨y 0, y 1, eq_ix2 y⟩
  rw [hafter t ht r cc]
  refine congrArg G (funext fun a => Fin.ext ?_)
  match a with
  | ⟨0, _⟩ => show 400 * (t.val - 126) + r.val = win0_15.index t (0 : Fin 2) * 400 + 1 * r.val; omega
  | ⟨1, _⟩ => show cc.val = win0_15.index t (1 : Fin 2) * 10000 + 1 * cc.val; omega

/-- What a writing point writes back is its block of `G`. -/
theorem flushed_eq (t : Fin cfg0.N) (ht : 126 ≤ t.val) :
    dat.flushed 15 t = ((cfg0.win 15).blk t).view.read (Elt Ideal) G :=
  funext fun y => after_at dat G hafter t ht y

end

/-- An index of the array is in point `t`'s block iff each coordinate is in the block's range on its axis. -/
theorem mem_blk (t : Fin cfg0.N) (i : S10000x10000.Idx) :
    i ∈ ((cfg0.win 15).blk t).view.set ↔ ∀ a : Fin 2, win0_15.index t a * S400x10000.size a ≤ (i a).val
      ∧ (i a).val < win0_15.index t a * S400x10000.size a + S400x10000.size a := by
  show i ∈ ((View.whole main_v8).slice (win0_15.rect t)).set ↔ _
  rw [View.set_slice_whole, Rect.mem_set_unit]
  exact Iff.rfl

/-- Every index of the array is in a written-back block: row `R` in that of point `R / 400 + 126`. -/
theorem cover (i : S10000x10000.Idx) :
    ∃ t : Fin cfg0.N, (cfg0.win 15).flush t = true ∧ i ∈ ((cfg0.win 15).blk t).view.set := by
  have hi0 : (i 0).val < 10000 := (i 0).isLt
  have hi1 : (i 1).val < 10000 := (i 1).isLt
  obtain ⟨t, ht⟩ : ∃ t : Fin cfg0.N, t.val = (i 0).val / 400 + 126 :=
    ⟨⟨(i 0).val / 400 + 126, by rw [N15]; omega⟩, rfl⟩
  obtain ⟨e0, e1⟩ := idx15 t
  refine ⟨t, (flush15 t).mpr (by omega), ?_⟩
  rw [mem_blk]
  intro a
  match a with
  | ⟨0, _⟩ =>
    show win0_15.index t (0 : Fin 2) * 400 ≤ (i 0).val ∧ (i 0).val < win0_15.index t (0 : Fin 2) * 400 + 400
    omega
  | ⟨1, _⟩ =>
    show win0_15.index t (1 : Fin 2) * 10000 ≤ (i 1).val ∧ (i 1).val < win0_15.index t (1 : Fin 2) * 10000 + 10000
    omega

/-- The output array after the run, for any proof data of the kernel's pipeline whose body leaves, at every
    writing point, the point's block of `G` in the output's staging buffer: `G`. -/
theorem final_of (c : Dev nD) (dat : Dat τ (Elt Ideal) Unit ℕ (UR sig nD τ) ℕ cfg0 c) (G : S10000x10000.Idx → EReal)
    (hafter : ∀ t : Fin cfg0.N, 126 ≤ t.val → ∀ (r : Fin 400) (cc : Fin 10000),
      dat.after 15 t (ix2 r cc)
        = G (ix2 (⟨400 * (t.val - 126) + r.val, by have := r.isLt; have := t.isLt; have := N15; omega⟩ : Fin 10000) cc)) :
    dat.arrAt 15 cfg0.N = G :=
  dat.arrAt_eq_of_cover 15 G (fun t hf => flushed_eq dat G hafter t ((flush15 t).mp hf)) cover

end Cert.KernelIdeal.Out

end
-- ==== Proof.RefValue.lean ====
/-
  The reference's result is the specification: read at the ideal instance, the value the reference program
  returns is `Cert.Spec.Y` of its fourteen arguments, index by index.

  The reference is a chain of matrix products, bias additions, maxima against zero, one joining of two arrays
  side by side and one transposition. Each stage is read at a row and a column:
    * a matrix product at (r, c) is the sum over the contraction index k of left (r, k) times right (k, c);
    * a bias broadcast over the rows reads the bias at the column;
    * the maximum against the broadcast zero constant is `max _ z0`, the zero kept as the word it is written with;
    * the two encoders' outputs joined side by side feed a 256-long contraction: that sum is split at 128, a
      column below 128 reading the first array and column 128 + j reading the second at j (`sum_concat_split`);
    * the transposed array at (k, c) is the array at (c, k).
  One lemma per stage identifies it with the specification's function of the same name; the last assembles them.
-/
import proofs.«162584_g16561393893844_cont_week2b_458_24_alg».proof.Proof.Spec
import proofs.«162584_g16561393893844_cont_week2b_458_24_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Two rank-2 indices with the same coordinates are equal: both coordinates agree by computation. -/
local macro "idx2_rfl" : tactic =>
  `(tactic| (funext a; match a with | ⟨0, _⟩ => rfl | ⟨1, _⟩ => rfl))
/-- The same for rank-1 indices. -/
local macro "idx1_rfl" : tactic =>
  `(tactic| (funext a; match a with | ⟨0, _⟩ => rfl))

section Stages
variable (x0 : (⟨S10000x128, .f32⟩ : BufTy).Contents (Elt Ideal)) (x1 x2 : (⟨S10000x10000, .f32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S256x64, .f32⟩ : BufTy).Contents (Elt Ideal)) (x8 : (⟨S64, .f32⟩ : BufTy).Contents (Elt Ideal))
  (x9 : (⟨S64x128, .f32⟩ : BufTy).Contents (Elt Ideal)) (x10 : (⟨S128, .f32⟩ : BufTy).Contents (Elt Ideal))
  (x11 : (⟨S128x64, .f32⟩ : BufTy).Contents (Elt Ideal)) (x12 : (⟨S64, .f32⟩ : BufTy).Contents (Elt Ideal))
  (x13 : (⟨S64x64, .f32⟩ : BufTy).Contents (Elt Ideal))

/-- The feature transform of the positive encoder: `X · Wp` at node `q`, feature `j`. -/
theorem xwp_eq (q : Fin 10000) (j : Fin 128) :
    val_main_v0 (F := Ideal) x0 x3 (ix2 q j) = Cert.Spec.xw x0 x3 q j := by
  rw [val_main_v0_apply]
  unfold Cert.Spec.xw
  refine Finset.sum_congr rfl fun p _ => ?_
  rw [show lidx_main_v0 (ix2 q j) p = ix2 q p from by idx2_rfl,
    show ridx_main_v0 (ix2 q j) p = ix2 p j from by idx2_rfl]

/-- The feature transform of the negative encoder: `X · Wn`. -/
theorem xwn_eq (q : Fin 10000) (j : Fin 128) :
    val_main_v6 (F := Ideal) x0 x5 (ix2 q j) = Cert.Spec.xw x0 x5 q j := by
  rw [val_main_v6_apply]
  unfold Cert.Spec.xw
  refine Finset.sum_congr rfl fun p _ => ?_
  rw [show lidx_main_v6 (ix2 q j) p = ix2 q p from by idx2_rfl,
    show ridx_main_v6 (ix2 q j) p = ix2 p j from by idx2_rfl]

/-- The positive encoder's layer: `max (Ap · (X · Wp) + bp, 0)` at node `r`, feature `j`. -/
theorem zp_eq (r : Fin 10000) (j : Fin 128) :
    val_main_v5 (F := Ideal) x0 x1 x3 x4 (ix2 r j) = Cert.Spec.z x0 x1 x3 x4 r j := by
  rw [val_main_v5_apply, val_main_v4_apply, val_main_v1_apply, val_main_v3_apply, val_main_v2_apply,
    val_main_call0_v0_apply, val_main_call0_cst_apply]
  have hs : (∑ k : Fin 10000, x1 (lidx_main_v1 (ix2 r j) k) * val_main_v0 (F := Ideal) x0 x3 (ridx_main_v1 (ix2 r j) k))
      = ∑ q : Fin 10000, x1 (ix2 r q) * Cert.Spec.xw x0 x3 q j :=
    Finset.sum_congr rfl fun k _ => by
      rw [show lidx_main_v1 (ix2 r j) k = ix2 r k from by idx2_rfl,
        show ridx_main_v1 (ix2 r j) k = ix2 k j from by idx2_rfl, xwp_eq]
  have hb : idx_main_v2 (idx_main_v3 (ix2 r j)) = ix1 j := by idx1_rfl
  rw [hs, hb]
  rfl

/-- The negative encoder's layer: `max (An · (X · Wn) + bn, 0)`. -/
theorem zn_eq (r : Fin 10000) (j : Fin 128) :
    val_main_v11 (F := Ideal) x0 x2 x5 x6 (ix2 r j) = Cert.Spec.z x0 x2 x5 x6 r j := by
  rw [val_main_v11_apply, val_main_v10_apply, val_main_v7_apply, val_main_v9_apply, val_main_v8_apply,
    val_main_call1_v0_apply, val_main_call1_cst_apply]
  have hs : (∑ k : Fin 10000, x2 (lidx_main_v7 (ix2 r j) k) * val_main_v6 (F := Ideal) x0 x5 (ridx_main_v7 (ix2 r j) k))
      = ∑ q : Fin 10000, x2 (ix2 r q) * Cert.Spec.xw x0 x5 q j :=
    Finset.sum_congr rfl fun k _ => by
      rw [show lidx_main_v7 (ix2 r j) k = ix2 r k from by idx2_rfl,
        show ridx_main_v7 (ix2 r j) k = ix2 k j from by idx2_rfl, xwn_eq]
  have hb : idx_main_v8 (idx_main_v9 (ix2 r j)) = ix1 j := by idx1_rfl
  rw [hs, hb]
  rfl

/-- The joined array at a column below 128 is the positive encoder's output there. -/
theorem cat_lo (r : Fin 10000) (k : Fin 64) (j : Fin 128) :
    val_main_v12 (F := Ideal) x0 x1 x2 x3 x4 x5 x6 (lidx_main_v13 (ix2 r k) (Cert.Spec.lo j))
      = Cert.Spec.z x0 x1 x3 x4 r j := by
  unfold val_main_v12
  exact (concatenate_pair_apply_left _ _ _ concatenates_S10000x128_S10000x128_S10000x256_d1
    (lidx_main_v13 (ix2 r k) (Cert.Spec.lo j)) rfl (ix2 r j)
    (fun b => match b with | ⟨0, _⟩ => rfl | ⟨1, _⟩ => rfl)).trans (zp_eq x0 x1 x3 x4 r j)

/-- The joined array at column `128 + j` is the negative encoder's output at `j`. -/
theorem cat_hi (r : Fin 10000) (k : Fin 64) (j : Fin 128) :
    val_main_v12 (F := Ideal) x0 x1 x2 x3 x4 x5 x6 (lidx_main_v13 (ix2 r k) (Cert.Spec.hi j))
      = Cert.Spec.z x0 x2 x5 x6 r j := by
  unfold val_main_v12
  exact (concatenate_pair_apply_right _ _ _ concatenates_S10000x128_S10000x128_S10000x256_d1
    (lidx_main_v13 (ix2 r k) (Cert.Spec.hi j)) rfl rfl (ix2 r j)
    (fun b hb => match b, hb with | ⟨0, _⟩, _ => rfl | ⟨1, _⟩, hb => (hb rfl).elim)
    (show j.val + 128 = 128 + j.val from Nat.add_comm _ _)).trans (zn_eq x0 x2 x5 x6 r j)

/-- The perceptron's first layer, the 256-long contraction split at row 128 of its weight. -/
theorem h1_eq (r : Fin 10000) (k : Fin 64) :
    val_main_v17 (F := Ideal) x0 x1 x2 x3 x4 x5 x6 x7 x8 (ix2 r k)
      = Cert.Spec.h1 x0 x1 x2 x3 x5 x4 x6 x7 x8 r k := by
  rw [val_main_v17_apply, val_main_v16_apply, val_main_v13_apply, val_main_v15_apply, val_main_v14_apply,
    val_main_call2_v0_apply, val_main_call2_cst_apply, Cert.Spec.sum_concat_split]
  have hl : (∑ j : Fin 128, val_main_v12 (F := Ideal) x0 x1 x2 x3 x4 x5 x6 (lidx_main_v13 (ix2 r k) (Cert.Spec.lo j))
        * x7 (ridx_main_v13 (ix2 r k) (Cert.Spec.lo j)))
      = ∑ j : Fin 128, Cert.Spec.z x0 x1 x3 x4 r j * x7 (ix2 (Cert.Spec.lo j) k) :=
    Finset.sum_congr rfl fun j _ => by
      rw [cat_lo, show ridx_main_v13 (ix2 r k) (Cert.Spec.lo j) = ix2 (Cert.Spec.lo j) k from by idx2_rfl]
  have hr : (∑ j : Fin 128, val_main_v12 (F := Ideal) x0 x1 x2 x3 x4 x5 x6 (lidx_main_v13 (ix2 r k) (Cert.Spec.hi j))
        * x7 (ridx_main_v13 (ix2 r k) (Cert.Spec.hi j)))
      = ∑ j : Fin 128, Cert.Spec.z x0 x2 x5 x6 r j * x7 (ix2 (Cert.Spec.hi j) k) :=
    Finset.sum_congr rfl fun j _ => by
      rw [cat_hi, show ridx_main_v13 (ix2 r k) (Cert.Spec.hi j) = ix2 (Cert.Spec.hi j) k from by idx2_rfl]
  have hb : idx_main_v14 (idx_main_v15 (ix2 r k)) = ix1 k := by idx1_rfl
  rw [hl, hr, hb]
  rfl

/-- The second layer: `max (h1 · W2 + b2, 0)`. -/
theorem h2_eq (r : Fin 10000) (j : Fin 128) :
    val_main_v22 (F := Ideal) x0 x1 x2 x3 x4 x5 x6 x7 x8 x9 x10 (ix2 r j)
      = Cert.Spec.h2 x0 x1 x2 x3 x5 x4 x6 x7 x8 x9 x10 r j := by
  rw [val_main_v22_apply, val_main_v21_apply, val_main_v18_apply, val_main_v20_apply, val_main_v19_apply,
    val_main_call3_v0_apply, val_main_call3_cst_apply]
  have hs : (∑ k : Fin 64, val_main_v17 (F := Ideal) x0 x1 x2 x3 x4 x5 x6 x7 x8 (lidx_main_v18 (ix2 r j) k)
        * x9 (ridx_main_v18 (ix2 r j) k))
      = ∑ k : Fin 64, Cert.Spec.h1 x0 x1 x2 x3 x5 x4 x6 x7 x8 r k * x9 (ix2 k j) :=
    Finset.sum_congr rfl fun k _ => by
      rw [show lidx_main_v18 (ix2 r j) k = ix2 r k from by idx2_rfl,
        show ridx_main_v18 (ix2 r j) k = ix2 k j from by idx2_rfl, h1_eq]
  have hb : idx_main_v19 (idx_main_v20 (ix2 r j)) = ix1 j := by idx1_rfl
  rw [hs, hb]
  rfl

/-- The third layer, the node embedding: `h2 · W3 + b3`. -/
theorem hh_eq (r : Fin 10000) (k : Fin 64) :
    val_main_v26 (F := Ideal) x0 x1 x2 x3 x4 x5 x6 x7 x8 x9 x10 x11 x12 (ix2 r k)
      = Cert.Spec.hh x0 x1 x2 x3 x5 x4 x6 x7 x8 x9 x10 x11 x12 r k := by
  rw [val_main_v26_apply, val_main_v23_apply, val_main_v25_apply, val_main_v24_apply]
  have hs : (∑ j : Fin 128, val_main_v22 (F := Ideal) x0 x1 x2 x3 x4 x5 x6 x7 x8 x9 x10 (lidx_main_v23 (ix2 r k) j)
        * x11 (ridx_main_v23 (ix2 r k) j))
      = ∑ j : Fin 128, Cert.Spec.h2 x0 x1 x2 x3 x5 x4 x6 x7 x8 x9 x10 r j * x11 (ix2 j k) :=
    Finset.sum_congr rfl fun j _ => by
      rw [show lidx_main_v23 (ix2 r k) j = ix2 r j from by idx2_rfl,
        show ridx_main_v23 (ix2 r k) j = ix2 j k from by idx2_rfl, h2_eq]
  have hb : idx_main_v24 (idx_main_v25 (ix2 r k)) = ix1 k := by idx1_rfl
  rw [hs, hb]
  rfl

/-- The decoder's left factor: `hh · Wd`. -/
theorem tt_eq (r : Fin 10000) (k : Fin 64) :
    val_main_v27 (F := Ideal) x0 x1 x2 x3 x4 x5 x6 x7 x8 x9 x10 x11 x12 x13 (ix2 r k)
      = Cert.Spec.tt x0 x1 x2 x3 x5 x4 x6 x7 x8 x9 x10 x11 x12 x13 r k := by
  rw [val_main_v27_apply]
  unfold Cert.Spec.tt
  refine Finset.sum_congr rfl fun j _ => ?_
  rw [show lidx_main_v27 (ix2 r k) j = ix2 r j from by idx2_rfl,
    show ridx_main_v27 (ix2 r k) j = ix2 j k from by idx2_rfl, hh_eq]

/-- The whole reference at the pair of nodes `(r, c)`: `(hh · Wd) · hhᵀ`, the transposed factor read at the
    swapped index. -/
theorem val_eq (r c : Fin 10000) :
    val_main_v29 (F := Ideal) x0 x1 x2 x3 x4 x5 x6 x7 x8 x9 x10 x11 x12 x13 (ix2 r c)
      = Cert.Spec.Y x0 x1 x2 x3 x5 x4 x6 x7 x8 x9 x10 x11 x12 x13 (ix2 r c) := by
  rw [val_main_v29_apply]
  show _ = ∑ k : Fin 64, Cert.Spec.tt x0 x1 x2 x3 x5 x4 x6 x7 x8 x9 x10 x11 x12 x13 r k
    * Cert.Spec.hh x0 x1 x2 x3 x5 x4 x6 x7 x8 x9 x10 x11 x12 c k
  refine Finset.sum_congr rfl fun k _ => ?_
  rw [val_main_v28_apply, show lidx_main_v29 (ix2 r c) k = ix2 r k from by idx2_rfl,
    show idx_main_v28 (ridx_main_v29 (ix2 r c) k) = ix2 c k from by idx2_rfl, tt_eq, hh_eq]

end Stages

/-- The reference's result, at the ideal instance, is the specification of its arguments' launch contents. -/
theorem result_eq (m : (ℓ : Loc nD τ sig) → Buf (Elt Ideal) ℓ) (c : Dev nD) :
    Cert.ReferenceIdeal.Value.res_out0 (F := Ideal) m c
      = Cert.Spec.Y (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg5)) (m ((c.tc : Thread nD τ).loc main_arg4))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)) :=
  (val_main_v29_eq (F := Ideal) m c).trans (funext fun y => by
    obtain ⟨r, c', rfl⟩ : ∃ r c' : Fin 10000, y = ix2 r c' := ⟨y 0, y 1, eq_ix2 y⟩
    exact val_eq _ _ _ _ _ _ _ _ _ _ _ _ _ _ r c')

end Cert.ReferenceIdeal.RefValue

end
-- ==== Proof.lean ====
/-
  The certificate: a fused kernel for a two-sign dense graph-convolution encoder, a three-layer perceptron and a
  bilinear decoder, against its plain reference.

  Both programs compute Y = (H · Wd) · Hᵀ where H is the perceptron of the two encoders' outputs
  max (A± · (X · W±) + b±, 0) side by side (Proof/Spec.lean). The kernel walks 151 grid points over six scratch
  buffers: it transforms the features once, convolves 80 nodes per point, runs the perceptron one point behind the
  convolution into two 10000-row buffers, and then decodes 400 rows of the result per point.

  * The three frames. Each kernel program's frame is its pipelined region's run: the body's four control cases run
    symbolically (Proof/K*RunA–D.lean), an invariant naming what every scratch buffer holds between points
    (Proof/K*Defs.lean, K*Body.lean), and the library's launch theorem. The reference's frame is its run with the
    result dropped.
  * preserves: the idealized kernel is the kernel's own text read at the ideal instance; nothing was rewritten.
  * algebraic: at the ideal instance the kernel's output array is the specification of its arguments — every input
    block is the launch argument at the block's place (Proof/KIBlocks.lean), every stored payload is the
    specification's sum at an index (Proof/KIPay.lean, KIValue.lean), the decode points' blocks tile the result
    (Proof/KIOut.lean) — and so is the reference's result (Proof/RefValue.lean), where the perceptron's first layer
    over the concatenated encoders is split at row 128 of its weight: a re-bracketing of a finite sum, valid on the
    extended reals with no finiteness assumption. The precondition is not used.
-/
import proofs.«162584_g16561393893844_cont_week2b_458_24_alg».proof.Defs
import proofs.«162584_g16561393893844_cont_week2b_458_24_alg».proof.Proof.Gen.Kernel
import proofs.«162584_g16561393893844_cont_week2b_458_24_alg».proof.Proof.Gen.KernelIdeal
import proofs.«162584_g16561393893844_cont_week2b_458_24_alg».proof.Proof.Gen.ReferenceIdeal
import proofs.«162584_g16561393893844_cont_week2b_458_24_alg».proof.Proof.Gen.Pre_finite_inputs
import proofs.«162584_g16561393893844_cont_week2b_458_24_alg».proof.Proof.KBody
import proofs.«162584_g16561393893844_cont_week2b_458_24_alg».proof.Proof.KIBody
import proofs.«162584_g16561393893844_cont_week2b_458_24_alg».proof.Proof.KIValue
import proofs.«162584_g16561393893844_cont_week2b_458_24_alg».proof.Proof.KIOut
import proofs.«162584_g16561393893844_cont_week2b_458_24_alg».proof.Proof.RefValue
import Idealize.ShloMosaic.Adequacy
import Idealize.ShloMosaic.Init

noncomputable section

namespace Cert.Proof

open Idealize.ShloMosaic Idealize.SL.Sem

/-- The word-level kernel runs to the end and leaves its arguments unchanged. -/
theorem frame_k : Cert.frame_Kernel := fun m ρ _ =>
  Cert.Kernel.Gen.frame_of m ρ (Cert.Kernel.Body.dats m) (Cert.Kernel.Body.A_eq m) (Cert.Kernel.Body.run_main m ρ)

/-- So does the idealized kernel. -/
theorem frame_ki : Cert.frame_KernelIdeal := fun m ρ _ =>
  Cert.KernelIdeal.Gen.frame_of m ρ (Cert.KernelIdeal.Body.dats m) (Cert.KernelIdeal.Body.A_eq m) (Cert.KernelIdeal.Body.run_main m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- After the run the kernel's output array is the specification of its arguments: the decode points' blocks tile
    it, and each is the specification at its rows. -/
theorem kernel_value (m : (ℓ : Loc Cert.KernelIdeal.nD Cert.KernelIdeal.τ Cert.KernelIdeal.sig) → Buf (Elt Ideal) ℓ) (c : Dev Cert.KernelIdeal.nD) :
    (Cert.KernelIdeal.Body.dats (F := Ideal) m 0 c).arrAt 15 Cert.KernelIdeal.cfg0.N = Cert.KernelIdeal.ValueBridge.Ysp m c :=
  Cert.KernelIdeal.Out.final_of c _ _ fun t ht r cc => by
    rw [Cert.KernelIdeal.Body.after0_15]; exact Cert.KernelIdeal.ValueBridge.OB_apply m c t ht r cc

/-- From memories agreeing on the arguments both idealized programs end with the specification of those arguments
    in their result, their arguments unchanged: the kernel's are read off the same run as its result — an argument a
    window stages is an input array of the pipeline, which the run leaves as it found it; the others bypass the region. -/
theorem algebraic : Cert.algebraic_KernelIdeal_ReferenceIdeal := by
  intro m ρ m' ρ' _ hagree
  refine ⟨fun c => Cert.KernelIdeal.ValueBridge.Ysp m c, ?_, ?_⟩
  · refine (θ_run Cert.KernelIdeal.defs _ _).mono (fun r h c => ?_) (Cert.KernelIdeal.Body.run_main (F := Ideal) m ρ)
    exact ⟨((h c).1 15).trans (kernel_value m c),
      ((h c).2 Cert.KernelIdeal.main_arg0 (Pipeline.mem_restRefs_of Cert.KernelIdeal.main_arg0 (by decide) (by decide))).trans (Cert.KernelIdeal.Gen.V_main_arg0 m c),
      ((h c).1 0).trans (((Cert.KernelIdeal.Body.dats m 0 c).arrAt_in 0 rfl _).trans ((Cert.KernelIdeal.Body.A_eq m c 0).trans (Cert.KernelIdeal.Gen.V_main_arg1 m c))),
      ((h c).1 1).trans (((Cert.KernelIdeal.Body.dats m 0 c).arrAt_in 1 rfl _).trans ((Cert.KernelIdeal.Body.A_eq m c 1).trans (Cert.KernelIdeal.Gen.V_main_arg2 m c))),
      ((h c).1 3).trans (((Cert.KernelIdeal.Body.dats m 0 c).arrAt_in 3 rfl _).trans ((Cert.KernelIdeal.Body.A_eq m c 3).trans (Cert.KernelIdeal.Gen.V_main_arg3 m c))),
      ((h c).2 Cert.KernelIdeal.main_arg4 (Pipeline.mem_restRefs_of Cert.KernelIdeal.main_arg4 (by decide) (by decide))).trans (Cert.KernelIdeal.Gen.V_main_arg4 m c),
      ((h c).1 4).trans (((Cert.KernelIdeal.Body.dats m 0 c).arrAt_in 4 rfl _).trans ((Cert.KernelIdeal.Body.A_eq m c 4).trans (Cert.KernelIdeal.Gen.V_main_arg5 m c))),
      ((h c).2 Cert.KernelIdeal.main_arg6 (Pipeline.mem_restRefs_of Cert.KernelIdeal.main_arg6 (by decide) (by decide))).trans (Cert.KernelIdeal.Gen.V_main_arg6 m c),
      ((h c).2 Cert.KernelIdeal.main_arg7 (Pipeline.mem_restRefs_of Cert.KernelIdeal.main_arg7 (by decide) (by decide))).trans (Cert.KernelIdeal.Gen.V_main_arg7 m c),
      ((h c).2 Cert.KernelIdeal.main_arg8 (Pipeline.mem_restRefs_of Cert.KernelIdeal.main_arg8 (by decide) (by decide))).trans (Cert.KernelIdeal.Gen.V_main_arg8 m c),
      ((h c).1 10).trans (((Cert.KernelIdeal.Body.dats m 0 c).arrAt_in 10 rfl _).trans ((Cert.KernelIdeal.Body.A_eq m c 10).trans (Cert.KernelIdeal.Gen.V_main_arg9 m c))),
      ((h c).2 Cert.KernelIdeal.main_arg10 (Pipeline.mem_restRefs_of Cert.KernelIdeal.main_arg10 (by decide) (by decide))).trans (Cert.KernelIdeal.Gen.V_main_arg10 m c),
      ((h c).1 12).trans (((Cert.KernelIdeal.Body.dats m 0 c).arrAt_in 12 rfl _).trans ((Cert.KernelIdeal.Body.A_eq m c 12).trans (Cert.KernelIdeal.Gen.V_main_arg11 m c))),
      ((h c).2 Cert.KernelIdeal.main_arg12 (Pipeline.mem_restRefs_of Cert.KernelIdeal.main_arg12 (by decide) (by decide))).trans (Cert.KernelIdeal.Gen.V_main_arg12 m c),
      ((h c).1 14).trans (((Cert.KernelIdeal.Body.dats m 0 c).arrAt_in 14 rfl _).trans ((Cert.KernelIdeal.Body.A_eq m c 14).trans (Cert.KernelIdeal.Gen.V_main_arg13 m c)))⟩
  · refine (θ_run Cert.ReferenceIdeal.defs _ _).mono (fun r h c => ?_) (Cert.ReferenceIdeal.Value.run (F := Ideal) m' ρ')
    refine ⟨(h c).1.trans ?_, (h c).2⟩
    obtain ⟨a0, a1, a2, a3, a4, a5, a6, a7, a8, a9, a10, a11, a12, a13⟩ := hagree c
    refine (Cert.ReferenceIdeal.RefValue.result_eq m' c).trans ?_
    rw [a0, a1, a2, a3, a4, a5, a6, a7, a8, a9, a10, a11, a12, a13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
